-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S17 : Shape := ⟨1, ![17]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2500 : Shape := ⟨2, ![512, 2500]⟩
abbrev S2500 : Shape := ⟨1, ![2500]⟩
abbrev S_ : Shape := ⟨0, ![]⟩
abbrev S1 : Shape := ⟨1, ![1]⟩
abbrev S16 : Shape := ⟨1, ![16]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x2500 : S_.BroadcastsInDim S512x2500 (![] : Fin 0 → Fin S512x2500.rank)
  reducesTo_S512x2500_S_d0_1 : S512x2500.ReducesTo [0, 1] S_
  bcast_S_S2500 : S_.BroadcastsInDim S2500 (![] : Fin 0 → Fin S2500.rank)
  reducesTo_S2500_S_d0 : S2500.ReducesTo [0] S_
  slices_S17_S1_0 : S17.Slices ![0] S1
  shapeCasts_S1_S_ : S1.ShapeCasts S_
  slices_S17_S16_1 : S17.Slices ![1] S16
  slices_S17_S16_0 : S17.Slices ![0] S16
  reducesTo_S16_S_d0 : S16.ReducesTo [0] S_

variable [Facts]

def fn_part3 {F : FTy → Type} [FloatOps F] (main_arg1 : IVec S17 32) (main_v48 : IVec S_ 1) (main_v49 : FVec F S2500 .f32) (main_v50 : FVec F S2500 .f32) : IVec S_ 1 :=
  let main_v51 : IVec S2500 1 := cmpf .olt main_v49 main_v50
  let main_c_19 : IVec S_ 1 := constantI S_ 1 1#1
  let main_v52 : IVec S_ 1 := (fun x v => Host.reduce IntOp.andi x v reducesTo_S2500_S_d0 h_S_) main_v51 main_c_19
  let main_v53 : IVec S_ 1 := andi main_v48 main_v52
  let main_v54 : IVec S1 32 := (extractStridedSlice S1 ![0] · slices_S17_S1_0) main_arg1
  let main_v55 : IVec S_ 32 := shapeCast S_ main_v54 shapeCasts_S1_S_
  let main_c_20 : IVec S_ 32 := constantI S_ 32 0#32
  let main_v56 : IVec S_ 1 := cmpi .eq main_v55 main_c_20
  let main_v57 : IVec S_ 1 := andi main_v53 main_v56
  let main_v58 : IVec S16 32 := (extractStridedSlice S16 ![1] · slices_S17_S16_1) main_arg1
  let main_v59 : IVec S16 32 := (extractStridedSlice S16 ![0] · slices_S17_S16_0) main_arg1
  let main_v60 : IVec S16 1 := cmpi .sge main_v58 main_v59
  let main_c_21 : IVec S_ 1 := constantI S_ 1 1#1
  let main_v61 : IVec S_ 1 := (fun x v => Host.reduce IntOp.andi x v reducesTo_S16_S_d0 h_S_) main_v60 main_c_21
  let main_v62 : IVec S_ 1 := andi main_v57 main_v61
  main_v62

def fn_part2 {F : FTy → Type} [FloatOps F] (main_arg1 : IVec S17 32) (main_arg8 : FVec F S256x512 .f32) (main_arg9 : FVec F S512 .f32) (main_arg10 : FVec F S512x2500 .f32) (main_arg11 : FVec F S2500 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x2500 .f32 := Host.absf main_arg10
  let main_cst_16 : FVec F S_ .f32 := constant S_ .f32 0x7F800000#32
  let main_v45 : FVec F S512x2500 .f32 := broadcastInDim S512x2500 ![] bcast_S_S512x2500 main_cst_16
  let main_v46 : IVec S512x2500 1 := cmpf .olt main_v44 main_v45
  let main_c_17 : IVec S_ 1 := constantI S_ 1 1#1
  let main_v47 : IVec S_ 1 := (fun x v => Host.reduce IntOp.andi x v reducesTo_S512x2500_S_d0_1 h_S_) main_v46 main_c_17
  let main_v48 : IVec S_ 1 := andi main_v43 main_v47
  let main_v49 : FVec F S2500 .f32 := Host.absf main_arg11
  let main_cst_18 : FVec F S_ .f32 := constant S_ .f32 0x7F800000#32
  let main_v50 : FVec F S2500 .f32 := broadcastInDim S2500 ![] bcast_S_S2500 main_cst_18
  fn_part3 (F := F) main_arg1 main_v48 main_v49 main_v50

def fn_part1 {F : FTy → Type} [FloatOps F] (main_arg1 : IVec S17 32) (main_arg5 : FVec F S128 .f32) (main_arg6 : FVec F S128x256 .f32) (main_arg7 : FVec F S256 .f32) (main_arg8 : FVec F S256x512 .f32) (main_arg9 : FVec F S512 .f32) (main_arg10 : FVec F S512x2500 .f32) (main_arg11 : FVec F S2500 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S16384x3 .f32) (main_arg1 : IVec S17 32) (main_arg2 : FVec F S3x64 .f32) (main_arg3 : FVec F S64 .f32) (main_arg4 : FVec F S64x128 .f32) (main_arg5 : FVec F S128 .f32) (main_arg6 : FVec F S128x256 .f32) (main_arg7 : FVec F S256 .f32) (main_arg8 : FVec F S256x512 .f32) (main_arg9 : FVec F S512 .f32) (main_arg10 : FVec F S512x2500 .f32) (main_arg11 : FVec F S2500 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_v13 main_v16
-- ==== Kernel.lean ====
abbrev S16384x3 : Shape := ⟨2, ![16384, 3]⟩
abbrev S17 : Shape := ⟨1, ![17]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2500 : Shape := ⟨2, ![512, 2500]⟩
abbrev S2500 : Shape := ⟨1, ![2500]⟩
abbrev S_ : Shape := ⟨0, ![]⟩
abbrev S16384x1 : Shape := ⟨2, ![16384, 1]⟩
abbrev S16384x4 : Shape := ⟨2, ![16384, 4]⟩
abbrev S16384x8 : Shape := ⟨2, ![16384, 8]⟩
abbrev S1x64 : Shape := ⟨2, ![1, 64]⟩
abbrev S4x64 : Shape := ⟨2, ![4, 64]⟩
abbrev S8x64 : Shape := ⟨2, ![8, 64]⟩
abbrev S8x8 : Shape := ⟨2, ![8, 8]⟩
abbrev S1 : Shape := ⟨1, ![1]⟩
abbrev S2 : Shape := ⟨1, ![2]⟩
abbrev S8x72 : Shape := ⟨2, ![8, 72]⟩
abbrev S1x128 : Shape := ⟨2, ![1, 128]⟩
abbrev S7x128 : Shape := ⟨2, ![7, 128]⟩
abbrev S72x128 : Shape := ⟨2, ![72, 128]⟩
abbrev S72x8 : Shape := ⟨2, ![72, 8]⟩
abbrev S72x136 : Shape := ⟨2, ![72, 136]⟩
abbrev S1x256 : Shape := ⟨2, ![1, 256]⟩
abbrev S7x256 : Shape := ⟨2, ![7, 256]⟩
abbrev S136x256 : Shape := ⟨2, ![136, 256]⟩
abbrev S16 : Shape := ⟨1, ![16]⟩
abbrev S16x1 : Shape := ⟨2, ![16, 1]⟩
abbrev S1x512 : Shape := ⟨2, ![1, 512]⟩
abbrev S1x2500 : Shape := ⟨2, ![1, 2500]⟩
abbrev S16x2500 : Shape := ⟨2, ![16, 2500]⟩
abbrev S4096x8 : Shape := ⟨2, ![4096, 8]⟩
abbrev S16x256 : Shape := ⟨2, ![16, 256]⟩
abbrev S4096x72 : Shape := ⟨2, ![4096, 72]⟩
abbrev S4096x136 : Shape := ⟨2, ![4096, 136]⟩
abbrev S4096x256 : Shape := ⟨2, ![4096, 256]⟩
abbrev S16x4096 : Shape := ⟨2, ![16, 4096]⟩
abbrev S16x512 : Shape := ⟨2, ![16, 512]⟩

abbrev nBuf : Space → Nat
  | .hbm => 64
  | .vmem => 16
  | .smem => 0
  | _ => 0

abbrev bufTy : (tb : Table) → Fin (tcTables nBuf tb) → BufTy
  | .hbm, ⟨0, _⟩ => ⟨S16384x3, .f32⟩
  | .hbm, ⟨1, _⟩ => ⟨S17, .i32⟩
  | .hbm, ⟨2, _⟩ => ⟨S3x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x2500, .f32⟩
  | .hbm, ⟨11, _⟩ => ⟨S2500, .f32⟩
  | .hbm, ⟨12, _⟩ => ⟨S_, .f32⟩
  | .hbm, ⟨13, _⟩ => ⟨S16384x1, .f32⟩
  | .hbm, ⟨14, _⟩ => ⟨S_, .f32⟩
  | .hbm, ⟨15, _⟩ => ⟨S16384x4, .f32⟩
  | .hbm, ⟨16, _⟩ => ⟨S16384x8, .f32⟩
  | .hbm, ⟨17, _⟩ => ⟨S1x64, .f32⟩
  | .hbm, ⟨18, _⟩ => ⟨S_, .f32⟩
  | .hbm, ⟨19, _⟩ => ⟨S4x64, .f32⟩
  | .hbm, ⟨20, _⟩ => ⟨S8x64, .f32⟩
  | .hbm, ⟨21, _⟩ => ⟨S_, .f32⟩
  | .hbm, ⟨22, _⟩ => ⟨S8x8, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S_, .f32⟩
  | .hbm, ⟨29, _⟩ => ⟨S8x8, .f32⟩
  | .hbm, ⟨30, _⟩ => ⟨S8x72, .f32⟩
  | .hbm, ⟨31, _⟩ => ⟨S1x128, .f32⟩
  | .hbm, ⟨32, _⟩ => ⟨S_, .f32⟩
  | .hbm, ⟨33, _⟩ => ⟨S7x128, .f32⟩
  | .hbm, ⟨34, _⟩ => ⟨S72x128, .f32⟩
  | .hbm, ⟨35, _⟩ => ⟨S_, .f32⟩
  | .hbm, ⟨36, _⟩ => ⟨S72x8, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S_, .f32⟩
  | .hbm, ⟨43, _⟩ => ⟨S72x8, .f32⟩
  | .hbm, ⟨44, _⟩ => ⟨S72x136, .f32⟩
  | .hbm, ⟨45, _⟩ => ⟨S1x256, .f32⟩
  | .hbm, ⟨46, _⟩ => ⟨S_, .f32⟩
  | .hbm, ⟨47, _⟩ => ⟨S7x256, .f32⟩
  | .hbm, ⟨48, _⟩ => ⟨S136x256, .f32⟩
  | .hbm, ⟨49, _⟩ => ⟨S16, .i32⟩
  | .hbm, ⟨50, _⟩ => ⟨S16x1, .i32⟩
  | .hbm, ⟨51, _⟩ => ⟨S16, .i32⟩
  | .hbm, ⟨52, _⟩ => ⟨S16x1, .i32⟩
  | .hbm, ⟨53, _⟩ => ⟨S16x1, .i32⟩
  | .hbm, ⟨54, _⟩ => ⟨S16x1, .f32⟩
  | .hbm, ⟨55, _⟩ => ⟨S_, .f32⟩
  | .hbm, ⟨56, _⟩ => ⟨S16x1, .f32⟩
  | .hbm, ⟨57, _⟩ => ⟨S16x1, .f32⟩
  | .hbm, ⟨58, _⟩ => ⟨S_, .f32⟩
  | .hbm, ⟨59, _⟩ => ⟨S16x1, .f32⟩
  | .hbm, ⟨60, _⟩ => ⟨S16x1, .f32⟩
  | .hbm, ⟨61, _⟩ => ⟨S1x512, .f32⟩
  | .hbm, ⟨62, _⟩ => ⟨S1x2500, .f32⟩
  | .hbm, ⟨63, _⟩ => ⟨S16x2500, .f32⟩
  | .local _ .vmem, ⟨0, _⟩ => ⟨S16x1, .i32⟩
  | .local _ .vmem, ⟨1, _⟩ => ⟨S16x1, .i32⟩
  | .local _ .vmem, ⟨2, _⟩ => ⟨S16x1, .f32⟩
  | .local _ .vmem, ⟨3, _⟩ => ⟨S4096x8, .f32⟩
  | .local _ .vmem, ⟨4, _⟩ => ⟨S4096x8, .f32⟩
  | .local _ .vmem, ⟨5, _⟩ => ⟨S8x72, .f32⟩
  | .local _ .vmem, ⟨6, _⟩ => ⟨S72x136, .f32⟩
  | .local _ .vmem, ⟨7, _⟩ => ⟨S136x256, .f32⟩
  | .local _ .vmem, ⟨8, _⟩ => ⟨S256x512, .f32⟩
  | .local _ .vmem, ⟨9, _⟩ => ⟨S1x512, .f32⟩
  | .local _ .vmem, ⟨10, _⟩ => ⟨S512x2500, .f32⟩
  | .local _ .vmem, ⟨11, _⟩ => ⟨S1x2500, .f32⟩
  | .local _ .vmem, ⟨12, _⟩ => ⟨S16x2500, .f32⟩
  | .local _ .vmem, ⟨13, _⟩ => ⟨S16x256, .f32⟩
  | .local _ .vmem, ⟨14, _⟩ => ⟨S4096x72, .f32⟩
  | .local _ .vmem, ⟨15, _⟩ => ⟨S4096x136, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_c_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_c_7 : Ref sig .tc := ⟨.hbm, 37, rfl⟩
abbrev main_v16 : Ref sig .tc := ⟨.hbm, 38, rfl⟩
abbrev main_c_8 : Ref sig .tc := ⟨.hbm, 39, rfl⟩
abbrev main_v17 : Ref sig .tc := ⟨.hbm, 40, rfl⟩
abbrev main_v18 : Ref sig .tc := ⟨.hbm, 41, rfl⟩
abbrev main_cst_9 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_10 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_cst_12 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v51 : BitVec 1 := Scalar.cmpi .eq arg0 c3_i32
  let v52 : BitVec 32 := Scalar.extui v51
  let c0_i32_30 : BitVec 32 := 0#32
  let v53 : BitVec 1 := Scalar.cmpi .ne v52 c0_i32_30
  v53

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S72x136 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S136x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2500 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2500 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x2500 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  bcast_S_S16384x1 : S_.BroadcastsInDim S16384x1 (![] : Fin 0 → Fin S16384x1.rank)
  bcast_S_S16384x4 : S_.BroadcastsInDim S16384x4 (![] : Fin 0 → Fin S16384x4.rank)
  concatenates_S16384x3_S16384x1_S16384x4_S16384x8_d1 : Shape.Concatenates [S16384x3, S16384x1, S16384x4] S16384x8 1
  bcast_S64_S1x64_1 : S64.BroadcastsInDim S1x64 (![1] : Fin 1 → Fin S1x64.rank)
  bcast_S_S4x64 : S_.BroadcastsInDim S4x64 (![] : Fin 0 → Fin S4x64.rank)
  concatenates_S3x64_S1x64_S4x64_S8x64_d0 : Shape.Concatenates [S3x64, S1x64, S4x64] S8x64 0
  bcast_S_S8x8 : S_.BroadcastsInDim S8x8 (![] : Fin 0 → Fin S8x8.rank)
  bcast_S_S1 : S_.BroadcastsInDim S1 (![] : Fin 0 → Fin S1.rank)
  concatenates_S1_S1_S2_d0 : Shape.Concatenates [S1, S1] S2 0
  concatenates_S8x64_S8x8_S8x72_d1 : Shape.Concatenates [S8x64, S8x8] S8x72 1
  bcast_S128_S1x128_1 : S128.BroadcastsInDim S1x128 (![1] : Fin 1 → Fin S1x128.rank)
  bcast_S_S7x128 : S_.BroadcastsInDim S7x128 (![] : Fin 0 → Fin S7x128.rank)
  concatenates_S64x128_S1x128_S7x128_S72x128_d0 : Shape.Concatenates [S64x128, S1x128, S7x128] S72x128 0
  bcast_S_S72x8 : S_.BroadcastsInDim S72x8 (![] : Fin 0 → Fin S72x8.rank)
  concatenates_S72x128_S72x8_S72x136_d1 : Shape.Concatenates [S72x128, S72x8] S72x136 1
  bcast_S256_S1x256_1 : S256.BroadcastsInDim S1x256 (![1] : Fin 1 → Fin S1x256.rank)
  bcast_S_S7x256 : S_.BroadcastsInDim S7x256 (![] : Fin 0 → Fin S7x256.rank)
  concatenates_S128x256_S1x256_S7x256_S136x256_d0 : Shape.Concatenates [S128x256, S1x256, S7x256] S136x256 0
  slices_S17_S16_0 : S17.Slices ![0] S16
  shapeCasts_S16_S16x1 : S16.ShapeCasts S16x1
  slices_S17_S16_1 : S17.Slices ![1] S16
  bcast_S_S16x1 : S_.BroadcastsInDim S16x1 (![] : Fin 0 → Fin S16x1.rank)
  shapeCasts_S512_S1x512 : S512.ShapeCasts S1x512
  shapeCasts_S2500_S1x2500 : S2500.ShapeCasts S1x2500
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x72_S8x72_0_0 : ∀ a, (![0, 0] : Fin 2 → Nat) a + S8x72.size a ≤ S8x72.size a
  h_S8x72 : 0 < S8x72.numel
  shapeCasts_S8x72_S8x72 : S8x72.ShapeCasts S8x72
  inb_S4096x72_S4096x72_0_0 : ∀ a, (![0, 0] : Fin 2 → Nat) a + S4096x72.size a ≤ S4096x72.size a
  h_S4096x72 : 0 < S4096x72.numel
  shapeCasts_S4096x72_S4096x72 : S4096x72.ShapeCasts S4096x72
  inb_S72x136_S72x136_0_0 : ∀ a, (![0, 0] : Fin 2 → Nat) a + S72x136.size a ≤ S72x136.size a
  h_S72x136 : 0 < S72x136.numel
  shapeCasts_S72x136_S72x136 : S72x136.ShapeCasts S72x136
  inb_S4096x136_S4096x136_0_0 : ∀ a, (![0, 0] : Fin 2 → Nat) a + S4096x136.size a ≤ S4096x136.size a
  h_S4096x136 : 0 < S4096x136.numel
  shapeCasts_S4096x136_S4096x136 : S4096x136.ShapeCasts S4096x136
  inb_S136x256_S136x256_0_0 : ∀ a, (![0, 0] : Fin 2 → Nat) a + S136x256.size a ≤ S136x256.size a
  h_S136x256 : 0 < S136x256.numel
  shapeCasts_S136x256_S136x256 : S136x256.ShapeCasts S136x256
  iota_S16x4096_d1_w32 : S16x4096.Iotas .tc 32 [1]
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x4096 : S16x1.Broadcasts S16x4096
  natLt_1_32 : 1 < 32
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S512x2500_S512x2500_0_0 : ∀ a, (![0, 0] : Fin 2 → Nat) a + S512x2500.size a ≤ S512x2500.size a
  h_S512x2500 : 0 < S512x2500.numel
  inb_S1x2500_S1x2500_0_0 : ∀ a, (![0, 0] : Fin 2 → Nat) a + S1x2500.size a ≤ S1x2500.size a
  h_S1x2500 : 0 < S1x2500.numel
  shapeCasts_S1x2500_S1x2500 : S1x2500.ShapeCasts S1x2500
  broadcasts_S1x2500_S16x2500 : S1x2500.Broadcasts S16x2500
  inb_S16x2500_S16x2500_0_0 : ∀ a, (![0, 0] : Fin 2 → Nat) a + S16x2500.size a ≤ S16x2500.size a
  h_S16x2500 : 0 < S16x2500.numel
  scatter_S8x8_S2_S__n_01_01_0_wf : ScatterDims.WF S8x8 S2 S_ [] [0, 1] [0, 1] 0
  scatter_S72x8_S2_S__n_01_01_0_wf : ScatterDims.WF S72x8 S2 S_ [] [0, 1] [0, 1] 0
  dot_S4096x8_S8x72_S4096x72_1_0_0_1_n_n_wf : DotDims.WF S4096x8 S8x72 S4096x72 [1] [0] [0] [1] [] []
  dot_S4096x72_S72x136_S4096x136_1_0_0_1_n_n_wf : DotDims.WF S4096x72 S72x136 S4096x136 [1] [0] [0] [1] [] []
  dot_S4096x136_S136x256_S4096x256_1_0_0_1_n_n_wf : DotDims.WF S4096x136 S136x256 S4096x256 [1] [0] [0] [1] [] []
  dot_S16x4096_S4096x256_S16x256_1_0_0_1_n_n_wf : DotDims.WF S16x4096 S4096x256 S16x256 [1] [0] [0] [1] [] []
  dot_S16x256_S256x512_S16x512_1_0_0_1_n_n_wf : DotDims.WF S16x256 S256x512 S16x512 [1] [0] [0] [1] [] []
  dot_S16x512_S512x2500_S16x2500_1_0_0_1_n_n_wf : DotDims.WF S16x512 S512x2500 S16x2500 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1.size a ≤ S16x1.size a
  hwx0_0 : ∀ i : grid0.Coords, EltTy.bits .i32 = 32 ∨ (Rect.block (s := S16x1) S16x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .i32 = 32 ∨ (Rect.block (s := S16x1) S16x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x8.size a ≤ S16384x8.size a
  hwx0_3 : ∀ i : grid0.Coords, EltTy.bits .f32 = 32 ∨ (Rect.block (s := S16384x8) S4096x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x72.size a ≤ S8x72.size a
  hwx0_4 : ∀ i : grid0.Coords, EltTy.bits .f32 = 32 ∨ (Rect.block (s := S8x72) S8x72.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S72x136.size a ≤ S72x136.size a
  hwx0_5 : ∀ i : grid0.Coords, EltTy.bits .f32 = 32 ∨ (Rect.block (s := S72x136) S72x136.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S136x256.size a ≤ S136x256.size a
  hwx0_6 : ∀ i : grid0.Coords, EltTy.bits .f32 = 32 ∨ (Rect.block (s := S136x256) S136x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .f32 = 32 ∨ (Rect.block (s := S256x512) S256x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2500.size a ≤ S512x2500.size a
  hwx0_9 : ∀ i : grid0.Coords, EltTy.bits .f32 = 32 ∨ (Rect.block (s := S512x2500) S512x2500.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2500.size a ≤ S1x2500.size a
  hwx0_10 : ∀ i : grid0.Coords, EltTy.bits .f32 = 32 ∨ (Rect.block (s := S1x2500) S1x2500.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x2500.size a ≤ S16x2500.size a
  hwx0_11 : ∀ i : grid0.Coords, EltTy.bits .f32 = 32 ∨ (Rect.block (s := S16x2500) S16x2500.size (cc0_transform_11 i) (hinb0_11 i)).WholeWords (EltTy.packing .f32)

variable [Facts₀]

def scatter_S8x8_S2_S__n_01_01_0 : ScatterDims S8x8 S2 S_ where
  updateWindowDims := []
  insertedWindowDims := [0, 1]
  scatterDimsToOperandDims := [0, 1]
  indexVectorDim := 0
  wf := scatter_S8x8_S2_S__n_01_01_0_wf
def scatter_S72x8_S2_S__n_01_01_0 : ScatterDims S72x8 S2 S_ where
  updateWindowDims := []
  insertedWindowDims := [0, 1]
  scatterDimsToOperandDims := [0, 1]
  indexVectorDim := 0
  wf := scatter_S72x8_S2_S__n_01_01_0_wf
def dot_S4096x8_S8x72_S4096x72_1_0_0_1_n_n : DotDims S4096x8 S8x72 S4096x72 where
  lhsContracting := [1]
  rhsContracting := [0]
  lhsNonContracting := [0]
  rhsNonContracting := [1]
  lhsBatch := []
  rhsBatch := []
  wf := dot_S4096x8_S8x72_S4096x72_1_0_0_1_n_n_wf
def dot_S4096x72_S72x136_S4096x136_1_0_0_1_n_n : DotDims S4096x72 S72x136 S4096x136 where
  lhsContracting := [1]
  rhsContracting := [0]
  lhsNonContracting := [0]
  rhsNonContracting := [1]
  lhsBatch := []
  rhsBatch := []
  wf := dot_S4096x72_S72x136_S4096x136_1_0_0_1_n_n_wf
def dot_S4096x136_S136x256_S4096x256_1_0_0_1_n_n : DotDims S4096x136 S136x256 S4096x256 where
  lhsContracting := [1]
  rhsContracting := [0]
  lhsNonContracting := [0]
  rhsNonContracting := [1]
  lhsBatch := []
  rhsBatch := []
  wf := dot_S4096x136_S136x256_S4096x256_1_0_0_1_n_n_wf
def dot_S16x4096_S4096x256_S16x256_1_0_0_1_n_n : DotDims S16x4096 S4096x256 S16x256 where
  lhsContracting := [1]
  rhsContracting := [0]
  lhsNonContracting := [0]
  rhsNonContracting := [1]
  lhsBatch := []
  rhsBatch := []
  wf := dot_S16x4096_S4096x256_S16x256_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512_S512x2500_S16x2500_1_0_0_1_n_n : DotDims S16x512 S512x2500 S16x2500 where
  lhsContracting := [1]
  rhsContracting := [0]
  lhsNonContracting := [0]
  rhsNonContracting := [1]
  lhsBatch := []
  rhsBatch := []
  wf := dot_S16x512_S512x2500_S16x2500_1_0_0_1_n_n_wf

abbrev win0_0 : Pipeline.Window sig grid0 :=
  Pipeline.Window.ofSpec (Memref.whole main_v25) S16x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v27) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8x72.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S72x136.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S136x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S512x2500.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x2500.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S16x2500.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond3 i == 1#1) | ⟨_ + 12, h⟩ => absurd h (Nat.not_lt.2 (Nat.le_add_left _ _))

class Facts : Prop extends Facts₀ where

variable [Facts]
-- ==== ReferenceIdeal.lean ====
abbrev S16384x3 : Shape := ⟨2, ![16384, 3]⟩
abbrev S17 : Shape := ⟨1, ![17]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2500 : Shape := ⟨2, ![512, 2500]⟩
abbrev S2500 : Shape := ⟨1, ![2500]⟩
abbrev S16384x64 : Shape := ⟨2, ![16384, 64]⟩
abbrev S1x64 : Shape := ⟨2, ![1, 64]⟩
abbrev S_ : Shape := ⟨0, ![]⟩
abbrev S16384x128 : Shape := ⟨2, ![16384, 128]⟩
abbrev S1x128 : Shape := ⟨2, ![1, 128]⟩
abbrev S16384x256 : Shape := ⟨2, ![16384, 256]⟩
abbrev S1x256 : Shape := ⟨2, ![1, 256]⟩
abbrev S16384 : Shape := ⟨1, ![16384]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16x256 : Shape := ⟨2, ![16, 256]⟩
abbrev S16x1 : Shape := ⟨2, ![16, 1]⟩
abbrev S16x512 : Shape := ⟨2, ![16, 512]⟩
abbrev S1x512 : Shape := ⟨2, ![1, 512]⟩
abbrev S16x2500 : Shape := ⟨2, ![16, 2500]⟩
abbrev S1x2500 : Shape := ⟨2, ![1, 2500]⟩

abbrev nBuf : Space → Nat
  | .hbm => 76
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S17, .i32⟩
  | .hbm, ⟨2, _⟩ => ⟨S3x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x2500, .f32⟩
  | .hbm, ⟨11, _⟩ => ⟨S2500, .f32⟩
  | .hbm, ⟨12, _⟩ => ⟨S16384x64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384x64, .f32⟩
  | .hbm, ⟨18, _⟩ => ⟨S16384x64, .f32⟩
  | .hbm, ⟨19, _⟩ => ⟨S16384x128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x256, .f32⟩
  | .hbm, ⟨27, _⟩ => ⟨S1x256, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384, .i32⟩
  | .hbm, ⟨34, _⟩ => ⟨S16384x1, .i32⟩
  | .hbm, ⟨35, _⟩ => ⟨S16, .i32⟩
  | .hbm, ⟨36, _⟩ => ⟨S1x16, .i32⟩
  | .hbm, ⟨37, _⟩ => ⟨S16384x16, .i32⟩
  | .hbm, ⟨38, _⟩ => ⟨S16384x16, .i32⟩
  | .hbm, ⟨39, _⟩ => ⟨S16384x16, .i1⟩
  | .hbm, ⟨40, _⟩ => ⟨S16384x16, .i32⟩
  | .hbm, ⟨41, _⟩ => ⟨S_, .i32⟩
  | .hbm, ⟨42, _⟩ => ⟨S16384, .i32⟩
  | .hbm, ⟨43, _⟩ => ⟨S_, .f32⟩
  | .hbm, ⟨44, _⟩ => ⟨S16x256, .f32⟩
  | .hbm, ⟨45, _⟩ => ⟨S16384x1, .i32⟩
  | .hbm, ⟨46, _⟩ => ⟨S16x256, .f32⟩
  | .hbm, ⟨47, _⟩ => ⟨S16, .i32⟩
  | .hbm, ⟨48, _⟩ => ⟨S16, .i32⟩
  | .hbm, ⟨49, _⟩ => ⟨S16, .i32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16x1, .f32⟩
  | .hbm, ⟨55, _⟩ => ⟨S16x256, .f32⟩
  | .hbm, ⟨56, _⟩ => ⟨S16x256, .f32⟩
  | .hbm, ⟨57, _⟩ => ⟨S16x512, .f32⟩
  | .hbm, ⟨58, _⟩ => ⟨S1x512, .f32⟩
  | .hbm, ⟨59, _⟩ => ⟨S16x512, .f32⟩
  | .hbm, ⟨60, _⟩ => ⟨S16x512, .f32⟩
  | .hbm, ⟨61, _⟩ => ⟨S_, .f32⟩
  | .hbm, ⟨62, _⟩ => ⟨S16x512, .f32⟩
  | .hbm, ⟨63, _⟩ => ⟨S16x512, .f32⟩
  | .hbm, ⟨64, _⟩ => ⟨S16x2500, .f32⟩
  | .hbm, ⟨65, _⟩ => ⟨S1x2500, .f32⟩
  | .hbm, ⟨66, _⟩ => ⟨S16x2500, .f32⟩
  | .hbm, ⟨67, _⟩ => ⟨S16x2500, .f32⟩
  | .hbm, ⟨68, _⟩ => ⟨S16x2500, .f32⟩
  | .hbm, ⟨69, _⟩ => ⟨S16x2500, .f32⟩
  | .hbm, ⟨70, _⟩ => ⟨S_, .f32⟩
  | .hbm, ⟨71, _⟩ => ⟨S16x2500, .f32⟩
  | .hbm, ⟨72, _⟩ => ⟨S16x2500, .f32⟩
  | .hbm, ⟨73, _⟩ => ⟨S_, .f32⟩
  | .hbm, ⟨74, _⟩ => ⟨S16x2500, .f32⟩
  | .hbm, ⟨75, _⟩ => ⟨S16x2500, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call3_cst : Ref sig .tc := ⟨.hbm, 61, rfl⟩
abbrev main_call3_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_1 : Ref sig .tc := ⟨.hbm, 70, rfl⟩
abbrev main_v47 : Ref sig .tc := ⟨.hbm, 71, rfl⟩
abbrev main_v48 : Ref sig .tc := ⟨.hbm, 72, rfl⟩
abbrev main_cst_2 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S16384_S16384x1_0 : S16384.BroadcastsInDim S16384x1 (![0] : Fin 1 → Fin S16384x1.rank)
  slices_S17_S16_1 : S17.Slices ![1] S16
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  reducesTo_S16384x16_S16384_d1 : S16384x16.ReducesTo [1] S16384
  h_S_ : 0 < S_.numel
  bcast_S_S16x256 : S_.BroadcastsInDim S16x256 (![] : Fin 0 → Fin S16x256.rank)
  slices_S17_S16_0 : S17.Slices ![0] S16
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S2500_S1x2500_1 : S2500.BroadcastsInDim S1x2500 (![1] : Fin 1 → Fin S1x2500.rank)
  bcast_S1x2500_S16x2500_0_1 : S1x2500.BroadcastsInDim S16x2500 (![0, 1] : Fin 2 → Fin S16x2500.rank)
  bcast_S_S16x2500 : S_.BroadcastsInDim S16x2500 (![] : Fin 0 → Fin S16x2500.rank)
  dot_S16384x3_S3x64_S16384x64_1_0_0_1_n_n_wf : DotDims.WF S16384x3 S3x64 S16384x64 [1] [0] [0] [1] [] []
  dot_S16384x64_S64x128_S16384x128_1_0_0_1_n_n_wf : DotDims.WF S16384x64 S64x128 S16384x128 [1] [0] [0] [1] [] []
  dot_S16384x128_S128x256_S16384x256_1_0_0_1_n_n_wf : DotDims.WF S16384x128 S128x256 S16384x256 [1] [0] [0] [1] [] []
  scatter_S16x256_S16384x1_S16384x256_1_0_0_1_wf : ScatterDims.WF S16x256 S16384x1 S16384x256 [1] [0] [0] 1
  dot_S16x256_S256x512_S16x512_1_0_0_1_n_n_wf : DotDims.WF S16x256 S256x512 S16x512 [1] [0] [0] [1] [] []
  dot_S16x512_S512x2500_S16x2500_1_0_0_1_n_n_wf : DotDims.WF S16x512 S512x2500 S16x2500 [1] [0] [0] [1] [] []

variable [Facts₀]

def dot_S16384x3_S3x64_S16384x64_1_0_0_1_n_n : DotDims S16384x3 S3x64 S16384x64 where
  lhsContracting := [1]
  rhsContracting := [0]
  lhsNonContracting := [0]
  rhsNonContracting := [1]
  lhsBatch := []
  rhsBatch := []
  wf := dot_S16384x3_S3x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def scatter_S16x256_S16384x1_S16384x256_1_0_0_1 : ScatterDims S16x256 S16384x1 S16384x256 where
  updateWindowDims := [1]
  insertedWindowDims := [0]
  scatterDimsToOperandDims := [0]
  indexVectorDim := 1
  wf := scatter_S16x256_S16384x1_S16384x256_1_0_0_1_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512_S512x2500_S16x2500_1_0_0_1_n_n : DotDims S16x512 S512x2500 S16x2500 where
  lhsContracting := [1]
  rhsContracting := [0]
  lhsNonContracting := [0]
  rhsNonContracting := [1]
  lhsBatch := []
  rhsBatch := []
  wf := dot_S16x512_S512x2500_S16x2500_1_0_0_1_n_n_wf

class Facts : Prop extends Facts₀ where

variable [Facts]
-- ==== Proof.KKit.lean ====
/-
  The launch side of the kernel's frame, for any float instance.

  @main is fifty-one host operations (the augmented operands: the point cloud with a column of ones and
  four of zeros, each weight matrix with its bias as an extra row and a unit column that carries the ones
  onward; the segments' lower and upper bounds as columns, and the reciprocal of each segment's clipped
  length) followed by one region over a grid of four points, one per chunk of 4096 rows.  Here: the buffers'
  contents when the region is entered, each window's block at a point, that an input window's staging
  buffer holds its block at every point, the three conditions of the body decided over the grid, and the
  frame claim's post read off a frame run.
-/
import proofs.«110067_g39341900431964_cont_8to1_b_836_15_alg».proof.Proof.Gen.Kernel.Launch
import proofs.«110067_g39341900431964_cont_8to1_b_836_15_alg».proof.Proof.Gen.Kernel.Skeleton
import proofs.«110067_g39341900431964_cont_8to1_b_836_15_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- A core's TensorCore buffers when the region is entered: after the host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found by the region as launched. -/
theorem V_unwritten (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ h

/-- Each host operation writes its own result buffer only, and no result buffer is an argument. -/
local macro "unwritten_tac" : tactic => `(tactic| (
  refine List.forall_iff_forall_mem.mp ?_
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem V_main_arg0 (c : Dev nD) : V m c main_arg0 = m ((c : Thread nD τ).loc main_arg0) :=
  V_unwritten m c main_arg0 (by unwritten_tac)
theorem V_main_arg1 (c : Dev nD) : V m c main_arg1 = m ((c : Thread nD τ).loc main_arg1) :=
  V_unwritten m c main_arg1 (by unwritten_tac)
theorem V_main_arg2 (c : Dev nD) : V m c main_arg2 = m ((c : Thread nD τ).loc main_arg2) :=
  V_unwritten m c main_arg2 (by unwritten_tac)
theorem V_main_arg3 (c : Dev nD) : V m c main_arg3 = m ((c : Thread nD τ).loc main_arg3) :=
  V_unwritten m c main_arg3 (by unwritten_tac)
theorem V_main_arg4 (c : Dev nD) : V m c main_arg4 = m ((c : Thread nD τ).loc main_arg4) :=
  V_unwritten m c main_arg4 (by unwritten_tac)
theorem V_main_arg5 (c : Dev nD) : V m c main_arg5 = m ((c : Thread nD τ).loc main_arg5) :=
  V_unwritten m c main_arg5 (by unwritten_tac)
theorem V_main_arg6 (c : Dev nD) : V m c main_arg6 = m ((c : Thread nD τ).loc main_arg6) :=
  V_unwritten m c main_arg6 (by unwritten_tac)
theorem V_main_arg7 (c : Dev nD) : V m c main_arg7 = m ((c : Thread nD τ).loc main_arg7) :=
  V_unwritten m c main_arg7 (by unwritten_tac)
theorem V_main_arg8 (c : Dev nD) : V m c main_arg8 = m ((c : Thread nD τ).loc main_arg8) :=
  V_unwritten m c main_arg8 (by unwritten_tac)
theorem V_main_arg9 (c : Dev nD) : V m c main_arg9 = m ((c : Thread nD τ).loc main_arg9) :=
  V_unwritten m c main_arg9 (by unwritten_tac)
theorem V_main_arg10 (c : Dev nD) : V m c main_arg10 = m ((c : Thread nD τ).loc main_arg10) :=
  V_unwritten m c main_arg10 (by unwritten_tac)
theorem V_main_arg11 (c : Dev nD) : V m c main_arg11 = m ((c : Thread nD τ).loc main_arg11) :=
  V_unwritten m c main_arg11 (by unwritten_tac)

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof data
    whose array is the region-entry contents and whose body leaves the block in place. One statement per input
    window (0 to 10): the same argument at each. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The argument arrays end as launched: the two that windows stage (the fourth and fifth layers' weight matrices)
    by the library's account of an input array, the others because no window and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 7).trans (((dats 0 c).arrAt_in 7 rfl _).trans ((hA c 7).trans (V_main_arg8 m c))),
      ((h c).2 main_arg9 (Pipeline.mem_restRefs_of main_arg9 (by decide) (by decide))).trans (V_main_arg9 m c),
      ((h c).1 9).trans (((dats 0 c).arrAt_in 9 rfl _).trans ((hA c 9).trans (V_main_arg10 m c))),
      ((h c).2 main_arg11 (Pipeline.mem_restRefs_of main_arg11 (by decide) (by decide))).trans (V_main_arg11 m c)⟩) h

/-! ## The body's three conditions -/

/-- "This is the first chunk": the accumulator is set. -/
abbrev cond1 (i : grid0.Coords) : Prop := (Scalar.cmpi .ne (Scalar.extui (Scalar.cmpi .eq (BitVec.ofNat 32 (i 0).val) 0#32)) 0#32) = 1#1
/-- "This is a later chunk": the accumulator is added to. -/
abbrev cond2 (i : grid0.Coords) : Prop := (Scalar.cmpi .ne (Scalar.extui (Scalar.cmpi .sgt (BitVec.ofNat 32 (i 0).val) 0#32)) 0#32) = 1#1
/-- "This is the last chunk": the dense head runs and the result is stored. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val ≠ 0 :=
  (by decide +kernel : ∀ t : Fin grid0.N, cond2 (grid0.coords t) ↔ t.val ≠ 0)
theorem hcond3 : ∀ t : Fin cfg0.N, cond3 (grid0.coords t) ↔ t.val = 3 :=
  (by decide +kernel : ∀ t : Fin grid0.N, cond3 (grid0.coords t) ↔ t.val = 3)

/-! ## Where the windows are idle -/

/-- An input window is never idle. -/
theorem live_in : ∀ (w : Fin cfg0.W), w.val ≠ 11 → ∀ t : Fin cfg0.N, cfg0.idle w (grid0.coords t) = false := by decide +kernel
/-- Before the last chunk the result's window is idle and is not written back. -/
theorem idle_out : ∀ t : Fin cfg0.N, ¬cond3 (grid0.coords t) → cfg0.idle 11 (grid0.coords t) = true := by decide +kernel
theorem noFlush_out : ∀ t : Fin cfg0.N, ¬cond3 (grid0.coords t) → (cfg0.win 11).flush t = false := by decide +kernel
/-- At the last chunk it is live. -/
theorem live_out : ∀ t : Fin cfg0.N, cond3 (grid0.coords t) → cfg0.idle 11 (grid0.coords t) = false := by decide +kernel

/-! ## The memrefs the body is called with -/

abbrev ms0 (t : Fin cfg0.N) : Memref sig .tc .vmem S16x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x8 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x72 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S72x136 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S136x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x2500 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2500 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S16x2500 .f32 := win0_11.stage (cfg0.slots t 11)
abbrev hs11 (t : Fin cfg0.N) : (ms11 t).IsWhole := hstage0_11 ((cfg0.slots t 11).cast nbuf0_11)
/-- The accumulator of the segment means, carried from chunk to chunk. -/
abbrev scAcc : Memref sig .tc .vmem S16x256 .f32 := Memref.whole cc0_scratch0
/-- The first and second layers' activations of the current chunk: written, then read, within one point. -/
abbrev scH1 : Memref sig .tc .vmem S4096x72 .f32 := Memref.whole cc0_scratch1
abbrev scH2 : Memref sig .tc .vmem S4096x136 .f32 := Memref.whole cc0_scratch2
/-- One staging buffer of the result's window, through which its contents are stated. -/
abbrev VOut : View sig .tc .vmem S16x2500 .f32 := (Memref.whole cc0_stg11_0 : Memref sig .tc .vmem S16x2500 .f32).view
abbrev VAcc : View sig .tc .vmem S16x256 .f32 := scAcc.view

/-- The class invariant with the three scratch buffers as memrefs owned at some contents. -/
theorem PhiA_eq (c : Dev nD) :
    (Pipeline.ΦA spec0 c : sProp 𝕄)
      = iprop(iprop((∃ d, owns (c : Thread nD τ) scAcc fullShare d) ∗ (∃ d, owns (c : Thread nD τ) scH1 fullShare d) ∗ (∃ d, owns (c : Thread nD τ) scH2 fullShare d)) ∗ (∃ r, prngReg c r)) := by
  unfold Pipeline.ΦA; rw [scopedRest0_eq]; simp only [scAcc, scH1, scH2, owns_whole]; try rfl

end Cert.Kernel.Fr

end
-- ==== Proof.KRunA.lean ====
/-
  The body at the first chunk.  It computes the chunk's three layers (each a product with the augmented weights
  clipped below at zero, the first two kept in scratch), the chunk's share of every segment's mean as one product
  of the scaled membership matrix with the third layer, and SETS the accumulator to it.  The result's window is not
  touched.  On whole memrefs, the inputs at their contents, the result's buffer at any contents handed back as found,
  the three scratch buffers at anything: the body runs, and leaves in each scratch buffer the pieces it stored.
-/
import proofs.«110067_g39341900431964_cont_8to1_b_836_15_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole)
    (hc1 : cond1 i) (hc2 : ¬cond2 i) (hc3 : ¬cond3 i)
    (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) :
    Σ' (LS0 : List (View.Piece (Elt F) S16x256 .f32)) (LS1 : List (View.Piece (Elt F) S4096x72 .f32)), { LS2 : List (View.Piece (Elt F) S4096x136 .f32) //
      ∀ (xi12 : Vec F S16x2500 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12
            ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi12 E K => ?run⟩
  case run =>
    simp only [cc0__body_eq_skeleton]; unfold cc0__body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [HS0]; · iexists _; iexact HS0
    isplitl [HS1]; · iexists _; iexact HS1
    iexists _; iexact HS2

end Cert.Kernel.Fr

end
-- ==== Proof.KRunB.lean ====
/-
  The body at a middle chunk (the second and third).  As at the first chunk, except that the chunk's share of the
  segment means is ADDED to the accumulator, which comes in at the contents the chunk before left.  The result's
  window is not touched.
-/
import proofs.«110067_g39341900431964_cont_8to1_b_836_15_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole)
    (hc1 : ¬cond1 i) (hc2 : cond2 i) (hc3 : ¬cond3 i)
    (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) :
    Σ' (LS0 : List (View.Piece (Elt F) S16x256 .f32)) (LS1 : List (View.Piece (Elt F) S4096x72 .f32)), { LS2 : List (View.Piece (Elt F) S4096x136 .f32) //
      ∀ (xi12 : Vec F S16x2500 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12
            ∗ owns (c : Thread nD τ) arg13 fullShare xs0 ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi12 E K => ?run⟩
  case run =>
    simp only [cc0__body_eq_skeleton]; unfold cc0__body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%ds1, %fs1, -, HS1⟩, ⟨%ds2, %fs2, -, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hfs0
    sl_exec (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [HS0]; · iexists _; iexact HS0
    isplitl [HS1]; · iexists _; iexact HS1
    iexists _; iexact HS2

end Cert.Kernel.Fr

end
-- ==== Proof.KRunC.lean ====
/-
  The body at the last chunk.  The chunk's share is added to the accumulator as at a middle chunk; then the dense head
  reads the accumulator (now every segment's mean), applies the fourth layer (product, bias row, clip at zero) and the
  fifth (product, bias row, logistic), and stores the result block whole.
-/
import proofs.«110067_g39341900431964_cont_8to1_b_836_15_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole)
    (hc1 : ¬cond1 i) (hc2 : cond2 i) (hc3 : cond3 i)
    (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) :
    Σ' (L12 : List (View.Piece (Elt F) S16x2500 .f32)) (LS0 : List (View.Piece (Elt F) S16x256 .f32)) (LS1 : List (View.Piece (Elt F) S4096x72 .f32)), { LS2 : List (View.Piece (Elt F) S4096x136 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
            ∗ owns (c : Thread nD τ) arg13 fullShare xs0 ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__body_eq_skeleton]; unfold cc0__body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%ds1, %fs1, -, HS1⟩, ⟨%ds2, %fs2, -, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hfs0
    sl_exec (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [HS0]; · iexists _; iexact HS0
    isplitl [HS1]; · iexists _; iexact HS1
    iexists _; iexact HS2

end Cert.Kernel.Fr

end
-- ==== Proof.KFrame.lean ====
/-
  The kernel's frame, for any float instance: what the accumulator and the result block hold after each chunk, the
  proof data of the one pipeline, the body obligation at every point, the run, and the frame claim.

  The accumulator is set at the first chunk and added to at each later one; the result block is stored at the last
  chunk only, where the pipeline writes it back.  Between chunks the invariant keeps the accumulator at the contents
  the chunk before left and the two activation buffers at anything.
-/
import proofs.«110067_g39341900431964_cont_8to1_b_836_15_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole at some contents is owned at what it reads through its view. -/
theorem owns_some {sp : Space} {s : Shape} {e : EltTy} (c : Dev nD) (M : Memref sig .tc sp s e) (f : M.view.ty.Contents (Elt F)) :
    (M.view.loc (c : Thread nD τ) ↦[M.view.set]{fullShare} f : sProp 𝕄) ⊢ iprop(∃ d, owns (c : Thread nD τ) M fullShare d) := by
  iintro H
  iexists (M.view.read (Elt F) f)
  unfold owns
  iexists f
  isplitr
  · ipureintro; rfl
  iexact H

/-! ## What each case leaves -/

/-- What the first chunk leaves in the accumulator: its stored pieces read back. -/
def accA (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : cond1 i) (hc2 : ¬cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) : Vec F S16x256 .f32 :=
  VAcc.read (Elt F) (VAcc.writes (Elt F) VAcc.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11).1)
/-- They cover it. -/
theorem accA_cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : cond1 i) (hc2 : ¬cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (y : S16x256.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11).1 S16x256.size (by sl_kernel_rfl) y

/-- What a middle chunk leaves in the accumulator, from what the chunk before left. -/
def accB (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) : Vec F S16x256 .f32 :=
  VAcc.read (Elt F) (VAcc.writes (Elt F) VAcc.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1)
theorem accB_cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) (y : S16x256.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1 S16x256.size (by sl_kernel_rfl) y

/-- What the last chunk leaves in the accumulator and in the result block. -/
def accC (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) : Vec F S16x256 .f32 :=
  VAcc.read (Elt F) (VAcc.writes (Elt F) VAcc.junk (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).2.1)
theorem accC_cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) (y : S16x256.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).2.1 S16x256.size (by sl_kernel_rfl) y
def outC (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) : Vec F S16x2500 .f32 :=
  VOut.read (Elt F) (VOut.writes (Elt F) VOut.junk (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1)
theorem outC_cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) (y : S16x2500.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1 S16x2500.size (by sl_kernel_rfl) y

/-- The result block where no chunk has stored it yet: nothing consults it (the window is idle there and is not
    written back). -/
def outIdle : Vec F S16x2500 .f32 := VOut.read (Elt F) VOut.junk

/-! ## The cases at a grid point -/

theorem c1_of (t : Fin cfg0.N) (h : t.val = 0) : cond1 (grid0.coords t) := (hcond1 t).mpr h
theorem nc1_of (t : Fin cfg0.N) (h : t.val ≠ 0) : ¬cond1 (grid0.coords t) := fun hc => h ((hcond1 t).mp hc)
theorem c2_of (t : Fin cfg0.N) (h : t.val ≠ 0) : cond2 (grid0.coords t) := (hcond2 t).mpr h
theorem nc2_of (t : Fin cfg0.N) (h : t.val = 0) : ¬cond2 (grid0.coords t) := fun hc => (hcond2 t).mp hc h
theorem c3_of (t : Fin cfg0.N) (h : t.val = 3) : cond3 (grid0.coords t) := (hcond3 t).mpr h
theorem nc3_of (t : Fin cfg0.N) (h : t.val ≠ 3) : ¬cond3 (grid0.coords t) := fun hc => h ((hcond3 t).mp hc)

def accAtA (c : Dev nD) (t : Fin cfg0.N) (h : t.val = 0) : Vec F S16x256 .f32 :=
  accA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (c1_of t h) (nc2_of t h) (nc3_of t (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t)
def accAtB (c : Dev nD) (t : Fin cfg0.N) (h0 : t.val ≠ 0) (h3 : t.val ≠ 3) (prev : Vec F S16x256 .f32) : Vec F S16x256 .f32 :=
  accB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t h0) (c2_of t h0) (nc3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) prev
def accAtC (c : Dev nD) (t : Fin cfg0.N) (h3 : t.val = 3) (prev : Vec F S16x256 .f32) : Vec F S16x256 .f32 :=
  accC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) prev
def outAtC (c : Dev nD) (t : Fin cfg0.N) (h3 : t.val = 3) (prev : Vec F S16x256 .f32) : Vec F S16x2500 .f32 :=
  outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) prev

/-! ## What the result block and the accumulator hold after each chunk -/

/-- After chunk `n`: (the result block, the accumulator).  The first chunk sets the accumulator; each later one adds
    to what the chunk before left; the last also stores the result block. -/
def outsAt (c : Dev nD) : (n : ℕ) → n < cfg0.N → Vec F S16x2500 .f32 × Vec F S16x256 .f32
  | 0, hn => (outIdle, accAtA m c ⟨0, hn⟩ rfl)
  | n + 1, hn =>
    if h3 : n + 1 = 3 then
      (outAtC m c ⟨n + 1, hn⟩ h3 (outsAt c n (Nat.lt_of_succ_lt hn)).2, accAtC m c ⟨n + 1, hn⟩ h3 (outsAt c n (Nat.lt_of_succ_lt hn)).2)
    else
      (outIdle, accAtB m c ⟨n + 1, hn⟩ (Nat.succ_ne_zero n) h3 (outsAt c n (Nat.lt_of_succ_lt hn)).2)

theorem outsAt_A (c : Dev nD) (t : Fin cfg0.N) (h : t.val = 0) :
    outsAt m c t.val t.isLt = (outIdle, accAtA m c t h) := by
  obtain ⟨n, hn⟩ := t
  cases n with
  | zero => rfl
  | succ n => exact absurd h (Nat.succ_ne_zero n)

theorem outsAt_B (c : Dev nD) (t : Fin cfg0.N) (h0 : t.val ≠ 0) (h3 : t.val ≠ 3) :
    outsAt m c t.val t.isLt = (outIdle, accAtB m c t h0 h3 (outsAt m c (t.val - 1) (Nat.lt_of_le_of_lt (Nat.sub_le _ _) t.isLt)).2) := by
  obtain ⟨n, hn⟩ := t
  cases n with
  | zero => exact absurd rfl h0
  | succ n => exact (dif_neg h3).trans rfl

theorem outsAt_C (c : Dev nD) (t : Fin cfg0.N) (h3 : t.val = 3) :
    outsAt m c t.val t.isLt = (outAtC m c t h3 (outsAt m c (t.val - 1) (Nat.lt_of_le_of_lt (Nat.sub_le _ _) t.isLt)).2, accAtC m c t h3 (outsAt m c (t.val - 1) (Nat.lt_of_le_of_lt (Nat.sub_le _ _) t.isLt)).2) := by
  obtain ⟨n, hn⟩ := t
  cases n with
  | zero => exact absurd h3 (by simp)
  | succ n => exact (dif_pos h3).trans rfl

/-! ## The invariant between chunks -/

/-- Before the first chunk the class's invariant (every scratch buffer at anything); afterwards the accumulator at what
    the chunk before left, the two activation buffers at anything, the generator register at some state. -/
def PhiS (c : Dev nD) : (n : ℕ) → n ≤ cfg0.N → sProp 𝕄
  | 0, _ => Pipeline.ΦA spec0 c
  | n + 1, hn => iprop(iprop(owns (c : Thread nD τ) scAcc fullShare ((outsAt m c n hn).2) ∗ (∃ d, owns (c : Thread nD τ) scH1 fullShare d) ∗ (∃ d, owns (c : Thread nD τ) scH2 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scAcc fullShare ((outsAt m c n hn).2) ∗ (∃ d, owns (c : Thread nD τ) scH1 fullShare d) ∗ (∃ d, owns (c : Thread nD τ) scH2 fullShare d)) ∗ (∃ r, prngReg c r)) := rfl
theorem PhiS_pos (c : Dev nD) (n : ℕ) (h : n ≤ cfg0.N) (hz : n ≠ 0) :
    PhiS m c n h = iprop(iprop(owns (c : Thread nD τ) scAcc fullShare ((outsAt m c (n - 1) (by omega)).2) ∗ (∃ d, owns (c : Thread nD τ) scH1 fullShare d) ∗ (∃ d, owns (c : Thread nD τ) scH2 fullShare d)) ∗ (∃ r, prngReg c r)) := by
  cases n with
  | zero => exact absurd rfl hz
  | succ n => rfl

/-! ## The pipeline's proof data -/

/-- The arrays as the region finds them; after the body at a point each input's buffer at its block and the result's at
    `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = (outsAt m c t.val t.isLt).1 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d

/-! ## The body obligation, at a generic point -/

/-- What the body is called with at a point: the invariant, the (empty) tallies, each window's current staging buffer
    at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-! An input window's buffer is handed back at its block (the window is never idle). -/
theorem leaves_0 (c : Dev nD) (t : Fin cfg0.N) : (dats m 0 c).leavesExact 0 t = owns (c : Thread nD τ) (ms0 t) fullShare (iblk m c 0 t) := by
  unfold Dat.leavesExact; rw [live_in 0 (by decide) t, after_0]
theorem leaves_1 (c : Dev nD) (t : Fin cfg0.N) : (dats m 0 c).leavesExact 1 t = owns (c : Thread nD τ) (ms1 t) fullShare (iblk m c 1 t) := by
  unfold Dat.leavesExact; rw [live_in 1 (by decide) t, after_1]
theorem leaves_2 (c : Dev nD) (t : Fin cfg0.N) : (dats m 0 c).leavesExact 2 t = owns (c : Thread nD τ) (ms2 t) fullShare (iblk m c 2 t) := by
  unfold Dat.leavesExact; rw [live_in 2 (by decide) t, after_2]
theorem leaves_3 (c : Dev nD) (t : Fin cfg0.N) : (dats m 0 c).leavesExact 3 t = owns (c : Thread nD τ) (ms3 t) fullShare (iblk m c 3 t) := by
  unfold Dat.leavesExact; rw [live_in 3 (by decide) t, after_3]
theorem leaves_4 (c : Dev nD) (t : Fin cfg0.N) : (dats m 0 c).leavesExact 4 t = owns (c : Thread nD τ) (ms4 t) fullShare (iblk m c 4 t) := by
  unfold Dat.leavesExact; rw [live_in 4 (by decide) t, after_4]
theorem leaves_5 (c : Dev nD) (t : Fin cfg0.N) : (dats m 0 c).leavesExact 5 t = owns (c : Thread nD τ) (ms5 t) fullShare (iblk m c 5 t) := by
  unfold Dat.leavesExact; rw [live_in 5 (by decide) t, after_5]
theorem leaves_6 (c : Dev nD) (t : Fin cfg0.N) : (dats m 0 c).leavesExact 6 t = owns (c : Thread nD τ) (ms6 t) fullShare (iblk m c 6 t) := by
  unfold Dat.leavesExact; rw [live_in 6 (by decide) t, after_6]
theorem leaves_7 (c : Dev nD) (t : Fin cfg0.N) : (dats m 0 c).leavesExact 7 t = owns (c : Thread nD τ) (ms7 t) fullShare (iblk m c 7 t) := by
  unfold Dat.leavesExact; rw [live_in 7 (by decide) t, after_7]
theorem leaves_8 (c : Dev nD) (t : Fin cfg0.N) : (dats m 0 c).leavesExact 8 t = owns (c : Thread nD τ) (ms8 t) fullShare (iblk m c 8 t) := by
  unfold Dat.leavesExact; rw [live_in 8 (by decide) t, after_8]
theorem leaves_9 (c : Dev nD) (t : Fin cfg0.N) : (dats m 0 c).leavesExact 9 t = owns (c : Thread nD τ) (ms9 t) fullShare (iblk m c 9 t) := by
  unfold Dat.leavesExact; rw [live_in 9 (by decide) t, after_9]
theorem leaves_10 (c : Dev nD) (t : Fin cfg0.N) : (dats m 0 c).leavesExact 10 t = owns (c : Thread nD τ) (ms10 t) fullShare (iblk m c 10 t) := by
  unfold Dat.leavesExact; rw [live_in 10 (by decide) t, after_10]

set_option maxHeartbeats 16000000 in
/-- The body at any point.  The inputs' buffers hold their blocks; which chunk the point is decides the case: at the
    first the accumulator comes at anything, later at what the chunk before left, and it is taken back at this chunk's
    contents (its stored pieces cover it); the result's buffer is handed back untouched before the last chunk and at the
    stored block at the last; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t, leaves_8 m c t, leaves_9 m c t, leaves_10 m c t]
  have hN : t.val < 4 := lt_of_lt_of_eq t.isLt (show cfg0.N = 4 from N_0)
  by_cases h0 : t.val = 0
  · rw [Dat.leavesExact_idle (dats m 0 c) 11 t (idle_out t (nc3_of t (by omega))) (noFlush_out t (nc3_of t (by omega)))]
    rw [outsAt_A m c t h0]
    unfold accAtA accA; (try dsimp only)
    rw [PhiS_castSucc m c t, PhiS_zero m c _ _ h0, PhiA_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (c1_of t h0) (nc2_of t h0) (nc3_of t (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (accA_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (c1_of t h0) (nc2_of t h0) (nc3_of t (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t))
        isplitl [HS1]
        · iapply (owns_some c scH1 _) $$ HS1
        iapply (owns_some c scH2 _) $$ HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases h3 : t.val = 3
    · rw [show (dats m 0 c).leavesExact 11 t = owns (c : Thread nD τ) (ms11 t) fullShare ((dats m 0 c).after 11 t) from by
        unfold Dat.leavesExact; rw [live_out t (c3_of t h3)], after_11]
      rw [outsAt_C m c t h3]
      unfold accAtC accC outAtC outC; (try dsimp only)
      rw [PhiS_castSucc m c t, PhiS_pos m c _ _ h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      iintro ⟨H0, H1, H2, H3, H4, H5, H6, H7, H8, H9, H10, ⟨%e11, H11⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (accC_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2)
          isplitl [HS1]
          · iapply (owns_some c scH1 _) $$ HS1
          iapply (owns_some c scH2 _) $$ HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (outC_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2)
    · rw [Dat.leavesExact_idle (dats m 0 c) 11 t (idle_out t (nc3_of t h3)) (noFlush_out t (nc3_of t h3))]
      rw [outsAt_B m c t h0 h3]
      unfold accAtB accB; (try dsimp only)
      rw [PhiS_castSucc m c t, PhiS_pos m c _ _ h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t h0) (c2_of t h0) (nc3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      iintro ⟨H0, H1, H2, H3, H4, H5, H6, H7, H8, H9, H10, H11, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (accB_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t h0) (c2_of t h0) (nc3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2)
          isplitl [HS1]
          · iapply (owns_some c scH1 _) $$ HS1
          iapply (owns_some c scH2 _) $$ HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first chunk. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last chunk the invariant gives the class's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiA_eq]
  iintro ⟨⟨HS0, HS1, HS2⟩, Hg⟩
  isplitl [HS0 HS1 HS2]
  · isplitl [HS0]; · iexists _; iexact HS0
    isplitl [HS1]; · iexact HS1
    iexact HS2
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Fr

end
-- ==== Proof.KIKit.lean ====
/-
  The launch side of the kernel's frame, for any float instance.

  @main is fifty-one host operations (the augmented operands: the point cloud with a column of ones and
  four of zeros, each weight matrix with its bias as an extra row and a unit column that carries the ones
  onward; the segments' lower and upper bounds as columns, and the reciprocal of each segment's clipped
  length) followed by one region over a grid of four points, one per chunk of 4096 rows.  Here: the buffers'
  contents when the region is entered, each window's block at a point, that an input window's staging
  buffer holds its block at every point, the three conditions of the body decided over the grid, and the
  frame claim's post read off a frame run.
-/
import proofs.«110067_g39341900431964_cont_8to1_b_836_15_alg».proof.Proof.Gen.KernelIdeal.Launch
import proofs.«110067_g39341900431964_cont_8to1_b_836_15_alg».proof.Proof.Gen.KernelIdeal.Skeleton
import proofs.«110067_g39341900431964_cont_8to1_b_836_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- A core's TensorCore buffers when the region is entered: after the host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found by the region as launched. -/
theorem V_unwritten (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ h

/-- Each host operation writes its own result buffer only, and no result buffer is an argument. -/
local macro "unwritten_tac" : tactic => `(tactic| (
  refine List.forall_iff_forall_mem.mp ?_
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem V_main_arg0 (c : Dev nD) : V m c main_arg0 = m ((c : Thread nD τ).loc main_arg0) :=
  V_unwritten m c main_arg0 (by unwritten_tac)
theorem V_main_arg1 (c : Dev nD) : V m c main_arg1 = m ((c : Thread nD τ).loc main_arg1) :=
  V_unwritten m c main_arg1 (by unwritten_tac)
theorem V_main_arg2 (c : Dev nD) : V m c main_arg2 = m ((c : Thread nD τ).loc main_arg2) :=
  V_unwritten m c main_arg2 (by unwritten_tac)
theorem V_main_arg3 (c : Dev nD) : V m c main_arg3 = m ((c : Thread nD τ).loc main_arg3) :=
  V_unwritten m c main_arg3 (by unwritten_tac)
theorem V_main_arg4 (c : Dev nD) : V m c main_arg4 = m ((c : Thread nD τ).loc main_arg4) :=
  V_unwritten m c main_arg4 (by unwritten_tac)
theorem V_main_arg5 (c : Dev nD) : V m c main_arg5 = m ((c : Thread nD τ).loc main_arg5) :=
  V_unwritten m c main_arg5 (by unwritten_tac)
theorem V_main_arg6 (c : Dev nD) : V m c main_arg6 = m ((c : Thread nD τ).loc main_arg6) :=
  V_unwritten m c main_arg6 (by unwritten_tac)
theorem V_main_arg7 (c : Dev nD) : V m c main_arg7 = m ((c : Thread nD τ).loc main_arg7) :=
  V_unwritten m c main_arg7 (by unwritten_tac)
theorem V_main_arg8 (c : Dev nD) : V m c main_arg8 = m ((c : Thread nD τ).loc main_arg8) :=
  V_unwritten m c main_arg8 (by unwritten_tac)
theorem V_main_arg9 (c : Dev nD) : V m c main_arg9 = m ((c : Thread nD τ).loc main_arg9) :=
  V_unwritten m c main_arg9 (by unwritten_tac)
theorem V_main_arg10 (c : Dev nD) : V m c main_arg10 = m ((c : Thread nD τ).loc main_arg10) :=
  V_unwritten m c main_arg10 (by unwritten_tac)
theorem V_main_arg11 (c : Dev nD) : V m c main_arg11 = m ((c : Thread nD τ).loc main_arg11) :=
  V_unwritten m c main_arg11 (by unwritten_tac)

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof data
    whose array is the region-entry contents and whose body leaves the block in place. One statement per input
    window (0 to 10): the same argument at each. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The argument arrays end as launched: the two that windows stage (the fourth and fifth layers' weight matrices)
    by the library's account of an input array, the others because no window and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 7).trans (((dats 0 c).arrAt_in 7 rfl _).trans ((hA c 7).trans (V_main_arg8 m c))),
      ((h c).2 main_arg9 (Pipeline.mem_restRefs_of main_arg9 (by decide) (by decide))).trans (V_main_arg9 m c),
      ((h c).1 9).trans (((dats 0 c).arrAt_in 9 rfl _).trans ((hA c 9).trans (V_main_arg10 m c))),
      ((h c).2 main_arg11 (Pipeline.mem_restRefs_of main_arg11 (by decide) (by decide))).trans (V_main_arg11 m c)⟩) h

/-! ## The body's three conditions -/

/-- "This is the first chunk": the accumulator is set. -/
abbrev cond1 (i : grid0.Coords) : Prop := (Scalar.cmpi .ne (Scalar.extui (Scalar.cmpi .eq (BitVec.ofNat 32 (i 0).val) 0#32)) 0#32) = 1#1
/-- "This is a later chunk": the accumulator is added to. -/
abbrev cond2 (i : grid0.Coords) : Prop := (Scalar.cmpi .ne (Scalar.extui (Scalar.cmpi .sgt (BitVec.ofNat 32 (i 0).val) 0#32)) 0#32) = 1#1
/-- "This is the last chunk": the dense head runs and the result is stored. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val ≠ 0 :=
  (by decide +kernel : ∀ t : Fin grid0.N, cond2 (grid0.coords t) ↔ t.val ≠ 0)
theorem hcond3 : ∀ t : Fin cfg0.N, cond3 (grid0.coords t) ↔ t.val = 3 :=
  (by decide +kernel : ∀ t : Fin grid0.N, cond3 (grid0.coords t) ↔ t.val = 3)

/-! ## Where the windows are idle -/

/-- An input window is never idle. -/
theorem live_in : ∀ (w : Fin cfg0.W), w.val ≠ 11 → ∀ t : Fin cfg0.N, cfg0.idle w (grid0.coords t) = false := by decide +kernel
/-- Before the last chunk the result's window is idle and is not written back. -/
theorem idle_out : ∀ t : Fin cfg0.N, ¬cond3 (grid0.coords t) → cfg0.idle 11 (grid0.coords t) = true := by decide +kernel
theorem noFlush_out : ∀ t : Fin cfg0.N, ¬cond3 (grid0.coords t) → (cfg0.win 11).flush t = false := by decide +kernel
/-- At the last chunk it is live. -/
theorem live_out : ∀ t : Fin cfg0.N, cond3 (grid0.coords t) → cfg0.idle 11 (grid0.coords t) = false := by decide +kernel

/-! ## The memrefs the body is called with -/

abbrev ms0 (t : Fin cfg0.N) : Memref sig .tc .vmem S16x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x8 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x72 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S72x136 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S136x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x2500 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2500 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S16x2500 .f32 := win0_11.stage (cfg0.slots t 11)
abbrev hs11 (t : Fin cfg0.N) : (ms11 t).IsWhole := hstage0_11 ((cfg0.slots t 11).cast nbuf0_11)
/-- The accumulator of the segment means, carried from chunk to chunk. -/
abbrev scAcc : Memref sig .tc .vmem S16x256 .f32 := Memref.whole cc0_scratch0
/-- The first and second layers' activations of the current chunk: written, then read, within one point. -/
abbrev scH1 : Memref sig .tc .vmem S4096x72 .f32 := Memref.whole cc0_scratch1
abbrev scH2 : Memref sig .tc .vmem S4096x136 .f32 := Memref.whole cc0_scratch2
/-- One staging buffer of the result's window, through which its contents are stated. -/
abbrev VOut : View sig .tc .vmem S16x2500 .f32 := (Memref.whole cc0_stg11_0 : Memref sig .tc .vmem S16x2500 .f32).view
abbrev VAcc : View sig .tc .vmem S16x256 .f32 := scAcc.view

/-- The class invariant with the three scratch buffers as memrefs owned at some contents. -/
theorem PhiA_eq (c : Dev nD) :
    (Pipeline.ΦA spec0 c : sProp 𝕄)
      = iprop(iprop((∃ d, owns (c : Thread nD τ) scAcc fullShare d) ∗ (∃ d, owns (c : Thread nD τ) scH1 fullShare d) ∗ (∃ d, owns (c : Thread nD τ) scH2 fullShare d)) ∗ (∃ r, prngReg c r)) := by
  unfold Pipeline.ΦA; rw [scopedRest0_eq]; simp only [scAcc, scH1, scH2, owns_whole]; try rfl

end Cert.KernelIdeal.Fr

end
-- ==== Proof.KIRunA.lean ====
/-
  The body at the first chunk.  It computes the chunk's three layers (each a product with the augmented weights
  clipped below at zero, the first two kept in scratch), the chunk's share of every segment's mean as one product
  of the scaled membership matrix with the third layer, and SETS the accumulator to it.  The result's window is not
  touched.  On whole memrefs, the inputs at their contents, the result's buffer at any contents handed back as found,
  the three scratch buffers at anything: the body runs, and leaves in each scratch buffer the pieces it stored.
-/
import proofs.«110067_g39341900431964_cont_8to1_b_836_15_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole)
    (hc1 : cond1 i) (hc2 : ¬cond2 i) (hc3 : ¬cond3 i)
    (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) :
    Σ' (LS0 : List (View.Piece (Elt F) S16x256 .f32)) (LS1 : List (View.Piece (Elt F) S4096x72 .f32)), { LS2 : List (View.Piece (Elt F) S4096x136 .f32) //
      ∀ (xi12 : Vec F S16x2500 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12
            ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi12 E K => ?run⟩
  case run =>
    simp only [cc0__body_eq_skeleton]; unfold cc0__body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [HS0]; · iexists _; iexact HS0
    isplitl [HS1]; · iexists _; iexact HS1
    iexists _; iexact HS2

end Cert.KernelIdeal.Fr

end
-- ==== Proof.KIRunB.lean ====
/-
  The body at a middle chunk (the second and third).  As at the first chunk, except that the chunk's share of the
  segment means is ADDED to the accumulator, which comes in at the contents the chunk before left.  The result's
  window is not touched.
-/
import proofs.«110067_g39341900431964_cont_8to1_b_836_15_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole)
    (hc1 : ¬cond1 i) (hc2 : cond2 i) (hc3 : ¬cond3 i)
    (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) :
    Σ' (LS0 : List (View.Piece (Elt F) S16x256 .f32)) (LS1 : List (View.Piece (Elt F) S4096x72 .f32)), { LS2 : List (View.Piece (Elt F) S4096x136 .f32) //
      ∀ (xi12 : Vec F S16x2500 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12
            ∗ owns (c : Thread nD τ) arg13 fullShare xs0 ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi12 E K => ?run⟩
  case run =>
    simp only [cc0__body_eq_skeleton]; unfold cc0__body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%ds1, %fs1, -, HS1⟩, ⟨%ds2, %fs2, -, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hfs0
    sl_exec (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [HS0]; · iexists _; iexact HS0
    isplitl [HS1]; · iexists _; iexact HS1
    iexists _; iexact HS2

end Cert.KernelIdeal.Fr

end
-- ==== Proof.KIRunC.lean ====
/-
  The body at the last chunk.  The chunk's share is added to the accumulator as at a middle chunk; then the dense head
  reads the accumulator (now every segment's mean), applies the fourth layer (product, bias row, clip at zero) and the
  fifth (product, bias row, logistic), and stores the result block whole.
-/
import proofs.«110067_g39341900431964_cont_8to1_b_836_15_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole)
    (hc1 : ¬cond1 i) (hc2 : cond2 i) (hc3 : cond3 i)
    (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) :
    Σ' (L12 : List (View.Piece (Elt F) S16x2500 .f32)) (LS0 : List (View.Piece (Elt F) S16x256 .f32)) (LS1 : List (View.Piece (Elt F) S4096x72 .f32)), { LS2 : List (View.Piece (Elt F) S4096x136 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
            ∗ owns (c : Thread nD τ) arg13 fullShare xs0 ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__body_eq_skeleton]; unfold cc0__body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%ds1, %fs1, -, HS1⟩, ⟨%ds2, %fs2, -, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hfs0
    sl_exec (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [HS0]; · iexists _; iexact HS0
    isplitl [HS1]; · iexists _; iexact HS1
    iexists _; iexact HS2

end Cert.KernelIdeal.Fr

end
-- ==== Proof.KIFrame.lean ====
/-
  The kernel's frame, for any float instance: what the accumulator and the result block hold after each chunk, the
  proof data of the one pipeline, the body obligation at every point, the run, and the frame claim.

  The accumulator is set at the first chunk and added to at each later one; the result block is stored at the last
  chunk only, where the pipeline writes it back.  Between chunks the invariant keeps the accumulator at the contents
  the chunk before left and the two activation buffers at anything.
-/
import proofs.«110067_g39341900431964_cont_8to1_b_836_15_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole at some contents is owned at what it reads through its view. -/
theorem owns_some {sp : Space} {s : Shape} {e : EltTy} (c : Dev nD) (M : Memref sig .tc sp s e) (f : M.view.ty.Contents (Elt F)) :
    (M.view.loc (c : Thread nD τ) ↦[M.view.set]{fullShare} f : sProp 𝕄) ⊢ iprop(∃ d, owns (c : Thread nD τ) M fullShare d) := by
  iintro H
  iexists (M.view.read (Elt F) f)
  unfold owns
  iexists f
  isplitr
  · ipureintro; rfl
  iexact H

/-! ## What each case leaves -/

/-- What the first chunk leaves in the accumulator: its stored pieces read back. -/
def accA (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : cond1 i) (hc2 : ¬cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) : Vec F S16x256 .f32 :=
  VAcc.read (Elt F) (VAcc.writes (Elt F) VAcc.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11).1)
/-- They cover it. -/
theorem accA_cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : cond1 i) (hc2 : ¬cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (y : S16x256.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11).1 S16x256.size (by sl_kernel_rfl) y

/-- What a middle chunk leaves in the accumulator, from what the chunk before left. -/
def accB (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) : Vec F S16x256 .f32 :=
  VAcc.read (Elt F) (VAcc.writes (Elt F) VAcc.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1)
theorem accB_cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) (y : S16x256.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1 S16x256.size (by sl_kernel_rfl) y

/-- What the last chunk leaves in the accumulator and in the result block. -/
def accC (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) : Vec F S16x256 .f32 :=
  VAcc.read (Elt F) (VAcc.writes (Elt F) VAcc.junk (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).2.1)
theorem accC_cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) (y : S16x256.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).2.1 S16x256.size (by sl_kernel_rfl) y
def outC (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) : Vec F S16x2500 .f32 :=
  VOut.read (Elt F) (VOut.writes (Elt F) VOut.junk (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1)
theorem outC_cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) (y : S16x2500.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0).1 S16x2500.size (by sl_kernel_rfl) y

/-- The result block where no chunk has stored it yet: nothing consults it (the window is idle there and is not
    written back). -/
def outIdle : Vec F S16x2500 .f32 := VOut.read (Elt F) VOut.junk

/-! ## The cases at a grid point -/

theorem c1_of (t : Fin cfg0.N) (h : t.val = 0) : cond1 (grid0.coords t) := (hcond1 t).mpr h
theorem nc1_of (t : Fin cfg0.N) (h : t.val ≠ 0) : ¬cond1 (grid0.coords t) := fun hc => h ((hcond1 t).mp hc)
theorem c2_of (t : Fin cfg0.N) (h : t.val ≠ 0) : cond2 (grid0.coords t) := (hcond2 t).mpr h
theorem nc2_of (t : Fin cfg0.N) (h : t.val = 0) : ¬cond2 (grid0.coords t) := fun hc => (hcond2 t).mp hc h
theorem c3_of (t : Fin cfg0.N) (h : t.val = 3) : cond3 (grid0.coords t) := (hcond3 t).mpr h
theorem nc3_of (t : Fin cfg0.N) (h : t.val ≠ 3) : ¬cond3 (grid0.coords t) := fun hc => h ((hcond3 t).mp hc)

def accAtA (c : Dev nD) (t : Fin cfg0.N) (h : t.val = 0) : Vec F S16x256 .f32 :=
  accA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (c1_of t h) (nc2_of t h) (nc3_of t (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t)
def accAtB (c : Dev nD) (t : Fin cfg0.N) (h0 : t.val ≠ 0) (h3 : t.val ≠ 3) (prev : Vec F S16x256 .f32) : Vec F S16x256 .f32 :=
  accB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t h0) (c2_of t h0) (nc3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) prev
def accAtC (c : Dev nD) (t : Fin cfg0.N) (h3 : t.val = 3) (prev : Vec F S16x256 .f32) : Vec F S16x256 .f32 :=
  accC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) prev
def outAtC (c : Dev nD) (t : Fin cfg0.N) (h3 : t.val = 3) (prev : Vec F S16x256 .f32) : Vec F S16x2500 .f32 :=
  outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) prev

/-! ## What the result block and the accumulator hold after each chunk -/

/-- After chunk `n`: (the result block, the accumulator).  The first chunk sets the accumulator; each later one adds
    to what the chunk before left; the last also stores the result block. -/
def outsAt (c : Dev nD) : (n : ℕ) → n < cfg0.N → Vec F S16x2500 .f32 × Vec F S16x256 .f32
  | 0, hn => (outIdle, accAtA m c ⟨0, hn⟩ rfl)
  | n + 1, hn =>
    if h3 : n + 1 = 3 then
      (outAtC m c ⟨n + 1, hn⟩ h3 (outsAt c n (Nat.lt_of_succ_lt hn)).2, accAtC m c ⟨n + 1, hn⟩ h3 (outsAt c n (Nat.lt_of_succ_lt hn)).2)
    else
      (outIdle, accAtB m c ⟨n + 1, hn⟩ (Nat.succ_ne_zero n) h3 (outsAt c n (Nat.lt_of_succ_lt hn)).2)

theorem outsAt_A (c : Dev nD) (t : Fin cfg0.N) (h : t.val = 0) :
    outsAt m c t.val t.isLt = (outIdle, accAtA m c t h) := by
  obtain ⟨n, hn⟩ := t
  cases n with
  | zero => rfl
  | succ n => exact absurd h (Nat.succ_ne_zero n)

theorem outsAt_B (c : Dev nD) (t : Fin cfg0.N) (h0 : t.val ≠ 0) (h3 : t.val ≠ 3) :
    outsAt m c t.val t.isLt = (outIdle, accAtB m c t h0 h3 (outsAt m c (t.val - 1) (Nat.lt_of_le_of_lt (Nat.sub_le _ _) t.isLt)).2) := by
  obtain ⟨n, hn⟩ := t
  cases n with
  | zero => exact absurd rfl h0
  | succ n => exact (dif_neg h3).trans rfl

theorem outsAt_C (c : Dev nD) (t : Fin cfg0.N) (h3 : t.val = 3) :
    outsAt m c t.val t.isLt = (outAtC m c t h3 (outsAt m c (t.val - 1) (Nat.lt_of_le_of_lt (Nat.sub_le _ _) t.isLt)).2, accAtC m c t h3 (outsAt m c (t.val - 1) (Nat.lt_of_le_of_lt (Nat.sub_le _ _) t.isLt)).2) := by
  obtain ⟨n, hn⟩ := t
  cases n with
  | zero => exact absurd h3 (by simp)
  | succ n => exact (dif_pos h3).trans rfl

/-! ## The invariant between chunks -/

/-- Before the first chunk the class's invariant (every scratch buffer at anything); afterwards the accumulator at what
    the chunk before left, the two activation buffers at anything, the generator register at some state. -/
def PhiS (c : Dev nD) : (n : ℕ) → n ≤ cfg0.N → sProp 𝕄
  | 0, _ => Pipeline.ΦA spec0 c
  | n + 1, hn => iprop(iprop(owns (c : Thread nD τ) scAcc fullShare ((outsAt m c n hn).2) ∗ (∃ d, owns (c : Thread nD τ) scH1 fullShare d) ∗ (∃ d, owns (c : Thread nD τ) scH2 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scAcc fullShare ((outsAt m c n hn).2) ∗ (∃ d, owns (c : Thread nD τ) scH1 fullShare d) ∗ (∃ d, owns (c : Thread nD τ) scH2 fullShare d)) ∗ (∃ r, prngReg c r)) := rfl
theorem PhiS_pos (c : Dev nD) (n : ℕ) (h : n ≤ cfg0.N) (hz : n ≠ 0) :
    PhiS m c n h = iprop(iprop(owns (c : Thread nD τ) scAcc fullShare ((outsAt m c (n - 1) (by omega)).2) ∗ (∃ d, owns (c : Thread nD τ) scH1 fullShare d) ∗ (∃ d, owns (c : Thread nD τ) scH2 fullShare d)) ∗ (∃ r, prngReg c r)) := by
  cases n with
  | zero => exact absurd rfl hz
  | succ n => rfl

/-! ## The pipeline's proof data -/

/-- The arrays as the region finds them; after the body at a point each input's buffer at its block and the result's at
    `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = (outsAt m c t.val t.isLt).1 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d

/-! ## The body obligation, at a generic point -/

/-- What the body is called with at a point: the invariant, the (empty) tallies, each window's current staging buffer
    at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-! An input window's buffer is handed back at its block (the window is never idle). -/
theorem leaves_0 (c : Dev nD) (t : Fin cfg0.N) : (dats m 0 c).leavesExact 0 t = owns (c : Thread nD τ) (ms0 t) fullShare (iblk m c 0 t) := by
  unfold Dat.leavesExact; rw [live_in 0 (by decide) t, after_0]
theorem leaves_1 (c : Dev nD) (t : Fin cfg0.N) : (dats m 0 c).leavesExact 1 t = owns (c : Thread nD τ) (ms1 t) fullShare (iblk m c 1 t) := by
  unfold Dat.leavesExact; rw [live_in 1 (by decide) t, after_1]
theorem leaves_2 (c : Dev nD) (t : Fin cfg0.N) : (dats m 0 c).leavesExact 2 t = owns (c : Thread nD τ) (ms2 t) fullShare (iblk m c 2 t) := by
  unfold Dat.leavesExact; rw [live_in 2 (by decide) t, after_2]
theorem leaves_3 (c : Dev nD) (t : Fin cfg0.N) : (dats m 0 c).leavesExact 3 t = owns (c : Thread nD τ) (ms3 t) fullShare (iblk m c 3 t) := by
  unfold Dat.leavesExact; rw [live_in 3 (by decide) t, after_3]
theorem leaves_4 (c : Dev nD) (t : Fin cfg0.N) : (dats m 0 c).leavesExact 4 t = owns (c : Thread nD τ) (ms4 t) fullShare (iblk m c 4 t) := by
  unfold Dat.leavesExact; rw [live_in 4 (by decide) t, after_4]
theorem leaves_5 (c : Dev nD) (t : Fin cfg0.N) : (dats m 0 c).leavesExact 5 t = owns (c : Thread nD τ) (ms5 t) fullShare (iblk m c 5 t) := by
  unfold Dat.leavesExact; rw [live_in 5 (by decide) t, after_5]
theorem leaves_6 (c : Dev nD) (t : Fin cfg0.N) : (dats m 0 c).leavesExact 6 t = owns (c : Thread nD τ) (ms6 t) fullShare (iblk m c 6 t) := by
  unfold Dat.leavesExact; rw [live_in 6 (by decide) t, after_6]
theorem leaves_7 (c : Dev nD) (t : Fin cfg0.N) : (dats m 0 c).leavesExact 7 t = owns (c : Thread nD τ) (ms7 t) fullShare (iblk m c 7 t) := by
  unfold Dat.leavesExact; rw [live_in 7 (by decide) t, after_7]
theorem leaves_8 (c : Dev nD) (t : Fin cfg0.N) : (dats m 0 c).leavesExact 8 t = owns (c : Thread nD τ) (ms8 t) fullShare (iblk m c 8 t) := by
  unfold Dat.leavesExact; rw [live_in 8 (by decide) t, after_8]
theorem leaves_9 (c : Dev nD) (t : Fin cfg0.N) : (dats m 0 c).leavesExact 9 t = owns (c : Thread nD τ) (ms9 t) fullShare (iblk m c 9 t) := by
  unfold Dat.leavesExact; rw [live_in 9 (by decide) t, after_9]
theorem leaves_10 (c : Dev nD) (t : Fin cfg0.N) : (dats m 0 c).leavesExact 10 t = owns (c : Thread nD τ) (ms10 t) fullShare (iblk m c 10 t) := by
  unfold Dat.leavesExact; rw [live_in 10 (by decide) t, after_10]

set_option maxHeartbeats 16000000 in
/-- The body at any point.  The inputs' buffers hold their blocks; which chunk the point is decides the case: at the
    first the accumulator comes at anything, later at what the chunk before left, and it is taken back at this chunk's
    contents (its stored pieces cover it); the result's buffer is handed back untouched before the last chunk and at the
    stored block at the last; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t, leaves_8 m c t, leaves_9 m c t, leaves_10 m c t]
  have hN : t.val < 4 := lt_of_lt_of_eq t.isLt (show cfg0.N = 4 from N_0)
  by_cases h0 : t.val = 0
  · rw [Dat.leavesExact_idle (dats m 0 c) 11 t (idle_out t (nc3_of t (by omega))) (noFlush_out t (nc3_of t (by omega)))]
    rw [outsAt_A m c t h0]
    unfold accAtA accA; (try dsimp only)
    rw [PhiS_castSucc m c t, PhiS_zero m c _ _ h0, PhiA_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (c1_of t h0) (nc2_of t h0) (nc3_of t (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (accA_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (c1_of t h0) (nc2_of t h0) (nc3_of t (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t))
        isplitl [HS1]
        · iapply (owns_some c scH1 _) $$ HS1
        iapply (owns_some c scH2 _) $$ HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases h3 : t.val = 3
    · rw [show (dats m 0 c).leavesExact 11 t = owns (c : Thread nD τ) (ms11 t) fullShare ((dats m 0 c).after 11 t) from by
        unfold Dat.leavesExact; rw [live_out t (c3_of t h3)], after_11]
      rw [outsAt_C m c t h3]
      unfold accAtC accC outAtC outC; (try dsimp only)
      rw [PhiS_castSucc m c t, PhiS_pos m c _ _ h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      iintro ⟨H0, H1, H2, H3, H4, H5, H6, H7, H8, H9, H10, ⟨%e11, H11⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (accC_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2)
          isplitl [HS1]
          · iapply (owns_some c scH1 _) $$ HS1
          iapply (owns_some c scH2 _) $$ HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (outC_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t (by omega)) (c2_of t (by omega)) (c3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2)
    · rw [Dat.leavesExact_idle (dats m 0 c) 11 t (idle_out t (nc3_of t h3)) (noFlush_out t (nc3_of t h3))]
      rw [outsAt_B m c t h0 h3]
      unfold accAtB accB; (try dsimp only)
      rw [PhiS_castSucc m c t, PhiS_pos m c _ _ h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t h0) (c2_of t h0) (nc3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      iintro ⟨H0, H1, H2, H3, H4, H5, H6, H7, H8, H9, H10, H11, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (accB_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scAcc (Memref.isWhole_whole _) scH1 (Memref.isWhole_whole _) scH2 (Memref.isWhole_whole _) (nc1_of t h0) (c2_of t h0) (nc3_of t h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt m c (t.val - 1) (Nat.lt_of_le_of_lt (Nat.sub_le _ _) t.isLt)).2)
          isplitl [HS1]
          · iapply (owns_some c scH1 _) $$ HS1
          iapply (owns_some c scH2 _) $$ HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first chunk. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last chunk the invariant gives the class's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiA_eq]
  iintro ⟨⟨HS0, HS1, HS2⟩, Hg⟩
  isplitl [HS0 HS1 HS2]
  · isplitl [HS0]; · iexists _; iexact HS0
    isplitl [HS1]; · iexact HS1
    iexact HS2
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Fr

end
-- ==== Proof.RefSide.lean ====
/-
  The reference program's side: its run read one operation at a time.
-/
import proofs.«110067_g39341900431964_cont_8to1_b_836_15_alg».proof.Defs
import proofs.«110067_g39341900431964_cont_8to1_b_836_15_alg».proof.Proof.Gen.ReferenceIdeal.Run
import proofs.«110067_g39341900431964_cont_8to1_b_836_15_alg».proof.Proof.Gen.ReferenceIdeal.Read

noncomputable section

namespace Cert.ReferenceIdeal.RefSide

end Cert.ReferenceIdeal.RefSide

end
-- ==== Proof.KIValue.lean ====
/-
  What the kernel's result array holds after the run.

  The result's window has one block, the whole 16 × 2500 array, and the pipeline writes it back once, after the last
  chunk; so the array ends at what the last chunk's body stored, which is the dense head applied to the accumulator
  after four chunks.
-/
import Idealize.ShloMosaic.Lib.Pipeline.Value
import proofs.«110067_g39341900431964_cont_8to1_b_836_15_alg».proof.Proof.KIFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero_offsets : (![0, 0] : Fin 2 → Nat) = fun _ => 0 := funext fun a => by fin_cases a <;> rfl

/-- The grid has four points; the last is point 3. -/
theorem three_lt : 3 < cfg0.N := by rw [show cfg0.N = 4 from N_0]; decide

/-- The result block the last chunk stores, as contents of the result array. -/
abbrev result (c : Dev nD) : Buf (Elt F) ((c : Thread nD τ).loc main_v36) := (outsAt m c 3 three_lt).1

/-- The one write-back, after the last chunk, writes that block; read through the window at zero offsets it is the
    whole array. -/
theorem flushed_last (c : Dev nD) (t : Fin cfg0.N) (hf : (cfg0.win 11).flush t = true) :
    (dats m 0 c).flushed 11 t = ((cfg0.win 11).blk t).view.read (Elt F) (result m c) := by
  have hN : cfg0.N = 4 := N_0
  have h3 : t.val = 3 := by have := (flush0_11 t).mp hf; have := t.isLt; omega
  obtain rfl : t = t0_3 := Fin.ext h3
  show (cfg0.win 11).cut (grid0.coords t0_3) ((dats m 0 c).after 11 t0_3) = _
  rw [after_11]
  have hoff : (fun a => win0_11.index t0_3 a * main_v36.ty.shape.size a) = fun _ => 0 := funext fun a => by fin_cases a <;> decide
  exact (Memref.read_access_unit_zero (Elt F) main_v36 hoff (fun a => by rw [congrFun hoff a]; simp) (result m c)).symm

/-- Every entry of the array lies in that one block. -/
theorem last_covers (i : S16x2500.Idx) : i ∈ ((View.whole main_v36).slice (win0_11.rect t0_3)).set := by
  rw [View.set_slice_whole, Rect.mem_set_unit]
  intro a
  have h0 : (i 0 : Nat) < 16 := (i 0).isLt
  have h1 : (i 1 : Nat) < 2500 := (i 1).isLt
  match a with
  | ⟨0, _⟩ =>
    show win0_11.index t0_3 0 * win0_11.size 0 ≤ (i 0 : Nat) ∧ (i 0 : Nat) < win0_11.index t0_3 0 * win0_11.size 0 + win0_11.xsize (grid0.coords t0_3) 0
    rw [show win0_11.index t0_3 0 * win0_11.size 0 = 0 from by decide +kernel, show win0_11.xsize (grid0.coords t0_3) 0 = 16 from by decide +kernel]; omega
  | ⟨1, _⟩ =>
    show win0_11.index t0_3 1 * win0_11.size 1 ≤ (i 1 : Nat) ∧ (i 1 : Nat) < win0_11.index t0_3 1 * win0_11.size 1 + win0_11.xsize (grid0.coords t0_3) 1
    rw [show win0_11.index t0_3 1 * win0_11.size 1 = 0 from by decide +kernel, show win0_11.xsize (grid0.coords t0_3) 1 = 2500 from by decide +kernel]; omega

/-- So the result array ends at the block the last chunk stored. -/
theorem final_result (c : Dev nD) : (dats m 0 c).arrAt 11 cfg0.N = result m c :=
  (dats m 0 c).arrAt_eq_of_cover 11 (result m c) (flushed_last m c) fun i =>
    ⟨t0_3, (flush0_11 t0_3).mpr rfl, last_covers i⟩

/-- The run with its result named: the result array at `result`, the frame run's other facts kept. -/
theorem run_result : θ_run defs (onTc (τ := τ) (main (F := F))) (s₀ m ρ) (fun r => ∀ c : Dev nD,
      r.2.mem ((c : Thread nD τ).loc main_v36) = result m c ∧ Pipeline.FramePost cfgs (dats m) 0 (V m) r) :=
  (θ_run defs _ _).mono (fun r h c => ⟨((h c).1 11).trans (final_result m c), h⟩) (run_main m ρ)

/-! ## The cases' contents as the body's arithmetic -/

/-- A chunk's third-layer activations from its rows and the three augmented weight matrices: product and clip,
    three times. -/
abbrev layers (x4 : Vec F S4096x8 .f32) (x5 : Vec F S8x72 .f32) (x6 : Vec F S72x136 .f32) (x7 : Vec F S136x256 .f32) : FVec F S4096x256 .f32 :=
  k0_pay7 (k0_pay6 (k0_pay5 x4 x5) x6) x7

/-- The first chunk leaves in the accumulator its share of the segment means. -/
theorem accA_eq (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : cond1 i) (hc2 : ¬cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) :
    accA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 = k0_pay2 (layers x4 x5 x6 x7) (k0_pay8 i) (k0_pay9 x1) x2 x3 := by
  unfold accA
  rw [View.read_writes_eq_canon _ _ _ (accA_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11)]
  unfold runA
  dsimp only
  sl_unfold_words
  rw [View.canon_unit_zero zero_offsets]
  simp only [View.readCov_unit_zero (S := S4096x72) _ zero_offsets, View.readCov_unit_zero (S := S4096x136) _ zero_offsets, View.readCov_unit_zero (S := S16x256) _ zero_offsets, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x1) zero_offsets, View.ld_unit_zero (S := S4096x8) zero_offsets, View.ld_unit_zero (S := S8x72) zero_offsets, View.ld_unit_zero (S := S72x136) zero_offsets, View.ld_unit_zero (S := S136x256) zero_offsets, View.ld_unit_zero (S := S256x512) zero_offsets, View.ld_unit_zero (S := S1x512) zero_offsets, View.ld_unit_zero (S := S512x2500) zero_offsets, View.ld_unit_zero (S := S1x2500) zero_offsets, View.ld_unit_zero (S := S16x256) zero_offsets, View.ld_unit_zero (S := S4096x72) zero_offsets, View.ld_unit_zero (S := S4096x136) zero_offsets, View.ld_unit_zero (S := S16x2500) zero_offsets]

/-- A middle chunk leaves what it found plus its share. -/
theorem accB_eq (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : ¬cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) :
    accB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0 = k0_pay3 (layers x4 x5 x6 x7) (k0_pay8 i) (k0_pay9 x1) x2 x3 xs0 := by
  unfold accB
  rw [View.read_writes_eq_canon _ _ _ (accB_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0)]
  unfold runB
  dsimp only
  sl_unfold_words
  rw [View.canon_unit_zero zero_offsets]
  simp only [View.readCov_unit_zero (S := S4096x72) _ zero_offsets, View.readCov_unit_zero (S := S4096x136) _ zero_offsets, View.readCov_unit_zero (S := S16x256) _ zero_offsets, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x1) zero_offsets, View.ld_unit_zero (S := S4096x8) zero_offsets, View.ld_unit_zero (S := S8x72) zero_offsets, View.ld_unit_zero (S := S72x136) zero_offsets, View.ld_unit_zero (S := S136x256) zero_offsets, View.ld_unit_zero (S := S256x512) zero_offsets, View.ld_unit_zero (S := S1x512) zero_offsets, View.ld_unit_zero (S := S512x2500) zero_offsets, View.ld_unit_zero (S := S1x2500) zero_offsets, View.ld_unit_zero (S := S16x256) zero_offsets, View.ld_unit_zero (S := S4096x72) zero_offsets, View.ld_unit_zero (S := S4096x136) zero_offsets, View.ld_unit_zero (S := S16x2500) zero_offsets]

/-- So does the last chunk; -/
theorem accC_eq (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) :
    accC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0 = k0_pay3 (layers x4 x5 x6 x7) (k0_pay8 i) (k0_pay9 x1) x2 x3 xs0 := by
  unfold accC
  rw [View.read_writes_eq_canon _ _ _ (accC_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0)]
  unfold runC
  dsimp only
  sl_unfold_words
  rw [View.canon_unit_zero zero_offsets]
  simp only [View.readCov_unit_zero (S := S4096x72) _ zero_offsets, View.readCov_unit_zero (S := S4096x136) _ zero_offsets, View.readCov_unit_zero (S := S16x256) _ zero_offsets, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x1) zero_offsets, View.ld_unit_zero (S := S4096x8) zero_offsets, View.ld_unit_zero (S := S8x72) zero_offsets, View.ld_unit_zero (S := S72x136) zero_offsets, View.ld_unit_zero (S := S136x256) zero_offsets, View.ld_unit_zero (S := S256x512) zero_offsets, View.ld_unit_zero (S := S1x512) zero_offsets, View.ld_unit_zero (S := S512x2500) zero_offsets, View.ld_unit_zero (S := S1x2500) zero_offsets, View.ld_unit_zero (S := S16x256) zero_offsets, View.ld_unit_zero (S := S4096x72) zero_offsets, View.ld_unit_zero (S := S4096x136) zero_offsets, View.ld_unit_zero (S := S16x2500) zero_offsets]

/-- and it stores, as the result block, the dense head of the accumulator it has just updated. -/
theorem outC_eq (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S4096x8 .f32) (harg4 : arg4.IsWhole) (arg5 : Memref sig .tc .vmem S8x72 .f32) (harg5 : arg5.IsWhole) (arg6 : Memref sig .tc .vmem S72x136 .f32) (harg6 : arg6.IsWhole) (arg7 : Memref sig .tc .vmem S136x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x2500 .f32) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16x256 .f32) (harg13 : arg13.IsWhole) (arg14 : Memref sig .tc .vmem S4096x72 .f32) (harg14 : arg14.IsWhole) (arg15 : Memref sig .tc .vmem S4096x136 .f32) (harg15 : arg15.IsWhole) (hc1 : ¬cond1 i) (hc2 : cond2 i) (hc3 : cond3 i) (x1 : Vec F S16x1 .i32) (x2 : Vec F S16x1 .i32) (x3 : Vec F S16x1 .f32) (x4 : Vec F S4096x8 .f32) (x5 : Vec F S8x72 .f32) (x6 : Vec F S72x136 .f32) (x7 : Vec F S136x256 .f32) (x8 : Vec F S256x512 .f32) (x9 : Vec F S1x512 .f32) (x10 : Vec F S512x2500 .f32) (x11 : Vec F S1x2500 .f32) (xs0 : Vec F S16x256 .f32) :
    outC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0
      = k0_pay4 (k0_pay3 (layers x4 x5 x6 x7) (k0_pay8 i) (k0_pay9 x1) x2 x3 xs0) x8 x9 x10 x11 := by
  unfold outC
  rw [View.read_writes_eq_canon _ _ _ (outC_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x1 x2 x3 x4 x5 x6 x7 x8 x9 x10 x11 xs0)]
  unfold runC
  dsimp only
  sl_unfold_words
  rw [View.canon_unit_zero zero_offsets]
  simp only [View.readCov_unit_zero (S := S4096x72) _ zero_offsets, View.readCov_unit_zero (S := S4096x136) _ zero_offsets, View.readCov_unit_zero (S := S16x256) _ zero_offsets, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x1) zero_offsets, View.ld_unit_zero (S := S4096x8) zero_offsets, View.ld_unit_zero (S := S8x72) zero_offsets, View.ld_unit_zero (S := S72x136) zero_offsets, View.ld_unit_zero (S := S136x256) zero_offsets, View.ld_unit_zero (S := S256x512) zero_offsets, View.ld_unit_zero (S := S1x512) zero_offsets, View.ld_unit_zero (S := S512x2500) zero_offsets, View.ld_unit_zero (S := S1x2500) zero_offsets, View.ld_unit_zero (S := S16x256) zero_offsets, View.ld_unit_zero (S := S4096x72) zero_offsets, View.ld_unit_zero (S := S4096x136) zero_offsets, View.ld_unit_zero (S := S16x2500) zero_offsets]

/-! ## The accumulator, chunk by chunk -/

/-- The accumulator after chunk `n`: chunk 0's share, then each later chunk's share added to what was there — the
    body's own arithmetic on the windows' blocks at each point. -/
def accChain (c : Dev nD) : (n : ℕ) → n < cfg0.N → Vec F S16x256 .f32
  | 0, h => k0_pay2 (layers (iblk m c 3 ⟨0, h⟩) (iblk m c 4 ⟨0, h⟩) (iblk m c 5 ⟨0, h⟩) (iblk m c 6 ⟨0, h⟩)) (k0_pay8 (grid0.coords ⟨0, h⟩)) (k0_pay9 (iblk m c 0 ⟨0, h⟩)) (iblk m c 1 ⟨0, h⟩) (iblk m c 2 ⟨0, h⟩)
  | n + 1, h => k0_pay3 (layers (iblk m c 3 ⟨n + 1, h⟩) (iblk m c 4 ⟨n + 1, h⟩) (iblk m c 5 ⟨n + 1, h⟩) (iblk m c 6 ⟨n + 1, h⟩)) (k0_pay8 (grid0.coords ⟨n + 1, h⟩)) (k0_pay9 (iblk m c 0 ⟨n + 1, h⟩)) (iblk m c 1 ⟨n + 1, h⟩) (iblk m c 2 ⟨n + 1, h⟩) (accChain c n (Nat.lt_of_succ_lt h))

/-- What the frame's proof data says the accumulator holds after chunk `n` is that chain: by induction on the chunk. -/
theorem outsAt_acc (c : Dev nD) : ∀ (n : ℕ) (h : n < cfg0.N), (outsAt m c n h).2 = accChain m c n h
  | 0, h => by
    rw [outsAt_A m c ⟨0, h⟩ rfl]
    dsimp only
    unfold accAtA
    rw [accA_eq, accChain]
  | n + 1, h => by
    by_cases h3 : n + 1 = 3
    · rw [outsAt_C m c ⟨n + 1, h⟩ h3]
      dsimp only
      unfold accAtC
      rw [accC_eq, accChain]
      simp only [Nat.add_one_sub_one]
      rw [outsAt_acc c n]
    · rw [outsAt_B m c ⟨n + 1, h⟩ (Nat.succ_ne_zero n) h3]
      dsimp only
      unfold accAtB
      rw [accB_eq, accChain]
      simp only [Nat.add_one_sub_one]
      rw [outsAt_acc c n]

/-- The result array: the dense head (fourth layer, fifth layer, logistic) of the accumulator after the fourth chunk,
    on the head's weight and bias blocks. -/
theorem result_eq (c : Dev nD) :
    result m c = k0_pay4 (accChain m c 3 three_lt) (iblk m c 7 ⟨3, three_lt⟩) (iblk m c 8 ⟨3, three_lt⟩) (iblk m c 9 ⟨3, three_lt⟩) (iblk m c 10 ⟨3, three_lt⟩) := by
  unfold result
  rw [show outsAt m c 3 three_lt = outsAt m c (⟨3, three_lt⟩ : Fin cfg0.N).val (⟨3, three_lt⟩ : Fin cfg0.N).isLt from rfl, outsAt_C m c ⟨3, three_lt⟩ rfl]
  dsimp only
  unfold outAtC
  rw [outC_eq, accChain]
  simp only [Nat.reduceSub]
  rw [outsAt_acc m c 2]

/-- The run, read: the result array at `result`, the twelve argument arrays as launched (the two the windows stage by
    the library's account of an input array, the others because nothing writes them). -/
theorem run_value : θ_run defs (onTc (τ := τ) (main (F := F))) ⟨m, fun _ => 0, ρ⟩ (fun r => ∀ c : Dev nD,
      r.2.mem ((c.tc : Thread nD τ).loc main_v36) = result m c
      ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  (θ_run defs _ _).mono (fun _ h c => ⟨((h c).1 11).trans (final_result m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c))),
      ((h c).2 main_arg9 (Pipeline.mem_restRefs_of main_arg9 (by decide) (by decide))).trans (V_main_arg9 m c),
      ((h c).1 9).trans (((dats m 0 c).arrAt_in 9 rfl _).trans ((A_eq m c 9).trans (V_main_arg10 m c))),
      ((h c).2 main_arg11 (Pipeline.mem_restRefs_of main_arg11 (by decide) (by decide))).trans (V_main_arg11 m c)⟩)
    (run_main m ρ)

end Cert.KernelIdeal.Fr

end
-- ==== Proof.KIAcc.lean ====
/-
  The accumulator after the fourth chunk, entry by entry, at the ideal values: the four chunks' shares added in order.

  The first chunk stores its share; each later chunk stores what it finds plus its share.  Read at an entry, a store of
  "found + share" is the found entry plus the share's entry, so after four chunks the entry is
  ((share 0 + share 1) + share 2) + share 3.
-/
import Idealize.ShloMosaic.Lib.Pipeline.Value
import Idealize.ShloMosaic.Lib.ValueIdx
import proofs.«110067_g39341900431964_cont_8to1_b_836_15_alg».proof.Proof.KIValue

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- Chunk t's share of the segment means, on the windows' blocks at that point. -/
def shareAt (c : Dev nD) (t : Fin cfg0.N) : FVec Ideal S16x256 .f32 :=
  k0_pay1 (F := Ideal) (layers (iblk m c 3 t) (iblk m c 4 t) (iblk m c 5 t) (iblk m c 6 t)) (k0_pay8 (grid0.coords t)) (k0_pay9 (iblk m c 0 t)) (iblk m c 1 t) (iblk m c 2 t)

/-- What the first chunk stores is its share. -/
theorem pay2_at (v24 : FVec Ideal S4096x256 .f32) (v28 v31 : IVec S16x4096 32) (v33 : Vec Ideal S16x1 .i32) (v40 : Vec Ideal S16x1 .f32) :
    k0_pay2 (F := Ideal) v24 v28 v31 v33 v40 = k0_pay1 (F := Ideal) v24 v28 v31 v33 v40 := by
  unfold k0_pay2
  exact shapeCast_self _ _

/-- What a later chunk stores is, entry by entry, what it found plus its share. -/
theorem pay3_at (v24 : FVec Ideal S4096x256 .f32) (v28 v31 : IVec S16x4096 32) (v33 : Vec Ideal S16x1 .i32) (v40 : Vec Ideal S16x1 .f32)
    (v54 : Vec Ideal S16x256 .f32) (i : S16x256.Idx) :
    k0_pay3 (F := Ideal) v24 v28 v31 v33 v40 v54 i = v54 i + k0_pay1 (F := Ideal) v24 v28 v31 v33 v40 i := by
  unfold k0_pay3
  rw [shapeCast_self]
  rfl

/-- After the fourth chunk. -/
theorem acc_at (c : Dev nD) (i : S16x256.Idx) :
    accChain m c 3 three_lt i
      = ((shareAt m c ⟨0, by rw [show cfg0.N = 4 from N_0]; decide⟩ i + shareAt m c ⟨1, by rw [show cfg0.N = 4 from N_0]; decide⟩ i)
          + shareAt m c ⟨2, by rw [show cfg0.N = 4 from N_0]; decide⟩ i) + shareAt m c ⟨3, three_lt⟩ i := by
  rw [accChain, pay3_at, accChain, pay3_at, accChain, pay3_at, accChain, pay2_at]
  rfl

end Cert.KernelIdeal.Fr

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibCount.lean ====
/-
  Counting with 32-bit words. The 32-bit sum of fewer than 2^31 words, each zero or one, is the NUMBER of ones (no
  wrap-around), read signed or unsigned. From a word `c` whose signed value is a natural number `N`: its conversion to an
  ideal float is `N`; the signed maximum of `c` and 1 has value `max N 1`; the signed test `c > 0` is `0 < N`. And on the
  extended reals, a sum of ones over the members of a finite set that satisfy `p` is their number.
-/
import Idealize.ShloMosaic.PureOps.Ideal
import Idealize.ShloMosaic.PureOps.Ideal.Laws
import Idealize.ShloMosaic.PureOps.Reduce

namespace Cert.LibCount

open Idealize.ShloMosaic

/-- The 32-bit sum of the one-bit words `g i`, widened, over fewer than 2^32 indices is the number of ones. -/
theorem fold_addi_toNat {ι : Type} [DecidableEq ι] (g : ι → BitVec 1) (s : Finset ι) :
    s.card < 2 ^ 32 →
      (s.fold IntOp.addi 0#32 fun i => (g i).setWidth 32).toNat = (s.filter fun i => g i = 1#1).card := by
  refine Finset.induction_on s (fun _ => rfl) fun a s ha ih hc => ?_
  rw [Finset.card_insert_of_notMem ha] at hc
  have ihs := ih (by omega)
  have hle : (s.filter fun i => g i = 1#1).card ≤ s.card := Finset.card_filter_le _ _
  rw [Finset.fold_insert ha, Finset.filter_insert]
  refine (BitVec.toNat_add _ _).trans ?_
  rw [ihs]
  rcases BitVec.eq_zero_or_eq_one (g a) with h | h
  · rw [h, if_neg (by decide), show ((0#1 : BitVec 1).setWidth 32).toNat = 0 from rfl, Nat.zero_add]
    exact Nat.mod_eq_of_lt (by omega)
  · rw [h, if_pos rfl, show ((1#1 : BitVec 1).setWidth 32).toNat = 1 from rfl,
      Finset.card_insert_of_notMem (fun hm => ha (Finset.mem_filter.mp hm).1), Nat.add_comm]
    exact Nat.mod_eq_of_lt (by omega)

/-- The same, read signed: fewer than 2^31 indices. -/
theorem fold_addi_toInt {ι : Type} [DecidableEq ι] (g : ι → BitVec 1) (s : Finset ι) (hc : s.card < 2 ^ 31) :
    (s.fold IntOp.addi 0#32 fun i => (g i).setWidth 32).toInt = ((s.filter fun i => g i = 1#1).card : ℤ) := by
  have hle : (s.filter fun i => g i = 1#1).card ≤ s.card := Finset.card_filter_le _ _
  rw [BitVec.toInt_eq_toNat_cond, fold_addi_toNat g s (by omega), if_pos (by omega)]

section Word

variable (c : BitVec 32) (N : ℕ) (h : c.toInt = (N : ℤ))
include h

/-- The word as an ideal float is its value. -/
theorem sitofp_eq : FloatOps.sitofp (F := Ideal) .f32 c = (N : EReal) := by
  show (((c.toInt : ℝ)) : EReal) = (N : EReal)
  rw [h, Int.cast_natCast, EReal.coe_natCast]

/-- The signed maximum with 1. -/
theorem maxsi_one_toInt : (IntOp.maxsi c 1#32).toInt = ((max N 1 : ℕ) : ℤ) := by
  unfold IntOp.maxsi
  have h1 : (1#32 : BitVec 32).toInt = 1 := by decide
  by_cases hN : 1 < N
  · rw [if_pos (by rw [BitVec.slt, h1, h]; exact decide_eq_true (by exact_mod_cast hN)), h, max_eq_left hN.le]
  · rw [if_neg (by rw [BitVec.slt, h1, h]; exact fun hd => hN (by exact_mod_cast of_decide_eq_true hd)), h1,
      max_eq_right (by omega)]
    rfl

/-- The signed test `c > 0`. -/
theorem cmpi_sgt_zero : IntOp.cmpi .sgt c 0#32 = BitVec.ofBool (decide (0 < N)) := by
  show BitVec.ofBool ((0#32 : BitVec 32).slt c) = _
  have h0 : (0#32 : BitVec 32).toInt = 0 := by decide
  rw [BitVec.slt, h0, h]
  congr 1
  exact decide_eq_decide.mpr (by exact_mod_cast Iff.rfl)

end Word

/-- A sum of ones over the members satisfying `p` is their number. -/
theorem sum_ones {ι : Type} (s : Finset ι) (p : ι → Prop) [DecidablePred p] :
    (∑ i ∈ s, if p i then (1 : EReal) else 0) = ((s.filter p).card : EReal) := by
  rw [Finset.sum_ite, Finset.sum_const_zero, add_zero, Finset.sum_const, nsmul_one]

/-- On the extended reals, `max N 1` of a natural number is the natural number `max N 1`. -/
theorem max_one (N : ℕ) : max (N : EReal) 1 = ((max N 1 : ℕ) : EReal) := by
  rcases le_total N 1 with hN | hN
  · rw [max_eq_right hN, max_eq_right (by exact_mod_cast hN), Nat.cast_one]
  · rw [max_eq_left hN, max_eq_left (by exact_mod_cast hN)]

/-- `0 < N` on the extended reals. -/
theorem pos_iff (N : ℕ) : (0 : EReal) < (N : EReal) ↔ 0 < N := by
  exact_mod_cast Iff.rfl

/-- A decided bit is one exactly when the proposition holds. -/
theorem bit_decide_iff (P : Prop) [Decidable P] : BitVec.ofBool (decide P) = 1#1 ↔ P := by
  by_cases h : P
  · rw [decide_eq_true h]; exact ⟨fun _ => h, fun _ => rfl⟩
  · rw [decide_eq_false h]; exact ⟨fun e => absurd e (by decide), fun hp => absurd hp h⟩

/-- The test `c > 0` as a bit is one exactly when the count is positive on the extended reals. -/
theorem has_word (c : BitVec 32) (N : ℕ) (h : c.toInt = (N : ℤ)) :
    IntOp.cmpi .sgt c 0#32 = 1#1 ↔ (0 : EReal) < (N : EReal) := by
  rw [cmpi_sgt_zero c N h]
  exact (bit_decide_iff _).trans (pos_iff N).symm

/-- A masked mean from its words: where the count is positive the sum over `max count 1`, else zero. -/
theorem loss_word (c : BitVec 32) (N : ℕ) (h : c.toInt = (N : ℤ)) (S : EReal) :
    Scalar.select (IntOp.cmpi .sgt c 0#32)
        (FloatOps.hostDivf (F := Ideal) (φ := .f32) S (FloatOps.sitofp (F := Ideal) .f32 (IntOp.maxsi c 1#32)))
        (FloatOps.ofBits (F := Ideal) .f32 0x00000000#32)
      = if (0 : EReal) < (N : EReal) then Ideal.div S (max (N : EReal) 1) else 0 := by
  rw [sitofp_eq _ _ (maxsi_one_toInt c N h), ← max_one]
  show (if IntOp.cmpi .sgt c 0#32 = 1#1 then Ideal.div S (max (N : EReal) 1) else Ideal.ofBits .f32 0x00000000#32) = _
  rw [Ideal.ofBits_zero_f32]
  exact if_congr (has_word c N h) rfl rfl

end Cert.LibCount
-- ==== Proof.KIMember.lean ====
/-
  The kernel's membership test, lane by lane.

  In chunk t the lane (s, r) stands for row 4096·t + r: the lane's index along the chunk plus the chunk's offset, both
  small, so the 32-bit sum does not wrap and reads signed as that number.  The lane's membership bit is the conjunction
  of two signed comparisons, with segment s's lower bound (at or below the row) and upper bound (above it), each bound
  one column entry repeated along the lanes.
-/
import Idealize.ShloMosaic.Lib.Pipeline.Value
import Idealize.ShloMosaic.Lib.ValueIdx
import Idealize.ShloMosaic.Lib.Affine
import proofs.«110067_g39341900431964_cont_8to1_b_836_15_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The row a lane stands for, as the lane's word read signed. -/
theorem row_word (i : grid0.Coords) (s : Fin 16) (r : Fin 4096) :
    (k0_pay8 i (ix2 s r)).toInt = (4096 * (i 0).val + r.val : ℤ) := by
  have hr := r.isLt
  have ht : (i 0).val < 4 := (i 0).isLt
  unfold k0_pay8
  dsimp only
  show ((iota .tc S16x4096 32 [1] iota_S16x4096_d1_w32 (ix2 s r)) + (BitVec.ofNat 32 (i 0).val) * 4096#32).toInt = _
  rw [iota_single_apply]
  show (BitVec.ofNat 32 r.val + BitVec.ofNat 32 (i 0).val * 4096#32).toInt = _
  have hnat : (BitVec.ofNat 32 r.val + BitVec.ofNat 32 (i 0).val * 4096#32).toNat = 4096 * (i 0).val + r.val := by
    simp only [BitVec.toNat_add, BitVec.toNat_mul, BitVec.toNat_ofNat]
    omega
  rw [BitVec.toInt_eq_toNat_of_lt (by rw [hnat]; omega), hnat]
  push_cast
  ring

/-- A bound's column entry, repeated along the lanes. -/
theorem bound_at (x : Vec F S16x1 .i32) (s : Fin 16) (r : Fin 4096) :
    broadcastTo S16x4096 (shapeCast S16x1 x shapeCasts_S16x1_S16x1) broadcasts_S16x1_S16x4096 (ix2 s r) = x (ix2 s 0) := by
  rw [broadcastTo_apply _ _ (ix2 s r) (ix2 s 0) (fun a => by
    match a with
    | ⟨0, _⟩ => show s.val = if (16 : Nat) = 1 then 0 else s.val; rw [if_neg (by decide)]
    | ⟨1, _⟩ => show 0 = if (1 : Nat) = 1 then 0 else r.val; rw [if_pos rfl]), shapeCast_self]

/-- The membership bit of lane (s, r) in chunk t: row 4096·t + r lies in segment s's range. -/
theorem member_iff (i : grid0.Coords) (x1 x2 : Vec F S16x1 .i32) (s : Fin 16) (r : Fin 4096) :
    andi (cmpi .sge (k0_pay8 i) (k0_pay9 x1))
        (cmpi .slt (k0_pay8 i) (broadcastTo S16x4096 (shapeCast S16x1 x2 shapeCasts_S16x1_S16x1) broadcasts_S16x1_S16x4096)) (ix2 s r) = 1#1
      ↔ ((x1 (ix2 s 0)).toInt ≤ (4096 * (i 0).val + r.val : ℤ) ∧ (4096 * (i 0).val + r.val : ℤ) < (x2 (ix2 s 0)).toInt) := by
  show IntOp.andi (IntOp.cmpi .sge (k0_pay8 i (ix2 s r)) (k0_pay9 x1 (ix2 s r)))
      (IntOp.cmpi .slt (k0_pay8 i (ix2 s r)) (broadcastTo S16x4096 (shapeCast S16x1 x2 shapeCasts_S16x1_S16x1) broadcasts_S16x1_S16x4096 (ix2 s r))) = 1#1 ↔ _
  have e1 : k0_pay9 x1 (ix2 s r) = x1 (ix2 s 0) := by
    unfold k0_pay9
    exact bound_at x1 s r
  rw [IntOp.andi_eq_one, IntOp.cmpi_sge, IntOp.cmpi_slt, row_word, e1, bound_at]

end Cert.KernelIdeal.Fr

end
-- ==== Proof.KIPool.lean ====
/-
  A chunk's share of the segment means, entry by entry, at the ideal values.

  The share is one matrix product: row s of the left factor holds, lane by lane, "row 4096·t + r belongs to segment s"
  (one or zero) times the reciprocal of segment s's clipped length; the right factor is the chunk's third layer.  So entry
  (s, j) of the share is the sum over the chunk's 4096 rows of membership · reciprocal · activation.
-/
import proofs.«110067_g39341900431964_cont_8to1_b_836_15_alg».proof.Proof.LibMatmulZero
import proofs.«110067_g39341900431964_cont_8to1_b_836_15_alg».proof.Proof.LibCount
import Idealize.ShloMosaic.PureOps.Ideal.Laws
import proofs.«110067_g39341900431964_cont_8to1_b_836_15_alg».proof.Proof.KIMember

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A column entry repeated along the lanes, at any element type. -/
theorem col_at {α : Type} (x : S16x1.Idx → α) (s : Fin 16) (r : Fin 4096) :
    broadcastTo S16x4096 (shapeCast S16x1 x shapeCasts_S16x1_S16x1) broadcasts_S16x1_S16x4096 (ix2 s r) = x (ix2 s 0) := by
  rw [broadcastTo_apply _ _ (ix2 s r) (ix2 s 0) (fun a => by
    match a with
    | ⟨0, _⟩ => show s.val = if (16 : Nat) = 1 then 0 else s.val; rw [if_neg (by decide)]
    | ⟨1, _⟩ => show 0 = if (1 : Nat) = 1 then 0 else r.val; rw [if_pos rfl]), shapeCast_self]

/-- A membership bit, widened and converted, is the number one or zero. -/
theorem bit_value (b : BitVec 1) :
    FloatOps.sitofp (F := Ideal) .f32 (b.setWidth 32) = if b = 1#1 then (1 : EReal) else 0 := by
  rcases BitVec.eq_zero_or_eq_one b with h | h
  · subst h
    rw [if_neg (by decide)]
    exact (Cert.LibCount.sitofp_eq (c := (0#1 : BitVec 1).setWidth 32) (N := 0) rfl).trans (by simp)
  · subst h
    rw [if_pos rfl]
    exact (Cert.LibCount.sitofp_eq (c := (1#1 : BitVec 1).setWidth 32) (N := 1) rfl).trans (by simp)

/-- Entry (s, j) of chunk t's share. -/
theorem share_at (i : grid0.Coords) (v24 : FVec Ideal S4096x256 .f32) (x1 x2 : Vec Ideal S16x1 .i32) (x3 : Vec Ideal S16x1 .f32)
    (s : Fin 16) (j : Fin 256) :
    k0_pay1 (F := Ideal) v24 (k0_pay8 i) (k0_pay9 x1) x2 x3 (ix2 s j)
      = ∑ r : Fin 4096,
          ((if ((x1 (ix2 s 0)).toInt ≤ (4096 * (i 0).val + r.val : ℤ) ∧ (4096 * (i 0).val + r.val : ℤ) < (x2 (ix2 s 0)).toInt)
              then (1 : EReal) else 0) * x3 (ix2 s 0)) * v24 (ix2 r j) := by
  unfold k0_pay1
  dsimp only
  refine (Cert.LibMatmulZero.matmul_zero_ix2 dot_S16x4096_S4096x256_S16x256_1_0_0_1_n_n rfl rfl rfl rfl
    (fun i c => by
      unfold DotDims.lhsIdx
      rw [dif_neg (show ¬(0 : Fin _) ∈ dot_S16x4096_S4096x256_S16x256_1_0_0_1_n_n.lhsBatch by decide), dif_pos (show (0 : Fin _) ∈ dot_S16x4096_S4096x256_S16x256_1_0_0_1_n_n.lhsNonContracting by decide)]
      rfl)
    (fun i c => by
      unfold DotDims.rhsIdx
      rw [dif_neg (show ¬(1 : Fin _) ∈ dot_S16x4096_S4096x256_S16x256_1_0_0_1_n_n.rhsBatch by decide), dif_pos (show (1 : Fin _) ∈ dot_S16x4096_S4096x256_S16x256_1_0_0_1_n_n.rhsNonContracting by decide)]
      rfl)
    none _ _ s j).trans ?_
  refine Finset.sum_congr rfl fun r _ => ?_
  congr 1
  show FloatOps.mulf (FloatOps.sitofp (F := Ideal) .f32
        ((andi (cmpi .sge (k0_pay8 i) (k0_pay9 x1))
            (cmpi .slt (k0_pay8 i) (broadcastTo S16x4096 (shapeCast S16x1 x2 shapeCasts_S16x1_S16x1) broadcasts_S16x1_S16x4096)) (ix2 s r)).setWidth 32))
      (broadcastTo S16x4096 (shapeCast S16x1 x3 shapeCasts_S16x1_S16x1) broadcasts_S16x1_S16x4096 (ix2 s r)) = _
  rw [Ideal.mulf_def, col_at, bit_value]
  congr 1
  exact if_congr (member_iff (F := Ideal) i x1 x2 s r) rfl rfl

end Cert.KernelIdeal.Fr

end
-- ==== Proof.LibFamily3.lean ====
/-
  A family of three, read at each of its three positions.

  A host concatenation of THREE operands is printed as a function of a family u : Fin 3 → (operand), the family being
  the literal ![a, b, c]; what the concatenation reads of operand k is u k.  Evaluating the family at the literal
  positions 0, 1, 2 — each equation by definition — turns "the family's k-th member" back into the named operand, so that
  whatever is known about a, b and c by name applies again.  (For two operands the printed form names them directly, and
  for four the library has the corresponding fact; three is the case it lacks.)  Because each equation holds by
  definition, rewriting with them is sound even where the operand's TYPE depends on which member it is.

  Imports Mathlib's vector notation only.
-/
import Mathlib.Data.Fin.VecNotation

namespace Cert.LibFamily3

/-- The first, second and third member of a family of three. -/
theorem fam3_zero {α : Type*} (a b c : α) : (![a, b, c] : Fin 3 → α) 0 = a := rfl
theorem fam3_one {α : Type*} (a b c : α) : (![a, b, c] : Fin 3 → α) 1 = b := rfl
theorem fam3_two {α : Type*} (a b c : α) : (![a, b, c] : Fin 3 → α) 2 = c := rfl

end Cert.LibFamily3
-- ==== Proof.KIHost.lean ====
/-
  What the host operations before the region leave in the arrays the windows stage, for any float instance.

  The point cloud gets a column of ones and four of zeros; each of the first three weight matrices gets its bias as an
  extra row and zero rows after it, and the first two a block of eight columns whose one non-zero entry, a one, sits in
  the row of the incoming ones (so that the ones are carried to the next layer); the boundaries' first sixteen and
  last sixteen entries become two columns, and the reciprocal of each difference, clipped below at one, a third; the
  last two biases become rows.
-/
import Idealize.ShloMosaic.Lib.StableHlo.Run
import proofs.«110067_g39341900431964_cont_8to1_b_836_15_alg».proof.Proof.LibFamily3
import proofs.«110067_g39341900431964_cont_8to1_b_836_15_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibFamily3

/-- A three-operand concatenation reads its operands as members of a literal family of three: evaluate the family at
    0, 1, 2. -/
local macro "operands3" : tactic =>
  `(tactic| dsimp only [fam3_zero, fam3_one, fam3_two])

/-- One array's contents after the host operations: evaluate the list, then each operation at its literal reference,
    opening a three-operand concatenate's family of operands where one is met. -/
local macro "host_value" : tactic =>
  `(tactic| (dsimp only [V, hostOps0]
             after_results_simp
             repeat (operands3; try after_results_simp)
             try rfl))

variable (m : (ℓ : Loc nD τ sig) → Buf (Elt F) ℓ)

/-- The scalar one and zero, spread over a shape. -/
abbrev ones (S : Shape) (h : S_.BroadcastsInDim S (![] : Fin 0 → Fin S.rank)) : FVec F S .f32 :=
  broadcastInDim S ![] h (constant S_ .f32 0x3F800000#32)
abbrev zeros (S : Shape) (h : S_.BroadcastsInDim S (![] : Fin 0 → Fin S.rank)) : FVec F S .f32 :=
  broadcastInDim S ![] h (constant S_ .f32 0x00000000#32)

/-- The point cloud with its column of ones and four columns of zeros. -/
abbrev cloudAug (x : FVec F S16384x3 .f32) : FVec F S16384x8 .f32 :=
  concatenate S16384x8 1 [⟨S16384x3, x⟩, ⟨S16384x1, ones S16384x1 bcast_S_S16384x1⟩, ⟨S16384x4, zeros S16384x4 bcast_S_S16384x4⟩]
    concatenates_S16384x3_S16384x1_S16384x4_S16384x8_d1

theorem V_cloud (c : Dev nD) : V m c main_v2 = cloudAug (m ((c : Thread nD τ).loc main_arg0)) := by
  host_value

/-- The pair of words (row, 0) that places the unit entry. -/
abbrev unitAt (r : BitVec 32) : IVec S2 32 :=
  concatenate S2 0 [⟨S1, broadcastInDim S1 ![] bcast_S_S1 (constantI S_ 32 r)⟩, ⟨S1, broadcastInDim S1 ![] bcast_S_S1 (constantI S_ 32 0#32)⟩] concatenates_S1_S1_S2_d0

/-- The first layer's weights: three rows of weights, the bias row, four zero rows; then eight columns, zero but for a
    one in row 3. -/
abbrev w1Aug (w : FVec F S3x64 .f32) (b : FVec F S64 .f32) : FVec F S8x72 .f32 :=
  concatenate S8x72 1
    [⟨S8x64, concatenate S8x64 0 [⟨S3x64, w⟩, ⟨S1x64, broadcastInDim S1x64 ![1] bcast_S64_S1x64_1 b⟩, ⟨S4x64, zeros S4x64 bcast_S_S4x64⟩] concatenates_S3x64_S1x64_S4x64_S8x64_d0⟩,
     ⟨S8x8, Host.scatter scatter_S8x8_S2_S__n_01_01_0 (fun _ b => b) (zeros S8x8 bcast_S_S8x8) (unitAt 3#32) (constant S_ .f32 0x3F800000#32)⟩]
    concatenates_S8x64_S8x8_S8x72_d1

set_option maxHeartbeats 4000000 in
theorem V_w1 (c : Dev nD) : V m c main_v11 = w1Aug (m ((c : Thread nD τ).loc main_arg2)) (m ((c : Thread nD τ).loc main_arg3)) := by
  host_value

/-- The second layer's: sixty-four rows of weights, the bias row, seven zero rows; the unit entry in row 64. -/
abbrev w2Aug (w : FVec F S64x128 .f32) (b : FVec F S128 .f32) : FVec F S72x136 .f32 :=
  concatenate S72x136 1
    [⟨S72x128, concatenate S72x128 0 [⟨S64x128, w⟩, ⟨S1x128, broadcastInDim S1x128 ![1] bcast_S128_S1x128_1 b⟩, ⟨S7x128, zeros S7x128 bcast_S_S7x128⟩] concatenates_S64x128_S1x128_S7x128_S72x128_d0⟩,
     ⟨S72x8, Host.scatter scatter_S72x8_S2_S__n_01_01_0 (fun _ b => b) (zeros S72x8 bcast_S_S72x8) (unitAt 64#32) (constant S_ .f32 0x3F800000#32)⟩]
    concatenates_S72x128_S72x8_S72x136_d1

set_option maxHeartbeats 4000000 in
theorem V_w2 (c : Dev nD) : V m c main_v20 = w2Aug (m ((c : Thread nD τ).loc main_arg4)) (m ((c : Thread nD τ).loc main_arg5)) := by
  host_value

/-- The third layer's: the weights, the bias row, seven zero rows (nothing is carried further). -/
abbrev w3Aug (w : FVec F S128x256 .f32) (b : FVec F S256 .f32) : FVec F S136x256 .f32 :=
  concatenate S136x256 0 [⟨S128x256, w⟩, ⟨S1x256, broadcastInDim S1x256 ![1] bcast_S256_S1x256_1 b⟩, ⟨S7x256, zeros S7x256 bcast_S_S7x256⟩] concatenates_S128x256_S1x256_S7x256_S136x256_d0

set_option maxHeartbeats 4000000 in
theorem V_w3 (c : Dev nD) : V m c main_v23 = w3Aug (m ((c : Thread nD τ).loc main_arg6)) (m ((c : Thread nD τ).loc main_arg7)) := by
  host_value

/-- The segments' lower bounds (the first sixteen boundaries) and upper bounds (the last sixteen), as columns. -/
abbrev lowerCol (cu : IVec S17 32) : IVec S16x1 32 := shapeCast S16x1 (extractStridedSlice S16 ![0] cu slices_S17_S16_0) shapeCasts_S16_S16x1
abbrev upperCol (cu : IVec S17 32) : IVec S16x1 32 := shapeCast S16x1 (extractStridedSlice S16 ![1] cu slices_S17_S16_1) shapeCasts_S16_S16x1

theorem V_lower (c : Dev nD) : V m c main_v25 = lowerCol (m ((c : Thread nD τ).loc main_arg1)) := by
  host_value
theorem V_upper (c : Dev nD) : V m c main_v27 = upperCol (m ((c : Thread nD τ).loc main_arg1)) := by
  host_value

/-- One over each segment's length clipped below at one. -/
abbrev invLen (cu : IVec S17 32) : FVec F S16x1 .f32 :=
  Host.divf (ones S16x1 bcast_S_S16x1) (maximumf (sitofp .f32 (subi (upperCol cu) (lowerCol cu))) (ones S16x1 bcast_S_S16x1))

set_option maxHeartbeats 4000000 in
theorem V_invLen (c : Dev nD) : V m c main_v33 = invLen (m ((c : Thread nD τ).loc main_arg1)) := by
  host_value

/-- The last two biases as rows. -/
theorem V_b4 (c : Dev nD) : V m c main_v34 = shapeCast S1x512 (m ((c : Thread nD τ).loc main_arg9)) shapeCasts_S512_S1x512 := by
  host_value
theorem V_b5 (c : Dev nD) : V m c main_v35 = shapeCast S1x2500 (m ((c : Thread nD τ).loc main_arg11)) shapeCasts_S2500_S1x2500 := by
  host_value

end Cert.KernelIdeal.Fr

end
-- ==== Proof.KIBounds.lean ====
/-
  The bounds columns' entries.

  Segment s's lower bound is boundary s and its upper bound boundary s + 1: the columns are the first sixteen and the
  last sixteen of the seventeen boundaries, each cast from a vector to a column.
-/
import Idealize.ShloMosaic.Lib.Pipeline.Value
import Idealize.ShloMosaic.Lib.ValueIdx
import proofs.«110067_g39341900431964_cont_8to1_b_836_15_alg».proof.Proof.KIHost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A vector cast to a column reads, at (i, u), the vector at i, whatever the unit coordinate u. -/
theorem cast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lower_at (cu : IVec S17 32) (s : Fin 16) : lowerCol cu (ix2 s (0 : Fin 1)) = cu (ix1 s.castSucc) := by
  unfold lowerCol
  rw [cast_col_apply, extractStridedSlice_apply ![0] cu slices_S17_S16_0 (ix1 s) (ix1 s.castSucc) (fun a => by
    match a with
    | ⟨0, _⟩ => show s.val = 0 + s.val; omega)]

theorem upper_at (cu : IVec S17 32) (s : Fin 16) : upperCol cu (ix2 s (0 : Fin 1)) = cu (ix1 s.succ) := by
  unfold upperCol
  rw [cast_col_apply, extractStridedSlice_apply ![1] cu slices_S17_S16_1 (ix1 s) (ix1 s.succ) (fun a => by
    match a with
    | ⟨0, _⟩ => show s.val + 1 = 1 + s.val; omega)]

end Cert.KernelIdeal.Fr

end
-- ==== Proof.KILen.lean ====
/-
  A segment's clipped length, and the kernel's scale.

  Segment s holds cu[s+1] − cu[s] rows; the mean divides by that count clipped below at one, so that an empty segment
  divides by one.  As a real number the clipped length is max(count, 1) ≥ 1.  The kernel keeps its reciprocal in a column
  computed on the host from the two bounds columns.
-/
import Idealize.ShloMosaic.PureOps.Ideal.Laws
import proofs.«110067_g39341900431964_cont_8to1_b_836_15_alg».proof.Proof.KIBounds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The word 0x3F800000 denotes one. -/
theorem one_word : Ideal.ofBits .f32 0x3F800000#32 = 1 := by
  simp [Ideal.ofBits, Ideal.ieee, -EReal.coe_mul]; norm_num

/-- The scalar one spread over a shape reads one everywhere. -/
theorem ones_at (S : Shape) (h : S_.BroadcastsInDim S (![] : Fin 0 → Fin S.rank)) (i : S.Idx) : ones (F := Ideal) S h i = 1 := by
  unfold ones
  rw [broadcastInDim_apply ![] h _ i ix0 (fun a => a.elim0), constant_apply, one_word]

/-- Segment s's count of rows clipped below at one, as a real. -/
def segLen (cu : IVec S17 32) (s : Fin 16) : ℝ :=
  max ((IntOp.subi (cu (ix1 s.succ)) (cu (ix1 s.castSucc))).toInt : ℝ) 1

theorem one_le_segLen (cu : IVec S17 32) (s : Fin 16) : 1 ≤ segLen cu s := le_max_right _ _

/-- The kernel's scale for segment s is the reciprocal of its clipped length. -/
theorem invLen_at (cu : IVec S17 32) (s : Fin 16) :
    invLen (F := Ideal) cu (ix2 s (0 : Fin 1)) = Ideal.div 1 ((segLen cu s : ℝ) : EReal) := by
  unfold invLen
  show FloatOps.hostDivf (ones (F := Ideal) S16x1 bcast_S_S16x1 (ix2 s 0))
      (FloatOps.maximumf (FloatOps.sitofp (F := Ideal) .f32 (IntOp.subi (upperCol cu (ix2 s 0)) (lowerCol cu (ix2 s 0))))
        (ones (F := Ideal) S16x1 bcast_S_S16x1 (ix2 s 0))) = _
  rw [Ideal.hostDivf_def, Ideal.maximumf_def, ones_at, upper_at, lower_at]
  show Ideal.div 1 (max (((IntOp.subi (cu (ix1 s.succ)) (cu (ix1 s.castSucc))).toInt : ℝ) : EReal) 1) = _
  rw [segLen, EReal.coe_strictMono.monotone.map_max, EReal.coe_one]

end Cert.KernelIdeal.Fr

end
-- ==== Proof.KIBlocks.lean ====
/-
  Each window's block at a grid point, as entries of its array.

  Ten of the eleven input windows have a single block, the whole array: whatever the point, the block is the array.  The
  point cloud's window has four blocks of 4096 rows; at chunk t its block's row r is the array's row 4096·t + r.
-/
import proofs.«110067_g39341900431964_cont_8to1_b_836_15_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem block_0 (c : Dev nD) (t : Fin cfg0.N) : (iblk m c 0 t : Vec F S16x1 .i32) = V m c main_v25 := by
  have hi : win0_0.index t 0 = 0 ∧ win0_0.index t 1 = 0 := by
    rcases fin_N0 t with rfl | rfl | rfl | rfl <;> decide
  funext j
  unfold iblk
  rw [View.read_apply]
  show V m c main_v25 _ = V m c main_v25 j
  congr 1
  funext a
  apply Fin.ext
  match a with
  | ⟨0, _⟩ => show win0_0.index t 0 * 16 + 1 * (j 0).val = (j 0).val; rw [hi.1]; omega
  | ⟨1, _⟩ => show win0_0.index t 1 * 1 + 1 * (j 1).val = (j 1).val; rw [hi.2]; omega

theorem block_1 (c : Dev nD) (t : Fin cfg0.N) : (iblk m c 1 t : Vec F S16x1 .i32) = V m c main_v27 := by
  have hi : win0_1.index t 0 = 0 ∧ win0_1.index t 1 = 0 := by
    rcases fin_N0 t with rfl | rfl | rfl | rfl <;> decide
  funext j
  unfold iblk
  rw [View.read_apply]
  show V m c main_v27 _ = V m c main_v27 j
  congr 1
  funext a
  apply Fin.ext
  match a with
  | ⟨0, _⟩ => show win0_1.index t 0 * 16 + 1 * (j 0).val = (j 0).val; rw [hi.1]; omega
  | ⟨1, _⟩ => show win0_1.index t 1 * 1 + 1 * (j 1).val = (j 1).val; rw [hi.2]; omega

theorem block_2 (c : Dev nD) (t : Fin cfg0.N) : (iblk m c 2 t : Vec F S16x1 .f32) = V m c main_v33 := by
  have hi : win0_2.index t 0 = 0 ∧ win0_2.index t 1 = 0 := by
    rcases fin_N0 t with rfl | rfl | rfl | rfl <;> decide
  funext j
  unfold iblk
  rw [View.read_apply]
  show V m c main_v33 _ = V m c main_v33 j
  congr 1
  funext a
  apply Fin.ext
  match a with
  | ⟨0, _⟩ => show win0_2.index t 0 * 16 + 1 * (j 0).val = (j 0).val; rw [hi.1]; omega
  | ⟨1, _⟩ => show win0_2.index t 1 * 1 + 1 * (j 1).val = (j 1).val; rw [hi.2]; omega

theorem block_4 (c : Dev nD) (t : Fin cfg0.N) : (iblk m c 4 t : Vec F S8x72 .f32) = V m c main_v11 := by
  have hi : win0_4.index t 0 = 0 ∧ win0_4.index t 1 = 0 := by
    rcases fin_N0 t with rfl | rfl | rfl | rfl <;> decide
  funext j
  unfold iblk
  rw [View.read_apply]
  show V m c main_v11 _ = V m c main_v11 j
  congr 1
  funext a
  apply Fin.ext
  match a with
  | ⟨0, _⟩ => show win0_4.index t 0 * 8 + 1 * (j 0).val = (j 0).val; rw [hi.1]; omega
  | ⟨1, _⟩ => show win0_4.index t 1 * 72 + 1 * (j 1).val = (j 1).val; rw [hi.2]; omega

theorem block_5 (c : Dev nD) (t : Fin cfg0.N) : (iblk m c 5 t : Vec F S72x136 .f32) = V m c main_v20 := by
  have hi : win0_5.index t 0 = 0 ∧ win0_5.index t 1 = 0 := by
    rcases fin_N0 t with rfl | rfl | rfl | rfl <;> decide
  funext j
  unfold iblk
  rw [View.read_apply]
  show V m c main_v20 _ = V m c main_v20 j
  congr 1
  funext a
  apply Fin.ext
  match a with
  | ⟨0, _⟩ => show win0_5.index t 0 * 72 + 1 * (j 0).val = (j 0).val; rw [hi.1]; omega
  | ⟨1, _⟩ => show win0_5.index t 1 * 136 + 1 * (j 1).val = (j 1).val; rw [hi.2]; omega

theorem block_6 (c : Dev nD) (t : Fin cfg0.N) : (iblk m c 6 t : Vec F S136x256 .f32) = V m c main_v23 := by
  have hi : win0_6.index t 0 = 0 ∧ win0_6.index t 1 = 0 := by
    rcases fin_N0 t with rfl | rfl | rfl | rfl <;> decide
  funext j
  unfold iblk
  rw [View.read_apply]
  show V m c main_v23 _ = V m c main_v23 j
  congr 1
  funext a
  apply Fin.ext
  match a with
  | ⟨0, _⟩ => show win0_6.index t 0 * 136 + 1 * (j 0).val = (j 0).val; rw [hi.1]; omega
  | ⟨1, _⟩ => show win0_6.index t 1 * 256 + 1 * (j 1).val = (j 1).val; rw [hi.2]; omega

theorem block_7 (c : Dev nD) (t : Fin cfg0.N) : (iblk m c 7 t : Vec F S256x512 .f32) = V m c main_arg8 := by
  have hi : win0_7.index t 0 = 0 ∧ win0_7.index t 1 = 0 := by
    rcases fin_N0 t with rfl | rfl | rfl | rfl <;> decide
  funext j
  unfold iblk
  rw [View.read_apply]
  show V m c main_arg8 _ = V m c main_arg8 j
  congr 1
  funext a
  apply Fin.ext
  match a with
  | ⟨0, _⟩ => show win0_7.index t 0 * 256 + 1 * (j 0).val = (j 0).val; rw [hi.1]; omega
  | ⟨1, _⟩ => show win0_7.index t 1 * 512 + 1 * (j 1).val = (j 1).val; rw [hi.2]; omega

theorem block_8 (c : Dev nD) (t : Fin cfg0.N) : (iblk m c 8 t : Vec F S1x512 .f32) = V m c main_v34 := by
  have hi : win0_8.index t 0 = 0 ∧ win0_8.index t 1 = 0 := by
    rcases fin_N0 t with rfl | rfl | rfl | rfl <;> decide
  funext j
  unfold iblk
  rw [View.read_apply]
  show V m c main_v34 _ = V m c main_v34 j
  congr 1
  funext a
  apply Fin.ext
  match a with
  | ⟨0, _⟩ => show win0_8.index t 0 * 1 + 1 * (j 0).val = (j 0).val; rw [hi.1]; omega
  | ⟨1, _⟩ => show win0_8.index t 1 * 512 + 1 * (j 1).val = (j 1).val; rw [hi.2]; omega

theorem block_9 (c : Dev nD) (t : Fin cfg0.N) : (iblk m c 9 t : Vec F S512x2500 .f32) = V m c main_arg10 := by
  have hi : win0_9.index t 0 = 0 ∧ win0_9.index t 1 = 0 := by
    rcases fin_N0 t with rfl | rfl | rfl | rfl <;> decide
  funext j
  unfold iblk
  rw [View.read_apply]
  show V m c main_arg10 _ = V m c main_arg10 j
  congr 1
  funext a
  apply Fin.ext
  match a with
  | ⟨0, _⟩ => show win0_9.index t 0 * 512 + 1 * (j 0).val = (j 0).val; rw [hi.1]; omega
  | ⟨1, _⟩ => show win0_9.index t 1 * 2500 + 1 * (j 1).val = (j 1).val; rw [hi.2]; omega

theorem block_10 (c : Dev nD) (t : Fin cfg0.N) : (iblk m c 10 t : Vec F S1x2500 .f32) = V m c main_v35 := by
  have hi : win0_10.index t 0 = 0 ∧ win0_10.index t 1 = 0 := by
    rcases fin_N0 t with rfl | rfl | rfl | rfl <;> decide
  funext j
  unfold iblk
  rw [View.read_apply]
  show V m c main_v35 _ = V m c main_v35 j
  congr 1
  funext a
  apply Fin.ext
  match a with
  | ⟨0, _⟩ => show win0_10.index t 0 * 1 + 1 * (j 0).val = (j 0).val; rw [hi.1]; omega
  | ⟨1, _⟩ => show win0_10.index t 1 * 2500 + 1 * (j 1).val = (j 1).val; rw [hi.2]; omega

/-- The point cloud's block at chunk `t`: row `r` of the block is row `4096·t + r` of the augmented array. -/
theorem block_3 (c : Dev nD) (t : Fin cfg0.N) (j : S4096x8.Idx) (i : S16384x8.Idx)
    (h0 : (i 0).val = 4096 * t.val + (j 0).val) (h1 : (i 1).val = (j 1).val) :
    (iblk m c 3 t : Vec F S4096x8 .f32) j = V m c main_v2 i := by
  have hi : win0_3.index t 0 = t.val ∧ win0_3.index t 1 = 0 := by
    rcases fin_N0 t with rfl | rfl | rfl | rfl <;> decide
  unfold iblk
  rw [View.read_apply]
  show V m c main_v2 _ = V m c main_v2 i
  congr 1
  funext a
  apply Fin.ext
  match a with
  | ⟨0, _⟩ => show win0_3.index t 0 * 4096 + 1 * (j 0).val = (i 0).val; rw [hi.1, h0]; omega
  | ⟨1, _⟩ => show win0_3.index t 1 * 8 + 1 * (j 1).val = (i 1).val; rw [hi.2, h1]; omega

end Cert.KernelIdeal.Fr

end
-- ==== Proof.LibBuckets.lean ====
/-
  Buckets of a non-decreasing boundary sequence, for any number n of segments.

  n segments are cut out of the integers by n + 1 boundaries b 0 ≤ b 1 ≤ … ≤ b n with b 0 = 0: segment s is the range
  b s ≤ e < b (s+1).  One way to find a row's segment is to test both ends of every range; another is to COUNT the upper
  boundaries b 1, …, b n that are at or below the row (a bucket search over sorted boundaries).  For a non-negative row
  index the two agree (count_eq_iff): the boundaries at or below the row form an initial stretch of the n (the sequence
  is non-decreasing), so their number is s exactly when b s is at or below the row and b (s+1) is not.  A row at or
  beyond b n is counted n times and belongs to no segment, on either account.  Both hypotheses are needed: with b 0 > 0
  the rows below b 0 are counted zero times yet lie in no range, and with a descent two ranges can claim one row's count.

  mem_iff_lt_card: a set of positions below n that contains every position below one of its members is an initial stretch
  whose length is its number of members.

  Imports Mathlib only.
-/
import Mathlib.Order.Interval.Finset.Fin
import Mathlib.Order.Fin.Basic
import Mathlib.Tactic

namespace Cert.LibBuckets

open Finset

/-- A set of positions below n that contains every position below one of its members is an initial stretch, and its
    number of members is the stretch's length. -/
theorem mem_iff_lt_card {n : ℕ} (S : Finset (Fin n)) (hdown : ∀ i j : Fin n, j ∈ S → i ≤ j → i ∈ S) (j : Fin n) :
    j ∈ S ↔ j.val < S.card := by
  constructor
  · intro hj
    have hsub : Finset.Iic j ⊆ S := fun i hi => hdown i j hj (Finset.mem_Iic.mp hi)
    have := Finset.card_le_card hsub
    rw [Fin.card_Iic] at this
    omega
  · intro hlt
    by_contra hj
    have hsub : S ⊆ Finset.Iio j := fun i hi => by
      rw [Finset.mem_Iio]
      by_contra hle
      exact hj (hdown j i hi (not_lt.mp hle))
    have := Finset.card_le_card hsub
    rw [Fin.card_Iio] at this
    omega

variable {n : ℕ} (b : Fin (n + 1) → ℤ)

/-- The upper boundaries at or below a row. -/
def below (e : ℤ) : Finset (Fin n) := Finset.univ.filter fun j => b j.succ ≤ e

theorem mem_below (e : ℤ) (j : Fin n) : j ∈ below b e ↔ b j.succ ≤ e := by
  simp [below]

/-- THE BUCKET LAW.  With b 0 = 0 and b non-decreasing, for a row e ≥ 0 and a segment s: the count of upper boundaries
    at or below e is s exactly when e lies in segment s's range. -/
theorem count_eq_iff (h0 : b 0 = 0) (hmono : ∀ j : Fin n, b j.castSucc ≤ b j.succ) (e : ℤ) (he : 0 ≤ e) (s : Fin n) :
    (below b e).card = s.val ↔ (b s.castSucc ≤ e ∧ e < b s.succ) := by
  have hmon : Monotone b := Fin.monotone_iff_le_succ.mpr hmono
  have hdown : ∀ i j : Fin n, j ∈ below b e → i ≤ j → i ∈ below b e := by
    intro i j hj hij
    rw [mem_below] at hj ⊢
    exact le_trans (hmon (Fin.succ_le_succ_iff.mpr hij)) hj
  have key := mem_iff_lt_card (below b e) hdown
  constructor
  · intro hcard
    refine ⟨?_, ?_⟩
    · by_cases hs : s.val = 0
      · have : s.castSucc = 0 := Fin.ext (by simpa using hs)
        rw [this, h0]; exact he
      · have hlt : s.val - 1 < n := by have := s.isLt; omega
        have hmem : (⟨s.val - 1, hlt⟩ : Fin n) ∈ below b e := (key _).mpr (by simp only; omega)
        rw [mem_below] at hmem
        have : (⟨s.val - 1, hlt⟩ : Fin n).succ = s.castSucc := Fin.ext (by simp; omega)
        rwa [this] at hmem
    · have hnot : s ∉ below b e := fun h => by have := (key s).mp h; omega
      rw [mem_below] at hnot
      exact not_le.mp hnot
  · rintro ⟨hlo, hhi⟩
    have hnot : s ∉ below b e := by rw [mem_below]; exact not_le.mpr hhi
    have hle : (below b e).card ≤ s.val := by
      by_contra hgt
      exact hnot ((key s).mpr (not_le.mp hgt))
    have hge : s.val ≤ (below b e).card := by
      have hsub : Finset.Iio s ⊆ below b e := fun j hj => by
        rw [Finset.mem_Iio] at hj
        rw [mem_below]
        refine le_trans (hmon ?_) hlo
        rw [Fin.le_iff_val_le_val]
        simp only [Fin.val_succ, Fin.coe_castSucc]
        exact hj
      have := Finset.card_le_card hsub
      rwa [Fin.card_Iio] at this
    omega

end Cert.LibBuckets
-- ==== Proof.RefBucket.lean ====
/-
  The reference's bucket of a row, as a count.

  The reference finds a row's segment by a bucket search: it compares the row's index e (a word: e itself, below
  2^14) with each of the sixteen upper boundaries cu[1], …, cu[16] as signed integers, widens the sixteen answers to 32
  bits and adds them.  Sixteen words that are zero or one cannot wrap, so the sum, read signed, is the NUMBER of upper
  boundaries at or below e.  For any float instance: only integers are involved.
-/
import proofs.«110067_g39341900431964_cont_8to1_b_836_15_alg».proof.Proof.RefSide
import proofs.«110067_g39341900431964_cont_8to1_b_836_15_alg».proof.Proof.LibCount
import proofs.«110067_g39341900431964_cont_8to1_b_836_15_alg».proof.Proof.LibBuckets
import Idealize.ShloMosaic.PureOps.Reduce
import Idealize.ShloMosaic.Lib.Affine

noncomputable section

namespace Cert.ReferenceIdeal.Bucket

open Cert.ReferenceIdeal Cert.ReferenceIdeal.Gen Cert.ReferenceIdeal.Read
open Idealize.ShloMosaic Idealize.ShloMosaic.ValueIdx

variable {F : FTy → Type} [FloatOps F]

/-- A row index below 2^14, as a 32-bit word, reads signed as itself. -/
theorem row_toInt (e : Fin 16384) : (BitVec.ofNat 32 e.val).toInt = (e.val : ℤ) := by
  have he := e.isLt
  rw [BitVec.toInt_eq_toNat_of_lt (by rw [BitVec.toNat_ofNat]; omega), BitVec.toNat_ofNat]
  congr 1
  omega

/-- The answer to "is upper boundary k at or below row e", as a bit. -/
abbrev atOrBelow (cu : IVec S17 32) (e : Fin 16384) (k : Fin 16) : BitVec 1 :=
  IntOp.cmpi .sge (BitVec.ofNat 32 e.val) (cu (ix1 k.succ))

/-- Entry (e, k) of the widened comparisons. -/
theorem v22_at (cu : IVec S17 32) (e : Fin 16384) (k : Fin 16) :
    val_main_v22 (F := F) cu (ix2 e k) = (atOrBelow cu e k).setWidth 32 := by
  rw [val_main_v22_apply, val_main_v21_apply, val_main_v19_apply, val_main_v16_apply, val_main_v15_apply,
    val_main_v20_apply, val_main_v18_apply, val_main_v17_apply]
  have hi : idx_main_v17 (idx_main_v18 (idx_main_v20 (ix2 e k))) = ix1 k.succ := funext fun a => Fin.ext (by
    match a with
    | ⟨0, _⟩ => show 1 + k.val = k.val + 1; omega)
  rw [hi]

/-- The bucket word of row e, read signed, is the number of upper boundaries at or below e. -/
theorem v23_toInt (cu : IVec S17 32) (e : Fin 16384) :
    (val_main_v23 (F := F) cu (ix1 e)).toInt
      = ((Cert.LibBuckets.below (fun j : Fin 17 => (cu (ix1 j)).toInt) (e.val : ℤ)).card : ℤ) := by
  have hR : S16384x16.Reduces [1] S16384 := by decide
  unfold val_main_v23
  rw [Host.reduce_eq_fold_single IntOp.addi _ _ reducesTo_S16384x16_S16384_d1 hR h_S_ (ix1 e)]
  have hf : (val_main_v22 (F := F) cu ∘ hR.lift (ix1 e))
      = fun k : Fin 16 => ((fun k : Fin 16 => atOrBelow cu e k) k).setWidth 32 := by
    funext (k : Fin 16)
    show val_main_v22 cu (hR.lift (ix1 e) k) = _
    have hl : hR.lift (ix1 e) k = ix2 e k := by
      funext a
      apply Fin.ext
      match a with
      | ⟨0, _⟩ => rfl
      | ⟨1, _⟩ => rfl
    rw [hl]
    exact v22_at cu e k
  rw [hf]
  show (Finset.univ.fold IntOp.addi 0#32 fun k : Fin 16 => ((fun k : Fin 16 => atOrBelow cu e k) k).setWidth 32).toInt = _
  rw [Cert.LibCount.fold_addi_toInt (fun k : Fin 16 => atOrBelow cu e k) Finset.univ
    (by rw [Finset.card_univ, Fintype.card_fin]; norm_num)]
  congr 2
  ext k
  simp only [Finset.mem_filter, Finset.mem_univ, true_and, Cert.LibBuckets.mem_below]
  rw [IntOp.cmpi_sge, row_toInt]

/-- Where the boundaries are cumulative offsets (the first zero, none decreasing), a row's bucket word reads as s exactly
    when the row lies in segment s's range — the test the kernel makes of both ends. -/
theorem bucket_eq_iff (cu : IVec S17 32) (h0 : cu (ix1 (0 : Fin 17)) = 0#32)
    (hmono : ∀ j : Fin 16, (cu (ix1 j.castSucc)).toInt ≤ (cu (ix1 j.succ)).toInt) (e : Fin 16384) (s : Fin 16) :
    (val_main_v23 (F := F) cu (ix1 e)).toInt = (s.val : ℤ)
      ↔ ((cu (ix1 s.castSucc)).toInt ≤ (e.val : ℤ) ∧ (e.val : ℤ) < (cu (ix1 s.succ)).toInt) := by
  rw [v23_toInt]
  have key := Cert.LibBuckets.count_eq_iff (fun j : Fin 17 => (cu (ix1 j)).toInt)
    (by show (cu (ix1 (0 : Fin 17))).toInt = 0; rw [h0]; rfl) hmono (e.val : ℤ) (Int.natCast_nonneg _) s
  rw [← key]
  exact Nat.cast_inj

end Cert.ReferenceIdeal.Bucket

end
-- ==== Proof.LibSegSum.lean ====
/-
  Scatter-adds along a column of row indices, at the ideal values, read at one entry — for any extents.

  A table x : [N, C] receives updates u : [E, C] at a column [E, 1] of row indices (what a segment sum of E rows into N
  segments lowers to): update element (e, c) is added at (r e, c), where r e is edge e's index read as a signed integer,
  and is dropped when r e is outside [0, N).  So the result at (n, q) is

      x(n, q) + Σ_{e < E} [r e = n] · u(e, q)                                   (scatterRows_apply),

  the bracket meaning: the summand is u(e, q) where the equation holds and 0 elsewhere.  The vector form — x : [N],
  u : [E], the same column of indices — has at n the value x(n) + Σ_{e < E} [r e = n] · u(e)   (scatterVec_apply).

  Both follow from the exact landing condition of one update element (rows_lands_iff, vec_lands_iff): it lands on an
  entry iff its row index, read signed, IS that entry's row and (for rows) its column is that entry's column.  The sums
  are finite sums on the extended reals, which form a commutative monoid under addition, so nothing about finiteness of
  the summands is needed.
  Imports only the library.
-/
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## Rows: a table [N, C], indices [E, 1], updates [E, C] -/

/-- The dimension numbers of a row scatter: the updates' axis 1 is the window axis and goes to the table's axis 1, the
    table's axis 0 is indexed by the one component of the index vector. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On the row axis the window starts at the edge's index, read signed. -/
theorem rows_start_row :
    (rowsScatter N C E wf).start u idx (0 : Fin 2) = (idx (ix2 (u 0) (0 : Fin 1))).toInt := by
  unfold ScatterDims.start
  rw [dif_pos (show (0 : Fin 2) ∈ (rowsScatter N C E wf).scatterDimsToOperandDims from List.mem_singleton.mpr rfl)]
  refine congrArg (fun k => (idx k).toInt) (funext fun b => Fin.ext ?_)
  match b with
  | ⟨0, _⟩ => rfl
  | ⟨1, _⟩ => rfl

/-- On the column axis the window starts at 0. -/
theorem rows_start_col : (rowsScatter N C E wf).start u idx (1 : Fin 2) = 0 := by
  unfold ScatterDims.start
  exact dif_neg (show ¬ (1 : Fin 2) ∈ ([0] : List (Fin 2)) by decide)

/-- The row axis is inserted: no window coordinate there. -/
theorem rows_window_row : (rowsScatter N C E wf).window u (0 : Fin 2) = 0 := by
  unfold ScatterDims.window
  exact dif_neg (show ¬ (0 : Fin 2) ∈ (rowsScatter N C E wf).sKept by
    simp [ScatterDims.sKept, Shape.kept, List.mem_filter, List.mem_finRange])

/-- On the column axis the window coordinate is the update's own column. -/
theorem rows_window_col : (rowsScatter N C E wf).window u (1 : Fin 2) = (u 1).val := by
  unfold ScatterDims.window
  rw [dif_pos (show (1 : Fin 2) ∈ (rowsScatter N C E wf).sKept by
    simp [ScatterDims.sKept, Shape.kept, List.mem_filter, List.mem_finRange])]
  rfl

/-- An update element lands on the entry i exactly when its edge's index, read signed, is i's row and its column is
    i's column. -/
theorem rows_lands_iff (i : (⟨2, ![N, C]⟩ : Shape).Idx) :
    (rowsScatter N C E wf).resultIdx? u idx = some i
      ↔ (idx (ix2 (u 0) (0 : Fin 1))).toInt = ((i 0).val : Int) ∧ (u 1).val = (i 1).val := by
  have hi0 : (i 0).val < N := idx2_lt0 i
  have hi1 : (i 1).val < C := idx2_lt1 i
  have hu1 : (u 1).val < C := idx2_lt1 u
  unfold ScatterDims.resultIdx?
  split
  · rename_i hall
    have h0 := (hall 0).1
    rw [rows_start_row, rows_window_row] at h0
    constructor
    · intro h
      have e0 : ((rowsScatter N C E wf).start u idx 0 + (rowsScatter N C E wf).window u 0).toNat = (i 0).val :=
        congrArg Fin.val (congrFun (Option.some.inj h) 0)
      have e1 : ((rowsScatter N C E wf).start u idx 1 + (rowsScatter N C E wf).window u 1).toNat = (i 1).val :=
        congrArg Fin.val (congrFun (Option.some.inj h) 1)
      rw [rows_start_row, rows_window_row] at e0
      rw [rows_start_col, rows_window_col] at e1
      constructor <;> omega
    · rintro ⟨hr, hc⟩
      refine congrArg some (funext fun a => Fin.ext ?_)
      match a with
      | ⟨0, _⟩ =>
        show ((rowsScatter N C E wf).start u idx 0 + (rowsScatter N C E wf).window u 0).toNat = (i 0).val
        rw [rows_start_row, rows_window_row]; omega
      | ⟨1, _⟩ =>
        show ((rowsScatter N C E wf).start u idx 1 + (rowsScatter N C E wf).window u 1).toNat = (i 1).val
        rw [rows_start_col, rows_window_col]; omega
  · rename_i hno
    constructor
    · intro h; exact absurd h (by simp)
    · rintro ⟨hr, hc⟩
      refine absurd (fun a => ?_) hno
      match a with
      | ⟨0, _⟩ =>
        show 0 ≤ (rowsScatter N C E wf).start u idx 0 + (rowsScatter N C E wf).window u 0
          ∧ (rowsScatter N C E wf).start u idx 0 + (rowsScatter N C E wf).window u 0 < (N : Int)
        rw [rows_start_row, rows_window_row]; omega
      | ⟨1, _⟩ =>
        show 0 ≤ (rowsScatter N C E wf).start u idx 1 + (rowsScatter N C E wf).window u 1
          ∧ (rowsScatter N C E wf).start u idx 1 + (rowsScatter N C E wf).window u 1 < (C : Int)
        rw [rows_start_col, rows_window_col]; omega

end Rows

/-- A row scatter-add read at (n, q): the table's entry plus the updates (e, q) of the edges e whose index is n. -/
theorem scatterRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (q : Fin C) :
    Host.scatterAdd (F := Ideal) (rowsScatter N C E wf) x idx upd (ix2 n q)
      = x (ix2 n q) + ∑ e : Fin E, if (idx (ix2 e (0 : Fin 1))).toInt = (n.val : Int) then upd (ix2 e q) else 0 := by
  simp only [Host.scatterAdd, Ideal.hostScatterAdd_def, Ideal.hostScatterAdd]
  refine congrArg (x (ix2 n q) + ·) ?_
  rw [Finset.sum_filter, sum_idx2]
  refine Finset.sum_congr rfl fun e _ => ?_
  by_cases hr : (idx (ix2 e (0 : Fin 1))).toInt = (n.val : Int)
  · rw [if_pos hr]
    rw [Finset.sum_eq_single q]
    · exact if_pos ((rows_lands_iff wf idx (ix2 e q) (ix2 n q)).mpr ⟨hr, rfl⟩)
    · intro c _ hc
      exact if_neg fun h => hc (Fin.ext ((rows_lands_iff wf idx (ix2 e c) (ix2 n q)).mp h).2)
    · intro h; exact absurd (Finset.mem_univ q) h
  · rw [if_neg hr]
    exact Finset.sum_eq_zero fun c _ => if_neg fun h => hr ((rows_lands_iff wf idx (ix2 e c) (ix2 n q)).mp h).1

/-! ## A vector [N], indices [E, 1], updates [E] -/

/-- The dimension numbers of a scatter of scalars: no window axis, the vector's one axis indexed by the one component of
    the index vector. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window starts at the edge's index, read signed. -/
theorem vec_start : (vecScatter N E wf).start u idx (0 : Fin 1) = (idx (ix2 (u 0) (0 : Fin 1))).toInt := by
  unfold ScatterDims.start
  rw [dif_pos (show (0 : Fin 1) ∈ (vecScatter N E wf).scatterDimsToOperandDims from List.mem_singleton.mpr rfl)]
  refine congrArg (fun k => (idx k).toInt) (funext fun b => Fin.ext ?_)
  match b with
  | ⟨0, _⟩ => rfl
  | ⟨1, _⟩ => rfl

/-- The one axis is inserted: no window coordinate. -/
theorem vec_window : (vecScatter N E wf).window u (0 : Fin 1) = 0 := by
  unfold ScatterDims.window
  exact dif_neg (show ¬ (0 : Fin 1) ∈ (vecScatter N E wf).sKept by
    simp [ScatterDims.sKept, Shape.kept, List.mem_filter, List.mem_finRange])

/-- An update lands on the entry i exactly when its edge's index, read signed, is i. -/
theorem vec_lands_iff (i : (⟨1, ![N]⟩ : Shape).Idx) :
    (vecScatter N E wf).resultIdx? u idx = some i ↔ (idx (ix2 (u 0) (0 : Fin 1))).toInt = ((i 0).val : Int) := by
  have hi0 : (i 0).val < N := (i 0).isLt
  unfold ScatterDims.resultIdx?
  split
  · rename_i hall
    have h0 := (hall 0).1
    rw [vec_start, vec_window] at h0
    constructor
    · intro h
      have e0 : ((vecScatter N E wf).start u idx 0 + (vecScatter N E wf).window u 0).toNat = (i 0).val :=
        congrArg Fin.val (congrFun (Option.some.inj h) 0)
      rw [vec_start, vec_window] at e0
      omega
    · intro hr
      refine congrArg some (funext fun a => Fin.ext ?_)
      obtain rfl : a = 0 := Subsingleton.elim _ _
      show ((vecScatter N E wf).start u idx 0 + (vecScatter N E wf).window u 0).toNat = (i 0).val
      rw [vec_start, vec_window]; omega
  · rename_i hno
    constructor
    · intro h; exact absurd h (by simp)
    · intro hr
      refine absurd (fun a => ?_) hno
      obtain rfl : a = 0 := Subsingleton.elim _ _
      show 0 ≤ (vecScatter N E wf).start u idx 0 + (vecScatter N E wf).window u 0
        ∧ (vecScatter N E wf).start u idx 0 + (vecScatter N E wf).window u 0 < (N : Int)
      rw [vec_start, vec_window]; omega

end Vec

/-- A sum over the index set of a one-dimensional array is the sum over its coordinate. -/
theorem sum_idx1 {M : Type*} [AddCommMonoid M] {n : Nat} (f : (⟨1, ![n]⟩ : Shape).Idx → M) :
    ∑ i, f i = ∑ a : Fin n, f (ix1 a) := by
  refine (Equiv.sum_comp (⟨fun a => ix1 a, fun i => i 0, fun _ => rfl, fun i => (eq_ix1 i).symm⟩ :
    Fin n ≃ (⟨1, ![n]⟩ : Shape).Idx) f).symm.trans ?_
  rfl

/-- A scatter-add of scalars read at n: the vector's entry plus the updates of the edges whose index is n. -/
theorem scatterVec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  simp only [Host.scatterAdd, Ideal.hostScatterAdd_def, Ideal.hostScatterAdd]
  refine congrArg (x (ix1 n) + ·) ?_
  rw [Finset.sum_filter, sum_idx1]
  refine Finset.sum_congr rfl fun e _ => ?_
  by_cases hr : (idx (ix2 e (0 : Fin 1))).toInt = (n.val : Int)
  · rw [if_pos hr]; exact if_pos ((vec_lands_iff wf idx (ix1 e) (ix1 n)).mpr hr)
  · rw [if_neg hr]; exact if_neg fun h => hr ((vec_lands_iff wf idx (ix1 e) (ix1 n)).mp h)

end Cert.LibSegSum

end
-- ==== Proof.RefPool.lean ====
/-
  The reference's segment means, entry by entry, at the ideal values.

  The reference adds every row's third-layer activations into the row of a zero table that the row's bucket names (a
  bucket outside the table's sixteen rows is dropped), then divides each row of the table by its segment's clipped
  length.  So entry (s, j) is: zero plus the sum, over the rows whose bucket word reads s, of the activation (e, j); the
  whole divided by the clipped length of segment s.
-/
import proofs.«110067_g39341900431964_cont_8to1_b_836_15_alg».proof.Proof.RefBucket
import proofs.«110067_g39341900431964_cont_8to1_b_836_15_alg».proof.Proof.LibSegSum

set_option maxRecDepth 65536

noncomputable section

namespace Cert.ReferenceIdeal.Pool

open Cert.ReferenceIdeal Cert.ReferenceIdeal.Gen Cert.ReferenceIdeal.Read
open Idealize.ShloMosaic Idealize.ShloMosaic.ValueIdx

/-- Entry (s, j) of the segment means. -/
theorem pooled_at (x0 : (⟨S16384x3, .f32⟩ : BufTy).Contents (Elt Ideal)) (x1 : (⟨S17, .i32⟩ : BufTy).Contents (Elt Ideal)) (x2 : (⟨S3x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S128x256, .f32⟩ : BufTy).Contents (Elt Ideal)) (x7 : (⟨S256, .f32⟩ : BufTy).Contents (Elt Ideal)) (s : Fin 16) (j : Fin 256) :
    val_main_v35 (F := Ideal) x0 x1 x2 x3 x4 x5 x6 x7 (ix2 s j)
      = Ideal.div (0 + ∑ e : Fin 16384,
            if (val_main_v23 (F := Ideal) x1 (ix1 e)).toInt = (s.val : ℤ) then val_main_v14 (F := Ideal) x0 x2 x3 x4 x5 x6 x7 (ix2 e j) else 0)
          (val_main_v32 (F := Ideal) x1 (ix1 s)) := by
  rw [val_main_v35_apply, Ideal.hostDivf_def]
  refine congrArg₂ Ideal.div ?_ ?_
  · unfold val_main_v26
    show Host.scatterAdd (F := Ideal) (Cert.LibSegSum.rowsScatter 16 256 16384 scatter_S16x256_S16384x1_S16384x256_1_0_0_1_wf)
        (val_main_v24 (F := Ideal)) (val_main_v25 (F := Ideal) x1) (val_main_v14 (F := Ideal) x0 x2 x3 x4 x5 x6 x7) (ix2 s j) = _
    rw [Cert.LibSegSum.scatterRows_apply]
    have h24 : val_main_v24 (F := Ideal) (ix2 s j) = 0 := by
      rw [val_main_v24_apply, val_main_cst_apply, Ideal.ofBits_def, Ideal.ofBits_zero_f32]
    have h25 : ∀ e : Fin 16384, val_main_v25 (F := Ideal) x1 (ix2 e (0 : Fin 1)) = val_main_v23 (F := Ideal) x1 (ix1 e) := fun e => by
      rw [val_main_v25_apply]
      exact congrArg (val_main_v23 (F := Ideal) x1) (funext fun a => by
        match a with
        | ⟨0, _⟩ => rfl)
    rw [h24]
    refine congrArg (0 + ·) (Finset.sum_congr rfl fun e _ => ?_)
    rw [h25 e]
  · rw [val_main_v34_apply, val_main_v33_apply]
    exact congrArg (val_main_v32 (F := Ideal) x1) (funext fun a => by
      match a with
      | ⟨0, _⟩ => rfl)

end Cert.ReferenceIdeal.Pool

end
-- ==== Proof.RefLen.lean ====
/-
  The reference's divisor for segment s is the segment's clipped length.

  The reference subtracts the first sixteen boundaries from the last sixteen, converts the counts to floats and clips
  them below at one; entry s of that vector is max(count of segment s, 1), the real number the kernel's scale is the
  reciprocal of.
-/
import proofs.«110067_g39341900431964_cont_8to1_b_836_15_alg».proof.Proof.RefPool
import Idealize.ShloMosaic.PureOps.Ideal.Laws

noncomputable section

namespace Cert.ReferenceIdeal.Len

open Cert.ReferenceIdeal Cert.ReferenceIdeal.Gen Cert.ReferenceIdeal.Read
open Idealize.ShloMosaic Idealize.ShloMosaic.ValueIdx

/-- The word 0x3F800000 denotes one. -/
theorem one_word : Ideal.ofBits .f32 0x3F800000#32 = 1 := by
  simp [Ideal.ofBits, Ideal.ieee, -EReal.coe_mul]; norm_num

/-- Entry s of the clipped lengths. -/
theorem divisor_at (cu : (⟨S17, .i32⟩ : BufTy).Contents (Elt Ideal)) (s : Fin 16) :
    val_main_v32 (F := Ideal) cu (ix1 s)
      = ((max ((IntOp.subi (cu (ix1 s.succ)) (cu (ix1 s.castSucc))).toInt : ℝ) 1 : ℝ) : EReal) := by
  rw [val_main_v32_apply, val_main_v30_apply, val_main_v29_apply, val_main_v27_apply, val_main_v28_apply,
    val_main_v31_apply, val_main_cst_0_apply, Ideal.maximumf_def, Ideal.ofBits_def, one_word]
  have h27 : idx_main_v27 (ix1 s) = ix1 s.succ := funext fun a => Fin.ext (by
    match a with
    | ⟨0, _⟩ => show 1 + s.val = s.val + 1; omega)
  have h28 : idx_main_v28 (ix1 s) = ix1 s.castSucc := funext fun a => Fin.ext (by
    match a with
    | ⟨0, _⟩ => rfl)
  rw [h27, h28, EReal.coe_strictMono.monotone.map_max, EReal.coe_one]
  rfl

end Cert.ReferenceIdeal.Len

end
-- ==== Proof.LibPoolLaws.lean ====
/-
  Laws of finite sums on the extended reals behind a pooled, bias-folded perceptron.  For any index types and extents.

  sum_mul_fin: a non-negative finite factor moves inside a finite sum, whatever the summands (multiplying by such a
    factor is additive on the extended reals even where the summands are infinite of both signs).
  pool_law: a MEAN over the members of a set, two ways.  Weight each term by "is a member" (one or zero) times the
    reciprocal of D and add everything; or add the members' terms and divide the total by D.  For a real D ≥ 1 (a count
    clipped below at one) they agree: dividing by D is multiplying by its reciprocal, the reciprocal moves inside the
    sum, a non-member's term is zero either way.  Nothing is assumed finite about the terms.
  sum_aug / dot_aug: a sum of K + 1 + p terms whose last p vanish is the first K terms plus term K; so a product row
    against weights carrying a bias as row K and zero rows after it, where the row's own entry K is one, is the plain
    product plus the bias (1 · b = b, and x · 0 = 0 for every extended real x).
  sum_chunks: a sum over T·K positions is the sum over T chunks of the sums over the K positions of each (position
    r of chunk t being r + K·t); sum_four: four chunks added one after another are that sum.

  Imports the ideal operations only (for the quotient's definition).
-/
import Idealize.ShloMosaic.PureOps.Ideal

open scoped BigOperators

namespace Cert.LibPoolLaws

open Idealize.ShloMosaic

/-- A non-negative finite factor moves inside a finite sum. -/
theorem sum_mul_fin {ι : Type*} (s : Finset ι) (f : ι → EReal) (x : EReal) (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- The mean over a set's members, by weights or by a quotient. -/
theorem pool_law {ι : Type*} [Fintype ι] (P : ι → Prop) [DecidablePred P] (h : ι → EReal) (D : ℝ) (hD : 1 ≤ D) :
    ∑ e, ((if P e then (1 : EReal) else 0) * Ideal.div 1 (D : EReal)) * h e
      = Ideal.div (0 + ∑ e, if P e then h e else 0) (D : EReal) := by
  have hD0 : D ≠ 0 := by intro h0; rw [h0] at hD; norm_num at hD
  have hpos : (0 : ℝ) ≤ 1 / D := by
    have : (0 : ℝ) < D := lt_of_lt_of_le one_pos hD
    exact le_of_lt (one_div_pos.mpr this)
  rw [Ideal.div_coe hD0, Ideal.div_coe hD0, zero_add, one_mul,
    sum_mul_fin _ _ _ (by exact_mod_cast hpos) (EReal.coe_ne_top _)]
  refine Finset.sum_congr rfl fun e _ => ?_
  by_cases hp : P e
  · rw [if_pos hp, if_pos hp, one_mul, mul_comm]
  · simp only [if_neg hp, zero_mul]

/-- A sum whose last p terms vanish. -/
theorem sum_aug {K p : ℕ} (f : Fin (K + 1 + p) → EReal) (hz : ∀ j : Fin p, f (Fin.natAdd (K + 1) j) = 0) :
    ∑ k, f k = (∑ k : Fin K, f (Fin.castAdd p k.castSucc)) + f (Fin.castAdd p (Fin.last K)) := by
  rw [Fin.sum_univ_add, Fin.sum_univ_castSucc]
  simp only [hz, Finset.sum_const_zero, add_zero]

/-- A product row against bias-augmented weights. -/
theorem dot_aug {K p : ℕ} (a w : Fin (K + 1 + p) → EReal) (b : EReal)
    (ha : a (Fin.castAdd p (Fin.last K)) = 1) (hw : w (Fin.castAdd p (Fin.last K)) = b)
    (hz : ∀ j : Fin p, w (Fin.natAdd (K + 1) j) = 0) :
    ∑ k, a k * w k = (∑ k : Fin K, a (Fin.castAdd p k.castSucc) * w (Fin.castAdd p k.castSucc)) + b := by
  rw [sum_aug (fun k => a k * w k) (fun j => by show a _ * w _ = 0; rw [hz j, mul_zero])]
  show _ + a _ * w _ = _
  rw [ha, hw, one_mul]

/-- A sum over T·K positions, chunk by chunk. -/
theorem sum_chunks {M : Type*} [AddCommMonoid M] {T K : ℕ} (f : Fin (T * K) → M) :
    ∑ e, f e = ∑ t : Fin T, ∑ r : Fin K, f (finProdFinEquiv (t, r)) := by
  rw [← finProdFinEquiv.sum_comp, Fintype.sum_prod_type]

/-- Four chunks added one after another. -/
theorem sum_four {M : Type*} [AddCommMonoid M] (p : Fin 4 → M) : ((p 0 + p 1) + p 2) + p 3 = ∑ t, p t := by
  rw [Fin.sum_univ_four]

end Cert.LibPoolLaws
-- ==== Proof.PoolBridge.lean ====
/-
  The segment means, both ways.

  The kernel adds, chunk after chunk, the lane sums of membership · reciprocal length · activation; the reference adds the
  activations of the rows whose bucket is s and divides by the clipped length.  Where the boundaries are cumulative
  offsets a lane's membership test and its row's bucket test are one condition (the bucket law), the reciprocal moves
  inside the sum (the mean by weights is the mean by a quotient), and four chunk sums added in order are the sum over
  all 16384 rows: so the two agree entry by entry, whatever the activations hold, as long as they agree row by row.
-/
import proofs.«110067_g39341900431964_cont_8to1_b_836_15_alg».proof.Proof.RefPool
import proofs.«110067_g39341900431964_cont_8to1_b_836_15_alg».proof.Proof.LibPoolLaws

set_option maxRecDepth 65536

noncomputable section

namespace Cert.Proof.PoolBridge

open Cert.ReferenceIdeal Cert.ReferenceIdeal.Read
open Idealize.ShloMosaic Idealize.ShloMosaic.ValueIdx
open scoped BigOperators

/-- Row 4096·t + r of the point cloud. -/
def rowOf (t : Fin 4) (r : Fin 4096) : Fin 16384 := ⟨r.val + 4096 * t.val, by have := t.isLt; have := r.isLt; omega⟩

/-- Chunk t and lane r, for row 4096·t + r: the rows are the pairs. -/
def rowEquiv : Fin 4 × Fin 4096 ≃ Fin 16384 := finProdFinEquiv.trans (finCongr (by norm_num))

/-- A sum over the 16384 rows, chunk by chunk. -/
theorem sum_rows (f : Fin 16384 → EReal) : ∑ e, f e = ∑ t : Fin 4, ∑ r : Fin 4096, f (rowOf t r) := by
  rw [← rowEquiv.sum_comp, Fintype.sum_prod_type]
  refine Finset.sum_congr rfl fun t _ => Finset.sum_congr rfl fun r _ => congrArg f (Fin.ext ?_)
  show (finProdFinEquiv (t, r)).val = r.val + 4096 * t.val
  exact finProdFinEquiv_apply_val (t, r)

/-- The four chunks' shares of segment s at column j, added in order, are the reference's segment mean there. -/
theorem shares_eq_mean (cu : IVec S17 32) (h0 : cu (ix1 (0 : Fin 17)) = 0#32)
    (hmono : ∀ k : Fin 16, (cu (ix1 k.castSucc)).toInt ≤ (cu (ix1 k.succ)).toInt)
    (hK : Fin 4 → FVec Ideal ⟨2, ![4096, 256]⟩ .f32) (hR : FVec Ideal S16384x256 .f32)
    (hrows : ∀ (t : Fin 4) (r : Fin 4096) (j : Fin 256), hK t (ix2 r j) = hR (ix2 (rowOf t r) j))
    (s : Fin 16) (j : Fin 256) (D : ℝ) (hD : 1 ≤ D) :
    let lane : Fin 4 → Fin 4096 → EReal := fun t r =>
      ((if ((cu (ix1 s.castSucc)).toInt ≤ (4096 * t.val + r.val : ℤ) ∧ (4096 * t.val + r.val : ℤ) < (cu (ix1 s.succ)).toInt)
          then (1 : EReal) else 0) * Ideal.div 1 (D : EReal)) * hK t (ix2 r j)
    (((∑ r, lane 0 r) + ∑ r, lane 1 r) + ∑ r, lane 2 r) + ∑ r, lane 3 r
      = Ideal.div (0 + ∑ e : Fin 16384,
            if (val_main_v23 (F := Ideal) cu (ix1 e)).toInt = (s.val : ℤ) then hR (ix2 e j) else 0) (D : EReal) := by
  intro lane
  rw [← Cert.LibPoolLaws.pool_law (fun e : Fin 16384 => (val_main_v23 (F := Ideal) cu (ix1 e)).toInt = (s.val : ℤ))
    (fun e => hR (ix2 e j)) D hD, sum_rows, ← Cert.LibPoolLaws.sum_four]
  have hl : ∀ (t : Fin 4) (r : Fin 4096), lane t r
      = ((if (val_main_v23 (F := Ideal) cu (ix1 (rowOf t r))).toInt = (s.val : ℤ) then (1 : EReal) else 0) * Ideal.div 1 (D : EReal))
          * hR (ix2 (rowOf t r) j) := fun t r => by
    show ((if _ then (1 : EReal) else 0) * _) * hK t (ix2 r j) = _
    rw [hrows t r j]
    refine congrArg (fun x : EReal => (x * Ideal.div 1 (D : EReal)) * hR (ix2 (rowOf t r) j)) ?_
    refine if_congr ?_ rfl rfl
    have hb := Cert.ReferenceIdeal.Bucket.bucket_eq_iff (F := Ideal) cu h0 hmono (rowOf t r) s
    have hv : ((rowOf t r).val : ℤ) = 4096 * (t.val : ℤ) + (r.val : ℤ) := by
      show ((r.val + 4096 * t.val : ℕ) : ℤ) = _
      push_cast; ring
    rw [hv] at hb
    exact hb.symm
  simp only [hl]

end Cert.Proof.PoolBridge

end
-- ==== Proof.PreOrder.lean ====
/-
  What the precondition says of the boundaries.

  Beside the finiteness of the float inputs, the precondition states that the seventeen boundaries are cumulative
  offsets: the first is zero and each is at most the next.  Printed, that is: the one-entry slice at position 0,
  reshaped to a scalar, compared for equality with the zero word; and the conjunction, over the sixteen positions, of
  the signed comparison "entry j+1 of the array ≥ entry j" between the slice from position 1 and the slice from
  position 0.  Read back at the scalar index, the all-ones value of the whole predicate gives both facts about the
  array's words, as signed integers.  For any float instance: the boundaries are integers.
-/
import proofs.«110067_g39341900431964_cont_8to1_b_836_15_alg».proof.Pre_finite_inputs
import proofs.«110067_g39341900431964_cont_8to1_b_836_15_alg».proof.Proof.Gen.Pre_finite_inputs
import Idealize.ShloMosaic.Lib.ReduceAll
import Idealize.ShloMosaic.Lib.ValueIdx
import Idealize.ShloMosaic.Lib.Pipeline.Value
import Idealize.ShloMosaic.Lib.Affine

noncomputable section

namespace Cert.Proof.PreOrder

open Idealize.ShloMosaic Idealize.ShloMosaic.ValueIdx Cert.Pre_finite_inputs

variable {F : FTy → Type} [FloatOps F] [Cert.Pre_finite_inputs.Facts]

instance : Subsingleton S_.Idx := ⟨fun a b => funext fun d => d.elim0⟩

/-- Where the precondition holds, the first boundary is the zero word and the boundaries do not decrease. -/
theorem boundaries_of_pre (a0 : FVec F S16384x3 .f32) (a1 : IVec S17 32) (a2 : FVec F S3x64 .f32) (a3 : FVec F S64 .f32) (a4 : FVec F S64x128 .f32) (a5 : FVec F S128 .f32) (a6 : FVec F S128x256 .f32) (a7 : FVec F S256 .f32) (a8 : FVec F S256x512 .f32) (a9 : FVec F S512 .f32) (a10 : FVec F S512x2500 .f32) (a11 : FVec F S2500 .f32)
    (h : fn (F := F) a0 a1 a2 a3 a4 a5 a6 a7 a8 a9 a10 a11 = fun _ => 1#1) :
    a1 (ix1 (0 : Fin 17)) = 0#32 ∧ ∀ j : Fin 16, (a1 (ix1 j.castSucc)).toInt ≤ (a1 (ix1 j.succ)).toInt := by
  have h0 := congrFun h ix0
  dsimp only [fn, fn_part1, fn_part2, fn_part3] at h0
  obtain ⟨h57, h61⟩ := IntOp.andi_eq_one.mp h0
  obtain ⟨-, h56⟩ := IntOp.andi_eq_one.mp h57
  refine ⟨?_, fun j => ?_⟩
  · have e := IntOp.cmpi_eq.mp h56
    rw [shapeCast_apply _ _ ix0 (ix1 (0 : Fin 1)) (by decide),
      extractStridedSlice_apply ![0] a1 _ (ix1 (0 : Fin 1)) (ix1 (0 : Fin 17)) (fun a => by match a with | ⟨0, _⟩ => rfl)] at e
    exact e
  · have hj := Host.reduce_andi_all _ _ _ _ ix0 h61 (ix1 j)
    have hle := IntOp.cmpi_sge.mp hj
    rw [extractStridedSlice_apply ![0] a1 _ (ix1 j) (ix1 j.castSucc) (fun a => by
          match a with
          | ⟨0, _⟩ => show j.val = 0 + j.val; omega),
        extractStridedSlice_apply ![1] a1 _ (ix1 j) (ix1 j.succ) (fun a => by
          match a with
          | ⟨0, _⟩ => show j.val + 1 = 1 + j.val; omega)] at hle
    exact hle

end Cert.Proof.PreOrder

end
-- ==== Proof.HeadEq.lean ====
/-
  The dense head, on both sides.

  From the sixteen segment means the kernel and the reference compute the same thing: a product with the fourth layer's
  weights, its bias added to every row, a clip below at zero; a product with the fifth layer's weights, its bias added; the
  logistic, which at the ideal values is by definition one over one plus the exponential of the negation.  The kernel
  has the biases as one-row matrices spread down the sixteen rows, the reference as vectors spread the same way.
-/
import proofs.«110067_g39341900431964_cont_8to1_b_836_15_alg».proof.Proof.KIKit
import proofs.«110067_g39341900431964_cont_8to1_b_836_15_alg».proof.Proof.RefSide
import proofs.«110067_g39341900431964_cont_8to1_b_836_15_alg».proof.Proof.LibMatmulZero
import Idealize.ShloMosaic.Lib.ValueLayout
import Idealize.ShloMosaic.Lib.Pipeline.Value

set_option maxRecDepth 65536

noncomputable section

namespace Cert.Proof.Head

open Idealize.ShloMosaic Idealize.ShloMosaic.ValueIdx
open Cert.ReferenceIdeal.Read

/-- The word 0x3F800000 denotes one. -/
theorem one_word : Ideal.ofBits .f32 0x3F800000#32 = 1 := by
  simp [Ideal.ofBits, Ideal.ieee, -EReal.coe_mul]; norm_num

/-- The reference's result entry (s, q), down to its segment means. -/
theorem ref_head_at (x0 : (⟨Cert.ReferenceIdeal.S16384x3, .f32⟩ : BufTy).Contents (Elt Ideal)) (x1 : (⟨Cert.ReferenceIdeal.S17, .i32⟩ : BufTy).Contents (Elt Ideal)) (x2 : (⟨Cert.ReferenceIdeal.S3x64, .f32⟩ : BufTy).Contents (Elt Ideal)) (x3 : (⟨Cert.ReferenceIdeal.S64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S128x256, .f32⟩ : BufTy).Contents (Elt Ideal)) (x7 : (⟨Cert.ReferenceIdeal.S256, .f32⟩ : BufTy).Contents (Elt Ideal)) (x8 : (⟨Cert.ReferenceIdeal.S256x512, .f32⟩ : BufTy).Contents (Elt Ideal)) (x9 : (⟨Cert.ReferenceIdeal.S512, .f32⟩ : BufTy).Contents (Elt Ideal)) (x10 : (⟨Cert.ReferenceIdeal.S512x2500, .f32⟩ : BufTy).Contents (Elt Ideal)) (x11 : (⟨Cert.ReferenceIdeal.S2500, .f32⟩ : BufTy).Contents (Elt Ideal)) (s : Fin 16) (q : Fin 2500) :
    val_main_v50 (F := Ideal) x0 x1 x2 x3 x4 x5 x6 x7 x8 x9 x10 x11 (ix2 s q)
      = Ideal.logistic (∑ k : Fin 512,
          max ((∑ k' : Fin 256, val_main_v35 (F := Ideal) x0 x1 x2 x3 x4 x5 x6 x7 (ix2 s k') * x8 (ix2 k' k)) + x9 (ix1 k)) 0 * x10 (ix2 k q)
          + x11 (ix1 q)) := by
  rw [val_main_v50_apply, val_main_v49_apply, val_main_cst_2_apply, val_main_v48_apply, val_main_v47_apply,
    val_main_cst_1_apply, val_main_v46_apply, val_main_v45_apply, val_main_v44_apply, val_main_v41_apply,
    val_main_v43_apply, val_main_v42_apply]
  rw [Ideal.ofBits_def, one_word]
  show Ideal.logistic _ = _
  refine congrArg Ideal.logistic ?_
  rw [Ideal.addf_def]
  have e11 : idx_main_v42 (idx_main_v43 (ix2 s q)) = ix1 q := funext fun a => by
      match a with
      | ⟨0, _⟩ => rfl
  rw [e11]
  refine congrArg (· + x11 (ix1 q)) (Finset.sum_congr rfl fun k _ => ?_)
  have el : lidx_main_v41 (ix2 s q) k = ix2 s k := funext fun a => by
      match a with
      | ⟨0, _⟩ => rfl
      | ⟨1, _⟩ => rfl
  have er : ridx_main_v41 (ix2 s q) k = ix2 k q := funext fun a => by
      match a with
      | ⟨0, _⟩ => rfl
      | ⟨1, _⟩ => rfl
  rw [el, er, val_main_v40_apply, val_main_v39_apply, val_main_v36_apply, val_main_v38_apply, val_main_v37_apply,
    val_main_call3_v0_apply, val_main_call3_cst_apply, Ideal.maximumf_def, Ideal.addf_def, Ideal.ofBits_def, Ideal.ofBits_zero_f32]
  have e9 : idx_main_v37 (idx_main_v38 (ix2 s k)) = ix1 k := funext fun a => by
      match a with
      | ⟨0, _⟩ => rfl
  rw [e9]
  refine congrArg (fun z : EReal => max (z + x9 (ix1 k)) 0 * x10 (ix2 k q)) (Finset.sum_congr rfl fun k' _ => ?_)
  have el' : lidx_main_v36 (ix2 s k) k' = ix2 s k' := funext fun a => by
      match a with
      | ⟨0, _⟩ => rfl
      | ⟨1, _⟩ => rfl
  have er' : ridx_main_v36 (ix2 s k) k' = ix2 k' k := funext fun a => by
      match a with
      | ⟨0, _⟩ => rfl
      | ⟨1, _⟩ => rfl
  rw [el', er']

/-- The kernel's result entry (s, q), from the accumulator and the head's four blocks. -/
theorem ker_head_at (A : FVec Ideal Cert.KernelIdeal.S16x256 .f32) (w4 : FVec Ideal Cert.KernelIdeal.S256x512 .f32)
    (b4 : FVec Ideal Cert.KernelIdeal.S1x512 .f32) (w5 : FVec Ideal Cert.KernelIdeal.S512x2500 .f32)
    (b5 : FVec Ideal Cert.KernelIdeal.S1x2500 .f32) (s : Fin 16) (q : Fin 2500) :
    Cert.KernelIdeal.Gen.k0_pay4 (F := Ideal) A w4 b4 w5 b5 (ix2 s q)
      = Ideal.logistic (∑ k : Fin 512,
          max ((∑ k' : Fin 256, A (ix2 s k') * w4 (ix2 k' k)) + b4 (ix2 (0 : Fin 1) k)) 0 * w5 (ix2 k q)
          + b5 (ix2 (0 : Fin 1) q)) := by
  unfold Cert.KernelIdeal.Gen.k0_pay4
  show Ideal.logistic _ = _
  refine congrArg Ideal.logistic ?_
  show FloatOps.addf (matmul Cert.KernelIdeal.dot_S16x512_S512x2500_S16x2500_1_0_0_1_n_n none _ w5 _ (ix2 s q)) (broadcastTo _ _ _ (ix2 s q)) = _
  rw [Ideal.addf_def, Cert.LibMatmulZero.matmul_zero_ix2 Cert.KernelIdeal.dot_S16x512_S512x2500_S16x2500_1_0_0_1_n_n rfl rfl rfl rfl
    (fun i c => by
      unfold DotDims.lhsIdx
      rw [dif_neg (show ¬(0 : Fin _) ∈ Cert.KernelIdeal.dot_S16x512_S512x2500_S16x2500_1_0_0_1_n_n.lhsBatch by decide), dif_pos (show (0 : Fin _) ∈ Cert.KernelIdeal.dot_S16x512_S512x2500_S16x2500_1_0_0_1_n_n.lhsNonContracting by decide)]
      rfl)
    (fun i c => by
      unfold DotDims.rhsIdx
      rw [dif_neg (show ¬(1 : Fin _) ∈ Cert.KernelIdeal.dot_S16x512_S512x2500_S16x2500_1_0_0_1_n_n.rhsBatch by decide), dif_pos (show (1 : Fin _) ∈ Cert.KernelIdeal.dot_S16x512_S512x2500_S16x2500_1_0_0_1_n_n.rhsNonContracting by decide)]
      rfl)
    none _ _ s q, broadcastTo_1b_ab_apply, shapeCast_self, shapeCast_self]
  refine congrArg (· + b5 (ix2 (0 : Fin 1) q)) (Finset.sum_congr rfl fun k _ => ?_)
  refine congrArg (· * w5 (ix2 k q)) ?_
  show FloatOps.maximumf (FloatOps.addf (matmul Cert.KernelIdeal.dot_S16x256_S256x512_S16x512_1_0_0_1_n_n none A w4 _ (ix2 s k)) (broadcastTo _ _ _ (ix2 s k))) _ = _
  rw [Ideal.maximumf_def, Ideal.addf_def, Cert.LibMatmulZero.matmul_zero_ix2 Cert.KernelIdeal.dot_S16x256_S256x512_S16x512_1_0_0_1_n_n rfl rfl rfl rfl
    (fun i c => by
      unfold DotDims.lhsIdx
      rw [dif_neg (show ¬(0 : Fin _) ∈ Cert.KernelIdeal.dot_S16x256_S256x512_S16x512_1_0_0_1_n_n.lhsBatch by decide), dif_pos (show (0 : Fin _) ∈ Cert.KernelIdeal.dot_S16x256_S256x512_S16x512_1_0_0_1_n_n.lhsNonContracting by decide)]
      rfl)
    (fun i c => by
      unfold DotDims.rhsIdx
      rw [dif_neg (show ¬(1 : Fin _) ∈ Cert.KernelIdeal.dot_S16x256_S256x512_S16x512_1_0_0_1_n_n.rhsBatch by decide), dif_pos (show (1 : Fin _) ∈ Cert.KernelIdeal.dot_S16x256_S256x512_S16x512_1_0_0_1_n_n.rhsNonContracting by decide)]
      rfl)
    none _ _ s k, broadcastTo_1b_ab_apply]
  rw [broadcast_apply, Ideal.ofBits_def, Ideal.ofBits_zero_f32]

end Cert.Proof.Head

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.LibStack3.lean ====
/-
  Three matrices stacked, read at one entry.  For any extents and element type.

  Matrices of a, b and c rows and the same C columns, stacked one above the other (a concatenation along axis 0 into
  n = a + b + c rows), read at row p: the first at row p when p is below a, the second at row p − a when a ≤ p < a + b,
  the third at row p − a − b beyond.  (Side by side — along axis 1 — is the companion case.)  Each is the library's reading of
  a concatenation at the piece whose span holds the row.

  Imports only the library.
-/
import Idealize.ShloMosaic.Lib.ValueIdx
import Idealize.ShloMosaic.Lib.Pipeline.Value

noncomputable section

namespace Cert.LibStack3

open Idealize.ShloMosaic Idealize.ShloMosaic.ValueIdx

variable {α : Type} {C a b c n : Nat}
  (x1 : (⟨2, ![a, C]⟩ : Shape).Idx → α) (x2 : (⟨2, ![b, C]⟩ : Shape).Idx → α) (x3 : (⟨2, ![c, C]⟩ : Shape).Idx → α)
  (h : Shape.Concatenates [(⟨2, ![a, C]⟩ : Shape), ⟨2, ![b, C]⟩, ⟨2, ![c, C]⟩] ⟨2, ![n, C]⟩ 0)

/-- At a row p below a: the first matrix at row p. -/
theorem stack3_apply_0 (p : Fin n) (q : Fin C) (p' : Fin a) (hp : p'.val = p.val) :
    concatenate ⟨2, ![n, C]⟩ 0 [⟨⟨2, ![a, C]⟩, x1⟩, ⟨⟨2, ![b, C]⟩, x2⟩, ⟨⟨2, ![c, C]⟩, x3⟩] h (ix2 p q) = x1 (ix2 p' q) :=
  concatenate_apply_piece (t := ⟨2, ![n, C]⟩) (0 : Fin 2) [⟨⟨2, ![a, C]⟩, x1⟩, ⟨⟨2, ![b, C]⟩, x2⟩, ⟨⟨2, ![c, C]⟩, x3⟩] h (ix2 p q) 0 (by simp)
    ⟨2, ![a, C]⟩ x1 rfl rfl 0 rfl (ix2 p' q)
    (fun d hd => by
      match d with
      | ⟨0, _⟩ => exact absurd rfl hd
      | ⟨1, _⟩ => rfl)
    (by show 0 + p'.val = p.val; omega)

/-- At a row a + p': the second matrix at row p'. -/
theorem stack3_apply_1 (p : Fin n) (q : Fin C) (p' : Fin b) (hp : a + p'.val = p.val) :
    concatenate ⟨2, ![n, C]⟩ 0 [⟨⟨2, ![a, C]⟩, x1⟩, ⟨⟨2, ![b, C]⟩, x2⟩, ⟨⟨2, ![c, C]⟩, x3⟩] h (ix2 p q) = x2 (ix2 p' q) :=
  concatenate_apply_piece (t := ⟨2, ![n, C]⟩) (0 : Fin 2) [⟨⟨2, ![a, C]⟩, x1⟩, ⟨⟨2, ![b, C]⟩, x2⟩, ⟨⟨2, ![c, C]⟩, x3⟩] h (ix2 p q) 1 (by simp)
    ⟨2, ![b, C]⟩ x2 rfl rfl a (by simp) (ix2 p' q)
    (fun d hd => by
      match d with
      | ⟨0, _⟩ => exact absurd rfl hd
      | ⟨1, _⟩ => rfl)
    (by show a + p'.val = p.val; omega)

/-- At a row a + b + p': the third matrix at row p'. -/
theorem stack3_apply_2 (p : Fin n) (q : Fin C) (p' : Fin c) (hp : a + b + p'.val = p.val) :
    concatenate ⟨2, ![n, C]⟩ 0 [⟨⟨2, ![a, C]⟩, x1⟩, ⟨⟨2, ![b, C]⟩, x2⟩, ⟨⟨2, ![c, C]⟩, x3⟩] h (ix2 p q) = x3 (ix2 p' q) :=
  concatenate_apply_piece (t := ⟨2, ![n, C]⟩) (0 : Fin 2) [⟨⟨2, ![a, C]⟩, x1⟩, ⟨⟨2, ![b, C]⟩, x2⟩, ⟨⟨2, ![c, C]⟩, x3⟩] h (ix2 p q) 2 (by simp)
    ⟨2, ![c, C]⟩ x3 rfl rfl (a + b) (by simp) (ix2 p' q)
    (fun d hd => by
      match d with
      | ⟨0, _⟩ => exact absurd rfl hd
      | ⟨1, _⟩ => rfl)
    (by show a + b + p'.val = p.val; omega)

end Cert.LibStack3

end
-- ==== Proof.KIAug.lean ====
/-
  The augmented arrays, entry by entry, at the ideal values.

  The point cloud's extra column 3 holds ones.  Each augmented weight matrix holds, down a weight column: the weights,
  then the bias, then zeros; and the first two carry one more column whose only non-zero entry, a one, sits in the row of
  the incoming ones.  So a row of activations whose own ones entry is one, multiplied into an augmented weight column,
  picks up exactly the plain product plus the bias, and multiplied into the extra column reproduces the one.
-/
import proofs.«110067_g39341900431964_cont_8to1_b_836_15_alg».proof.Proof.LibRowOps
import proofs.«110067_g39341900431964_cont_8to1_b_836_15_alg».proof.Proof.LibStack3
import proofs.«110067_g39341900431964_cont_8to1_b_836_15_alg».proof.Proof.KILen

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The scalar zero spread over a shape reads zero everywhere. -/
theorem zeros_at (S : Shape) (h : S_.BroadcastsInDim S (![] : Fin 0 → Fin S.rank)) (i : S.Idx) : zeros (F := Ideal) S h i = 0 := by
  unfold zeros
  rw [broadcastInDim_apply ![] h _ i ix0 (fun a => a.elim0), constant_apply, Ideal.ofBits_zero_f32]

/-! ## The point cloud -/

/-- Columns 0, 1, 2 are the point's coordinates. -/
theorem cloud_lt (X : FVec Ideal S16384x3 .f32) (e : Fin 16384) (k : Fin 8) (k' : Fin 3) (hk : k'.val = k.val) :
    cloudAug X (ix2 e k) = X (ix2 e k') := by
  unfold cloudAug
  exact Cert.LibRowOps.concat3_apply_0 _ _ _ _ e k k' hk

/-- Column 3 is one. -/
theorem cloud_three (X : FVec Ideal S16384x3 .f32) (e : Fin 16384) : cloudAug X (ix2 e (3 : Fin 8)) = 1 := by
  unfold cloudAug
  rw [Cert.LibRowOps.concat3_apply_1 _ _ _ _ e (3 : Fin 8) (0 : Fin 1) (by decide), ones_at]

/-! ## The unit blocks -/

/-- Where the first layer's unit entry lands: row 3, column 0 of its block. -/
theorem unit1_target :
    scatter_S8x8_S2_S__n_01_01_0.resultIdx? (S_.rowMajor.symm ⟨0, by decide⟩) (unitAt 3#32) = some (ix2 (3 : Fin 8) (0 : Fin 8)) := by
  decide

/-- The first layer's unit block: a one at (3, 0), zero elsewhere. -/
theorem unit1_at (i : S8x8.Idx) :
    Host.scatter scatter_S8x8_S2_S__n_01_01_0 (fun _ b => b) (zeros (F := Ideal) S8x8 bcast_S_S8x8) (unitAt 3#32)
        (constant (F := Ideal) S_ .f32 0x3F800000#32) i
      = if i = ix2 (3 : Fin 8) (0 : Fin 8) then 1 else 0 := by
  unfold Host.scatter
  have hl : List.finRange (S_ : Shape).numel = [⟨0, by decide⟩] := by decide
  rw [hl, List.foldl_cons, List.foldl_nil]
  dsimp only
  rw [unit1_target]
  dsimp only
  by_cases hi : i = ix2 (3 : Fin 8) (0 : Fin 8)
  · rw [if_pos hi, if_pos hi, constant_apply, one_word]
  · rw [if_neg hi, if_neg hi, zeros_at]

/-- Where the second layer's unit entry lands: row 64, column 0 of its block. -/
theorem unit2_target :
    scatter_S72x8_S2_S__n_01_01_0.resultIdx? (S_.rowMajor.symm ⟨0, by decide⟩) (unitAt 64#32) = some (ix2 (64 : Fin 72) (0 : Fin 8)) := by
  decide

/-- The second layer's unit block: a one at (64, 0), zero elsewhere. -/
theorem unit2_at (i : S72x8.Idx) :
    Host.scatter scatter_S72x8_S2_S__n_01_01_0 (fun _ b => b) (zeros (F := Ideal) S72x8 bcast_S_S72x8) (unitAt 64#32)
        (constant (F := Ideal) S_ .f32 0x3F800000#32) i
      = if i = ix2 (64 : Fin 72) (0 : Fin 8) then 1 else 0 := by
  unfold Host.scatter
  have hl : List.finRange (S_ : Shape).numel = [⟨0, by decide⟩] := by decide
  rw [hl, List.foldl_cons, List.foldl_nil]
  dsimp only
  rw [unit2_target]
  dsimp only
  by_cases hi : i = ix2 (64 : Fin 72) (0 : Fin 8)
  · rw [if_pos hi, if_pos hi, constant_apply, one_word]
  · rw [if_neg hi, if_neg hi, zeros_at]

/-- A vector laid as a one-row matrix reads, at (u, j), the vector at j. -/
theorem vec_row_at {α : Type} {n : ℕ} (b : (⟨1, ![n]⟩ : Shape).Idx → α)
    (h : (⟨1, ![n]⟩ : Shape).BroadcastsInDim ⟨2, ![1, n]⟩ ![1]) (u : Fin 1) (j : Fin n) :
    broadcastInDim ⟨2, ![1, n]⟩ ![1] h b (ix2 u j) = b (ix1 j) :=
  broadcastInDim_apply ![1] h b (ix2 u j) (ix1 j) (fun a => by
    match a with
    | ⟨0, _⟩ =>
      show j.val = if n = 1 then 0 else j.val
      split
      · have := j.isLt; omega
      · rfl)

/-! ## The first layer's weights -/

theorem w1_w (W : FVec Ideal S3x64 .f32) (b : FVec Ideal S64 .f32) (k : Fin 8) (j : Fin 72) (j' : Fin 64) (hj : j'.val = j.val) (k' : Fin 3) (hk : k'.val = k.val) :
    w1Aug W b (ix2 k j) = W (ix2 k' j') := by
  unfold w1Aug
  rw [Cert.LibRowOps.concat2_apply_0 _ _ _ k j j' hj, Cert.LibStack3.stack3_apply_0 _ _ _ _ k j' k' hk]

theorem w1_b (W : FVec Ideal S3x64 .f32) (b : FVec Ideal S64 .f32) (k : Fin 8) (j : Fin 72) (j' : Fin 64) (hj : j'.val = j.val) (hk : k.val = 3) :
    w1Aug W b (ix2 k j) = b (ix1 j') := by
  unfold w1Aug
  rw [Cert.LibRowOps.concat2_apply_0 _ _ _ k j j' hj, Cert.LibStack3.stack3_apply_1 _ _ _ _ k j' (0 : Fin 1) (by show 3 + 0 = k.val; omega), vec_row_at]

theorem w1_z (W : FVec Ideal S3x64 .f32) (b : FVec Ideal S64 .f32) (k : Fin 8) (j : Fin 72) (j' : Fin 64) (hj : j'.val = j.val) (k' : Fin 4) (hk : 3 + 1 + k'.val = k.val) :
    w1Aug W b (ix2 k j) = 0 := by
  unfold w1Aug
  rw [Cert.LibRowOps.concat2_apply_0 _ _ _ k j j' hj, Cert.LibStack3.stack3_apply_2 _ _ _ _ k j' k' hk, zeros_at]

theorem w1_unit (W : FVec Ideal S3x64 .f32) (b : FVec Ideal S64 .f32) (k : Fin 8) :
    w1Aug W b (ix2 k (64 : Fin 72)) = if k.val = 3 then 1 else 0 := by
  unfold w1Aug
  rw [Cert.LibRowOps.concat2_apply_1 _ _ _ k (64 : Fin 72) (0 : Fin 8) (by decide), unit1_at]
  refine if_congr ⟨fun h => ?_, fun h => ?_⟩ rfl rfl
  · exact congrArg Fin.val (congrFun h 0)
  · have hk : k = (3 : Fin 8) := Fin.ext h
    rw [hk]

/-! ## The second layer's weights -/

theorem w2_w (W : FVec Ideal S64x128 .f32) (b : FVec Ideal S128 .f32) (k : Fin 72) (j : Fin 136) (j' : Fin 128) (hj : j'.val = j.val) (k' : Fin 64) (hk : k'.val = k.val) :
    w2Aug W b (ix2 k j) = W (ix2 k' j') := by
  unfold w2Aug
  rw [Cert.LibRowOps.concat2_apply_0 _ _ _ k j j' hj, Cert.LibStack3.stack3_apply_0 _ _ _ _ k j' k' hk]

theorem w2_b (W : FVec Ideal S64x128 .f32) (b : FVec Ideal S128 .f32) (k : Fin 72) (j : Fin 136) (j' : Fin 128) (hj : j'.val = j.val) (hk : k.val = 64) :
    w2Aug W b (ix2 k j) = b (ix1 j') := by
  unfold w2Aug
  rw [Cert.LibRowOps.concat2_apply_0 _ _ _ k j j' hj, Cert.LibStack3.stack3_apply_1 _ _ _ _ k j' (0 : Fin 1) (by show 64 + 0 = k.val; omega), vec_row_at]

theorem w2_z (W : FVec Ideal S64x128 .f32) (b : FVec Ideal S128 .f32) (k : Fin 72) (j : Fin 136) (j' : Fin 128) (hj : j'.val = j.val) (k' : Fin 7) (hk : 64 + 1 + k'.val = k.val) :
    w2Aug W b (ix2 k j) = 0 := by
  unfold w2Aug
  rw [Cert.LibRowOps.concat2_apply_0 _ _ _ k j j' hj, Cert.LibStack3.stack3_apply_2 _ _ _ _ k j' k' hk, zeros_at]

theorem w2_unit (W : FVec Ideal S64x128 .f32) (b : FVec Ideal S128 .f32) (k : Fin 72) :
    w2Aug W b (ix2 k (128 : Fin 136)) = if k.val = 64 then 1 else 0 := by
  unfold w2Aug
  rw [Cert.LibRowOps.concat2_apply_1 _ _ _ k (128 : Fin 136) (0 : Fin 8) (by decide), unit2_at]
  refine if_congr ⟨fun h => ?_, fun h => ?_⟩ rfl rfl
  · exact congrArg Fin.val (congrFun h 0)
  · have hk : k = (64 : Fin 72) := Fin.ext h
    rw [hk]

/-! ## The third layer's weights -/

theorem w3_w (W : FVec Ideal S128x256 .f32) (b : FVec Ideal S256 .f32) (k : Fin 136) (j' : Fin 256) (k' : Fin 128) (hk : k'.val = k.val) :
    w3Aug W b (ix2 k j') = W (ix2 k' j') := by
  unfold w3Aug
  rw [Cert.LibStack3.stack3_apply_0 _ _ _ _ k j' k' hk]

theorem w3_b (W : FVec Ideal S128x256 .f32) (b : FVec Ideal S256 .f32) (k : Fin 136) (j' : Fin 256) (hk : k.val = 128) :
    w3Aug W b (ix2 k j') = b (ix1 j') := by
  unfold w3Aug
  rw [Cert.LibStack3.stack3_apply_1 _ _ _ _ k j' (0 : Fin 1) (by show 128 + 0 = k.val; omega), vec_row_at]

theorem w3_z (W : FVec Ideal S128x256 .f32) (b : FVec Ideal S256 .f32) (k : Fin 136) (j' : Fin 256) (k' : Fin 7) (hk : 128 + 1 + k'.val = k.val) :
    w3Aug W b (ix2 k j') = 0 := by
  unfold w3Aug
  rw [Cert.LibStack3.stack3_apply_2 _ _ _ _ k j' k' hk, zeros_at]

end Cert.KernelIdeal.Fr

end
-- ==== Proof.KILayers.lean ====
/-
  The three layers' stores, entry by entry, at the ideal values.

  Each layer is one product of the chunk's activations with an augmented weight matrix, clipped below at zero: entry
  (r, j) is max(Σ_k a(r, k) · w(k, j), 0), the sum over the augmented inner extent (8, 72, 136).
-/
import proofs.«110067_g39341900431964_cont_8to1_b_836_15_alg».proof.Proof.LibMatmulZero
import Idealize.ShloMosaic.Lib.Pipeline.Value
import Idealize.ShloMosaic.Lib.ValueIdx
import Idealize.ShloMosaic.PureOps.Ideal.Laws
import proofs.«110067_g39341900431964_cont_8to1_b_836_15_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem pay5_at (v0 : FVec Ideal S4096x8 .f32) (v2 : FVec Ideal S8x72 .f32) (r : Fin 4096) (j : Fin 72) :
    k0_pay5 (F := Ideal) v0 v2 (ix2 r j) = max (∑ k : Fin 8, v0 (ix2 r k) * v2 (ix2 k j)) 0 := by
  unfold k0_pay5
  rw [shapeCast_self, shapeCast_self, shapeCast_self]
  show FloatOps.maximumf (matmul dot_S4096x8_S8x72_S4096x72_1_0_0_1_n_n none v0 v2 _ (ix2 r j)) (broadcast _ _ (ix2 r j)) = _
  rw [Ideal.maximumf_def, Cert.LibMatmulZero.matmul_zero_ix2 dot_S4096x8_S8x72_S4096x72_1_0_0_1_n_n rfl rfl rfl rfl
    (fun i c => by
      unfold DotDims.lhsIdx
      rw [dif_neg (show ¬(0 : Fin _) ∈ dot_S4096x8_S8x72_S4096x72_1_0_0_1_n_n.lhsBatch by decide), dif_pos (show (0 : Fin _) ∈ dot_S4096x8_S8x72_S4096x72_1_0_0_1_n_n.lhsNonContracting by decide)]
      rfl)
    (fun i c => by
      unfold DotDims.rhsIdx
      rw [dif_neg (show ¬(1 : Fin _) ∈ dot_S4096x8_S8x72_S4096x72_1_0_0_1_n_n.rhsBatch by decide), dif_pos (show (1 : Fin _) ∈ dot_S4096x8_S8x72_S4096x72_1_0_0_1_n_n.rhsNonContracting by decide)]
      rfl)
    none _ _ r j, broadcast_apply]
  show max _ (FloatOps.ofBits (F := Ideal) .f32 0x00000000#32) = _
  rw [Ideal.ofBits_def, Ideal.ofBits_zero_f32]

theorem pay6_at (v10 : FVec Ideal S4096x72 .f32) (v11 : FVec Ideal S72x136 .f32) (r : Fin 4096) (j : Fin 136) :
    k0_pay6 (F := Ideal) v10 v11 (ix2 r j) = max (∑ k : Fin 72, v10 (ix2 r k) * v11 (ix2 k j)) 0 := by
  unfold k0_pay6
  rw [shapeCast_self, shapeCast_self]
  show FloatOps.maximumf (matmul dot_S4096x72_S72x136_S4096x136_1_0_0_1_n_n none v10 v11 _ (ix2 r j)) (broadcast _ _ (ix2 r j)) = _
  rw [Ideal.maximumf_def, Cert.LibMatmulZero.matmul_zero_ix2 dot_S4096x72_S72x136_S4096x136_1_0_0_1_n_n rfl rfl rfl rfl
    (fun i c => by
      unfold DotDims.lhsIdx
      rw [dif_neg (show ¬(0 : Fin _) ∈ dot_S4096x72_S72x136_S4096x136_1_0_0_1_n_n.lhsBatch by decide), dif_pos (show (0 : Fin _) ∈ dot_S4096x72_S72x136_S4096x136_1_0_0_1_n_n.lhsNonContracting by decide)]
      rfl)
    (fun i c => by
      unfold DotDims.rhsIdx
      rw [dif_neg (show ¬(1 : Fin _) ∈ dot_S4096x72_S72x136_S4096x136_1_0_0_1_n_n.rhsBatch by decide), dif_pos (show (1 : Fin _) ∈ dot_S4096x72_S72x136_S4096x136_1_0_0_1_n_n.rhsNonContracting by decide)]
      rfl)
    none _ _ r j, broadcast_apply]
  show max _ (FloatOps.ofBits (F := Ideal) .f32 0x00000000#32) = _
  rw [Ideal.ofBits_def, Ideal.ofBits_zero_f32]

theorem pay7_at (v19 : FVec Ideal S4096x136 .f32) (v20 : FVec Ideal S136x256 .f32) (r : Fin 4096) (j : Fin 256) :
    k0_pay7 (F := Ideal) v19 v20 (ix2 r j) = max (∑ k : Fin 136, v19 (ix2 r k) * v20 (ix2 k j)) 0 := by
  unfold k0_pay7
  rw [shapeCast_self]
  show FloatOps.maximumf (matmul dot_S4096x136_S136x256_S4096x256_1_0_0_1_n_n none v19 v20 _ (ix2 r j)) (broadcast _ _ (ix2 r j)) = _
  rw [Ideal.maximumf_def, Cert.LibMatmulZero.matmul_zero_ix2 dot_S4096x136_S136x256_S4096x256_1_0_0_1_n_n rfl rfl rfl rfl
    (fun i c => by
      unfold DotDims.lhsIdx
      rw [dif_neg (show ¬(0 : Fin _) ∈ dot_S4096x136_S136x256_S4096x256_1_0_0_1_n_n.lhsBatch by decide), dif_pos (show (0 : Fin _) ∈ dot_S4096x136_S136x256_S4096x256_1_0_0_1_n_n.lhsNonContracting by decide)]
      rfl)
    (fun i c => by
      unfold DotDims.rhsIdx
      rw [dif_neg (show ¬(1 : Fin _) ∈ dot_S4096x136_S136x256_S4096x256_1_0_0_1_n_n.rhsBatch by decide), dif_pos (show (1 : Fin _) ∈ dot_S4096x136_S136x256_S4096x256_1_0_0_1_n_n.rhsNonContracting by decide)]
      rfl)
    none _ _ r j, broadcast_apply]
  show max _ (FloatOps.ofBits (F := Ideal) .f32 0x00000000#32) = _
  rw [Ideal.ofBits_def, Ideal.ofBits_zero_f32]

end Cert.KernelIdeal.Fr

end
-- ==== Proof.KILayerEq.lean ====
/-
  The kernel's layers are the plain layers.

  A chunk row's augmented activations carry a one in the column after the features; the augmented weights carry the bias
  in the row after the weights and zeros below, and (for the first two layers) a unit column that reproduces the one.
  So each layer's store is, at a feature column, max(Σ_k a(k)·W(k, j) + b(j), 0) over the PLAIN inner extent, and at the
  extra column it is one again — which is what the next layer needs.
-/
import proofs.«110067_g39341900431964_cont_8to1_b_836_15_alg».proof.Proof.KIAug
import proofs.«110067_g39341900431964_cont_8to1_b_836_15_alg».proof.Proof.LibPoolLaws
import proofs.«110067_g39341900431964_cont_8to1_b_836_15_alg».proof.Proof.KILayers

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The first layer -/

/-- At a feature column: the plain product plus the bias, clipped at zero. -/
theorem layer1_feat (X : FVec Ideal S16384x3 .f32) (W : FVec Ideal S3x64 .f32) (b : FVec Ideal S64 .f32)
    (x4 : FVec Ideal S4096x8 .f32) (e : Fin 16384) (r : Fin 4096)
    (hx : ∀ k : Fin 8, x4 (ix2 r k) = cloudAug X (ix2 e k)) (j : Fin 72) (j' : Fin 64) (hj : j'.val = j.val) :
    k0_pay5 (F := Ideal) x4 (w1Aug W b) (ix2 r j)
      = max ((∑ k : Fin 3, X (ix2 e k) * W (ix2 k j')) + b (ix1 j')) 0 := by
  rw [pay5_at]
  refine congrArg (fun z : EReal => max z 0) ?_
  have h := Cert.LibPoolLaws.dot_aug (K := 3) (p := 4) (fun k : Fin (3 + 1 + 4) => x4 (ix2 r k))
    (fun k : Fin (3 + 1 + 4) => w1Aug W b (ix2 k j)) (b (ix1 j'))
    (by show x4 (ix2 r (3 : Fin 8)) = 1; rw [hx]; exact cloud_three X e)
    (w1_b W b _ j j' hj rfl)
    (fun p => w1_z W b _ j j' hj p rfl)
  refine h.trans ?_
  refine congrArg (· + b (ix1 j')) (Finset.sum_congr rfl fun k _ => ?_)
  show x4 (ix2 r _) * w1Aug W b (ix2 _ j) = _
  rw [hx, cloud_lt X e _ k rfl, w1_w W b _ j j' hj k rfl]

/-- At the extra column: one. -/
theorem layer1_one (X : FVec Ideal S16384x3 .f32) (W : FVec Ideal S3x64 .f32) (b : FVec Ideal S64 .f32)
    (x4 : FVec Ideal S4096x8 .f32) (e : Fin 16384) (r : Fin 4096)
    (hx : ∀ k : Fin 8, x4 (ix2 r k) = cloudAug X (ix2 e k)) :
    k0_pay5 (F := Ideal) x4 (w1Aug W b) (ix2 r (64 : Fin 72)) = 1 := by
  rw [pay5_at]
  have hs : ∑ k : Fin 8, x4 (ix2 r k) * w1Aug W b (ix2 k (64 : Fin 72)) = 1 := by
    rw [Finset.sum_eq_single (3 : Fin 8)]
    · rw [w1_unit, if_pos (by decide), mul_one, hx, cloud_three]
    · intro k _ hk
      have hne : ¬ (k.val = 3) := fun h => hk (Fin.ext h)
      rw [w1_unit, if_neg hne, mul_zero]
    · intro h; exact absurd (Finset.mem_univ _) h
  rw [hs]
  exact max_eq_left zero_le_one

/-! ## The second layer -/

/-- At a feature column: the plain product with the previous layer plus the bias, clipped at zero. -/
theorem layer2_feat (W : FVec Ideal S64x128 .f32) (b : FVec Ideal S128 .f32) (L : FVec Ideal S4096x72 .f32) (r : Fin 4096)
    (hone : L (ix2 r (64 : Fin 72)) = 1) (j : Fin 136) (j' : Fin 128) (hj : j'.val = j.val) :
    k0_pay6 (F := Ideal) L (w2Aug W b) (ix2 r j)
      = max ((∑ k : Fin 64, L (ix2 r (Fin.castAdd 7 k.castSucc)) * W (ix2 k j')) + b (ix1 j')) 0 := by
  rw [pay6_at]
  refine congrArg (fun z : EReal => max z 0) ?_
  have h := Cert.LibPoolLaws.dot_aug (K := 64) (p := 7) (fun k : Fin (64 + 1 + 7) => L (ix2 r k))
    (fun k : Fin (64 + 1 + 7) => w2Aug W b (ix2 k j)) (b (ix1 j'))
    (by show L (ix2 r (64 : Fin 72)) = 1; exact hone)
    (w2_b W b _ j j' hj rfl)
    (fun p => w2_z W b _ j j' hj p rfl)
  refine h.trans ?_
  refine congrArg (· + b (ix1 j')) (Finset.sum_congr rfl fun k _ => ?_)
  show L (ix2 r _) * w2Aug W b (ix2 _ j) = _
  rw [w2_w W b _ j j' hj k rfl]

/-- At the extra column: one. -/
theorem layer2_one (W : FVec Ideal S64x128 .f32) (b : FVec Ideal S128 .f32) (L : FVec Ideal S4096x72 .f32) (r : Fin 4096)
    (hone : L (ix2 r (64 : Fin 72)) = 1) :
    k0_pay6 (F := Ideal) L (w2Aug W b) (ix2 r (128 : Fin 136)) = 1 := by
  rw [pay6_at]
  have hs : ∑ k : Fin 72, L (ix2 r k) * w2Aug W b (ix2 k (128 : Fin 136)) = 1 := by
    rw [Finset.sum_eq_single (64 : Fin 72)]
    · rw [w2_unit, if_pos (by decide), mul_one, hone]
    · intro k _ hk
      have hne : ¬ (k.val = 64) := fun h => hk (Fin.ext h)
      rw [w2_unit, if_neg hne, mul_zero]
    · intro h; exact absurd (Finset.mem_univ _) h
  rw [hs]
  exact max_eq_left zero_le_one

/-! ## The third layer -/

/-- At a feature column: the plain product with the previous layer plus the bias, clipped at zero. -/
theorem layer3_feat (W : FVec Ideal S128x256 .f32) (b : FVec Ideal S256 .f32) (L : FVec Ideal S4096x136 .f32) (r : Fin 4096)
    (hone : L (ix2 r (128 : Fin 136)) = 1) (j' : Fin 256) :
    k0_pay7 (F := Ideal) L (w3Aug W b) (ix2 r j')
      = max ((∑ k : Fin 128, L (ix2 r (Fin.castAdd 7 k.castSucc)) * W (ix2 k j')) + b (ix1 j')) 0 := by
  rw [pay7_at]
  refine congrArg (fun z : EReal => max z 0) ?_
  have h := Cert.LibPoolLaws.dot_aug (K := 128) (p := 7) (fun k : Fin (128 + 1 + 7) => L (ix2 r k))
    (fun k : Fin (128 + 1 + 7) => w3Aug W b (ix2 k j')) (b (ix1 j'))
    (by show L (ix2 r (128 : Fin 136)) = 1; exact hone)
    (w3_b W b _ j' rfl)
    (fun p => w3_z W b _ j' p rfl)
  refine h.trans ?_
  refine congrArg (· + b (ix1 j')) (Finset.sum_congr rfl fun k _ => ?_)
  show L (ix2 r _) * w3Aug W b (ix2 _ j') = _
  rw [w3_w W b _ j' k rfl]

end Cert.KernelIdeal.Fr

end
-- ==== Proof.RefLayers.lean ====
/-
  The reference's three layers, entry by entry, at the ideal values: each is max(Σ_k a(e, k)·W(k, j) + b(j), 0).
-/
import proofs.«110067_g39341900431964_cont_8to1_b_836_15_alg».proof.Proof.RefSide
import Idealize.ShloMosaic.PureOps.Ideal.Laws

set_option maxRecDepth 65536

noncomputable section

namespace Cert.ReferenceIdeal.Layers

open Cert.ReferenceIdeal Cert.ReferenceIdeal.Gen Cert.ReferenceIdeal.Read
open Idealize.ShloMosaic Idealize.ShloMosaic.ValueIdx

theorem layer1_at (x0 : (⟨S16384x3, .f32⟩ : BufTy).Contents (Elt Ideal)) (x2 : (⟨S3x64, .f32⟩ : BufTy).Contents (Elt Ideal))
    (x3 : (⟨S64, .f32⟩ : BufTy).Contents (Elt Ideal)) (e : Fin 16384) (j : Fin 64) :
    val_main_v4 (F := Ideal) x0 x2 x3 (ix2 e j) = max ((∑ k : Fin 3, x0 (ix2 e k) * x2 (ix2 k j)) + x3 (ix1 j)) 0 := by
  rw [val_main_v4_apply, val_main_v3_apply, val_main_v0_apply, val_main_v2_apply, val_main_v1_apply,
    val_main_call0_v0_apply, val_main_call0_cst_apply, Ideal.maximumf_def, Ideal.addf_def, Ideal.ofBits_def, Ideal.ofBits_zero_f32]
  have eb : idx_main_v1 (idx_main_v2 (ix2 e j)) = ix1 j := funext fun a => by
      match a with
      | ⟨0, _⟩ => rfl
  rw [eb]
  refine congrArg (fun z : EReal => max (z + x3 (ix1 j)) 0) (Finset.sum_congr rfl fun k _ => ?_)
  have el : lidx_main_v0 (ix2 e j) k = ix2 e k := funext fun a => by
      match a with
      | ⟨0, _⟩ => rfl
      | ⟨1, _⟩ => rfl
  have er : ridx_main_v0 (ix2 e j) k = ix2 k j := funext fun a => by
      match a with
      | ⟨0, _⟩ => rfl
      | ⟨1, _⟩ => rfl
  rw [el, er]

theorem layer2_at (x0 : (⟨S16384x3, .f32⟩ : BufTy).Contents (Elt Ideal)) (x2 : (⟨S3x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (e : Fin 16384) (j : Fin 128) :
    val_main_v9 (F := Ideal) x0 x2 x3 x4 x5 (ix2 e j)
      = max ((∑ k : Fin 64, val_main_v4 (F := Ideal) x0 x2 x3 (ix2 e k) * x4 (ix2 k j)) + x5 (ix1 j)) 0 := by
  rw [val_main_v9_apply, val_main_v8_apply, val_main_v5_apply, val_main_v7_apply, val_main_v6_apply,
    val_main_call1_v0_apply, val_main_call1_cst_apply, Ideal.maximumf_def, Ideal.addf_def, Ideal.ofBits_def, Ideal.ofBits_zero_f32]
  have eb : idx_main_v6 (idx_main_v7 (ix2 e j)) = ix1 j := funext fun a => by
      match a with
      | ⟨0, _⟩ => rfl
  rw [eb]
  refine congrArg (fun z : EReal => max (z + x5 (ix1 j)) 0) (Finset.sum_congr rfl fun k _ => ?_)
  have el : lidx_main_v5 (ix2 e j) k = ix2 e k := funext fun a => by
      match a with
      | ⟨0, _⟩ => rfl
      | ⟨1, _⟩ => rfl
  have er : ridx_main_v5 (ix2 e j) k = ix2 k j := funext fun a => by
      match a with
      | ⟨0, _⟩ => rfl
      | ⟨1, _⟩ => rfl
  rw [el, er]

theorem layer3_at (x0 : (⟨S16384x3, .f32⟩ : BufTy).Contents (Elt Ideal)) (x2 : (⟨S3x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S128x256, .f32⟩ : BufTy).Contents (Elt Ideal)) (x7 : (⟨S256, .f32⟩ : BufTy).Contents (Elt Ideal)) (e : Fin 16384) (j : Fin 256) :
    val_main_v14 (F := Ideal) x0 x2 x3 x4 x5 x6 x7 (ix2 e j)
      = max ((∑ k : Fin 128, val_main_v9 (F := Ideal) x0 x2 x3 x4 x5 (ix2 e k) * x6 (ix2 k j)) + x7 (ix1 j)) 0 := by
  rw [val_main_v14_apply, val_main_v13_apply, val_main_v10_apply, val_main_v12_apply, val_main_v11_apply,
    val_main_call2_v0_apply, val_main_call2_cst_apply, Ideal.maximumf_def, Ideal.addf_def, Ideal.ofBits_def, Ideal.ofBits_zero_f32]
  have eb : idx_main_v11 (idx_main_v12 (ix2 e j)) = ix1 j := funext fun a => by
      match a with
      | ⟨0, _⟩ => rfl
  rw [eb]
  refine congrArg (fun z : EReal => max (z + x7 (ix1 j)) 0) (Finset.sum_congr rfl fun k _ => ?_)
  have el : lidx_main_v10 (ix2 e j) k = ix2 e k := funext fun a => by
      match a with
      | ⟨0, _⟩ => rfl
      | ⟨1, _⟩ => rfl
  have er : ridx_main_v10 (ix2 e j) k = ix2 k j := funext fun a => by
      match a with
      | ⟨0, _⟩ => rfl
      | ⟨1, _⟩ => rfl
  rw [el, er]

end Cert.ReferenceIdeal.Layers

end
-- ==== Proof.Bridge.lean ====
/-
  The equation between the two programs' results.

  On the reference's side: every row's three layers, each row's bucket (how many of the sixteen upper bounds are at or
  below its index), the bucket sums divided by the clipped lengths, the dense head.  On the kernel's side: the dense
  head of the accumulator after four chunks, each chunk adding the product of the scaled membership matrix of the
  ranges [cu[s], cu[s+1]) with its rows' third layer, the layers computed with the biases folded into the products.

  Why they agree where the offsets are cumulative (cu[0] = 0, non-decreasing):
   * a row's bucket is s exactly when cu[s] ≤ row < cu[s+1] — the boundaries at or below the row are then an initial
     stretch of the sixteen, of length s;
   * a product with weights augmented by the bias as row K and zero rows after it, against activations whose column K
     is one, is the plain product plus the bias: 1 · b = b and x · 0 = 0 for every extended real x; and the unit
     column of the first two augmented matrices reproduces the one for the next layer;
   * a non-negative finite factor — the reciprocal of max(count, 1) — moves inside a finite sum on the extended reals,
     and dividing by max(count, 1) is multiplying by that reciprocal;
   * the four chunks' sums, added in order, are the sum over all 16384 rows: addition of extended reals is
     associative and commutative;
   * the dense head is the same operations on both sides, the logistic being 1 / (1 + e^(-x)) by definition.
  Nothing here needs the float inputs to be finite: of the precondition only the two facts about the offsets are used.

  The modules this one joins: the precondition read back (PreOrder); the bucket as a count and as a range (RefBucket,
  over LibBuckets and LibCount); the kernel's membership bit, bounds and scale (KIMember, KIBounds, KILen) and a chunk's
  share at an entry (KIPool); the reference's means and divisor at an entry (RefPool, RefLen); the two means joined
  (PoolBridge); the layers, augmented and plain (KIAug, KILayers, KILayerEq, RefLayers); the head on both sides
  (HeadEq); the kernel's result array as the head of the accumulated shares on the windows' blocks (KIValue, KIAcc,
  KIBlocks, KIHost).
-/
import proofs.«110067_g39341900431964_cont_8to1_b_836_15_alg».proof.Proof.KIAcc
import proofs.«110067_g39341900431964_cont_8to1_b_836_15_alg».proof.Proof.KIPool
import proofs.«110067_g39341900431964_cont_8to1_b_836_15_alg».proof.Proof.KILen
import proofs.«110067_g39341900431964_cont_8to1_b_836_15_alg».proof.Proof.KIBlocks
import proofs.«110067_g39341900431964_cont_8to1_b_836_15_alg».proof.Proof.RefLen
import proofs.«110067_g39341900431964_cont_8to1_b_836_15_alg».proof.Proof.PoolBridge
import proofs.«110067_g39341900431964_cont_8to1_b_836_15_alg».proof.Proof.PreOrder
import proofs.«110067_g39341900431964_cont_8to1_b_836_15_alg».proof.Proof.HeadEq
import proofs.«110067_g39341900431964_cont_8to1_b_836_15_alg».proof.Proof.KILayerEq
import proofs.«110067_g39341900431964_cont_8to1_b_836_15_alg».proof.Proof.RefLayers
import proofs.«110067_g39341900431964_cont_8to1_b_836_15_alg».proof.Proof.KIHost
import Idealize.ShloMosaic.Lib.ValueLayout

set_option maxRecDepth 65536

noncomputable section

namespace Cert.Proof.Bridge

open Idealize.ShloMosaic Idealize.ShloMosaic.TcCoe Idealize.SL.Sem Idealize.ShloMosaic.ValueIdx
open Cert.KernelIdeal.Fr

/-- Chunk t as a grid point. -/
def pt (t : Fin 4) : Fin Cert.KernelIdeal.cfg0.N :=
  ⟨t.val, by rw [show Cert.KernelIdeal.cfg0.N = 4 from Cert.KernelIdeal.Gen.N_0]; exact t.isLt⟩

/-- The grid's one coordinate at chunk t is t. -/
theorem coord_pt (t : Fin 4) : ((Cert.KernelIdeal.grid0.coords (pt t)) 0).val = t.val := by
  fin_cases t <;> decide +kernel

/-- The kernel's three layers on chunk t's rows, with the biases folded into augmented products, are the reference's three
    layers on rows 4096·t + r: layer by layer from the outside, each augmented product the plain product plus the bias,
    the extra columns of the first two layers being one. -/
theorem layers_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) (t : Fin 4) (r : Fin 4096) (j : Fin 256) :
    layers (F := Ideal) (iblk m c 3 (pt t)) (iblk m c 4 (pt t)) (iblk m c 5 (pt t)) (iblk m c 6 (pt t)) (ix2 r j)
      = Cert.ReferenceIdeal.Read.val_main_v14 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (ix2 (Cert.Proof.PoolBridge.rowOf t r) j) := by
  obtain ⟨e0, -, e2, e3, e4, e5, e6, e7, -, -, -, -⟩ := hagree c
  rw [e0, e2, e3, e4, e5, e6, e7]
  have hb4 : @Eq (FVec Ideal Cert.KernelIdeal.S8x72 .f32) (iblk m c 4 (pt t)) (w1Aug (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) := by rw [block_4, V_w1]
  have hb5 : @Eq (FVec Ideal Cert.KernelIdeal.S72x136 .f32) (iblk m c 5 (pt t)) (w2Aug (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) := by rw [block_5, V_w2]
  have hb6 : @Eq (FVec Ideal Cert.KernelIdeal.S136x256 .f32) (iblk m c 6 (pt t)) (w3Aug (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) := by rw [block_6, V_w3]
  have hx : ∀ k : Fin 8, @Eq EReal ((iblk m c 3 (pt t) : FVec Ideal Cert.KernelIdeal.S4096x8 .f32) (ix2 r k))
      (cloudAug (F := Ideal) (m ((c.tc : Thread Cert.KernelIdeal.nD Cert.KernelIdeal.τ).loc Cert.KernelIdeal.main_arg0)) (ix2 (Cert.Proof.PoolBridge.rowOf t r) k)) := fun k => by
    rw [block_3 m c (pt t) (ix2 r k) (ix2 (Cert.Proof.PoolBridge.rowOf t r) k)
      (by show r.val + 4096 * t.val = 4096 * t.val + r.val; omega) rfl, V_cloud]
  show Cert.KernelIdeal.Gen.k0_pay7 (F := Ideal) (Cert.KernelIdeal.Gen.k0_pay6 (F := Ideal)
      (Cert.KernelIdeal.Gen.k0_pay5 (F := Ideal) (iblk m c 3 (pt t)) (iblk m c 4 (pt t))) (iblk m c 5 (pt t))) (iblk m c 6 (pt t)) (ix2 r j) = _
  rw [hb4, hb5, hb6]
  have one1 := layer1_one (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (iblk m c 3 (pt t)) (Cert.Proof.PoolBridge.rowOf t r) r hx
  have one2 := layer2_one (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.KernelIdeal.Gen.k0_pay5 (F := Ideal) (iblk m c 3 (pt t)) (w1Aug (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))) r one1
  rw [layer3_feat (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (Cert.KernelIdeal.Gen.k0_pay6 (F := Ideal) (Cert.KernelIdeal.Gen.k0_pay5 (F := Ideal) (iblk m c 3 (pt t)) (w1Aug (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))) (w2Aug (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))) r one2 j, Cert.ReferenceIdeal.Layers.layer3_at]
  refine congrArg (fun z : EReal => max (z + (m ((c.tc : Thread Cert.KernelIdeal.nD Cert.KernelIdeal.τ).loc Cert.KernelIdeal.main_arg7)) (ix1 j)) 0) (Finset.sum_congr rfl fun k _ => ?_)
  refine congrArg (fun z : EReal => z * (m ((c.tc : Thread Cert.KernelIdeal.nD Cert.KernelIdeal.τ).loc Cert.KernelIdeal.main_arg6)) (ix2 k j)) ?_
  rw [layer2_feat (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.KernelIdeal.Gen.k0_pay5 (F := Ideal) (iblk m c 3 (pt t)) (w1Aug (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))) r one1 (Fin.castAdd 7 k.castSucc) k rfl, Cert.ReferenceIdeal.Layers.layer2_at]
  refine congrArg (fun z : EReal => max (z + (m ((c.tc : Thread Cert.KernelIdeal.nD Cert.KernelIdeal.τ).loc Cert.KernelIdeal.main_arg5)) (ix1 k)) 0) (Finset.sum_congr rfl fun k2 _ => ?_)
  refine congrArg (fun z : EReal => z * (m ((c.tc : Thread Cert.KernelIdeal.nD Cert.KernelIdeal.τ).loc Cert.KernelIdeal.main_arg4)) (ix2 k2 k)) ?_
  rw [layer1_feat (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (iblk m c 3 (pt t)) (Cert.Proof.PoolBridge.rowOf t r) r hx (Fin.castAdd 7 k2.castSucc) k2 rfl,
    Cert.ReferenceIdeal.Layers.layer1_at]

/-- Chunk t's share at (s, k), with the bounds, the scale and the chunk's offset read back to the boundaries. -/
theorem share_pt (m : (ℓ : Loc Cert.KernelIdeal.nD Cert.KernelIdeal.τ Cert.KernelIdeal.sig) → Buf (Elt Ideal) ℓ) (c : Dev Cert.KernelIdeal.nD) (t : Fin 4) (s : Fin 16) (k : Fin 256) :
    shareAt m c (pt t) (ix2 s k)
      = ∑ r : Fin 4096,
          ((if (((m ((c.tc : Thread Cert.KernelIdeal.nD Cert.KernelIdeal.τ).loc Cert.KernelIdeal.main_arg1)) (ix1 s.castSucc)).toInt ≤ (4096 * t.val + r.val : ℤ) ∧ (4096 * t.val + r.val : ℤ) < ((m ((c.tc : Thread Cert.KernelIdeal.nD Cert.KernelIdeal.τ).loc Cert.KernelIdeal.main_arg1)) (ix1 s.succ)).toInt)
              then (1 : EReal) else 0) * Ideal.div 1 ((segLen (m ((c.tc : Thread Cert.KernelIdeal.nD Cert.KernelIdeal.τ).loc Cert.KernelIdeal.main_arg1)) s : ℝ) : EReal))
            * layers (F := Ideal) (iblk m c 3 (pt t)) (iblk m c 4 (pt t)) (iblk m c 5 (pt t)) (iblk m c 6 (pt t)) (ix2 r k) := by
  unfold shareAt
  rw [share_at, block_0, block_1, block_2, V_lower, V_upper, V_invLen, lower_at, upper_at, invLen_at, coord_pt]

/-- The accumulator after four chunks is the reference's segment means, entry by entry . -/
theorem acc_agrees (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) (s : Fin 16) (k : Fin 256) :
    accChain m c 3 three_lt (ix2 s k)
      = Cert.ReferenceIdeal.Read.val_main_v35 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (ix2 s k) := by
  obtain ⟨h0, hmono⟩ := Cert.Proof.PreOrder.boundaries_of_pre (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (hpre c)
  have hcu : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) := (hagree c).2.1
  rw [Cert.ReferenceIdeal.Pool.pooled_at, Cert.ReferenceIdeal.Len.divisor_at, hcu, acc_at]
  show ((shareAt m c (pt 0) (ix2 s k) + shareAt m c (pt 1) (ix2 s k)) + shareAt m c (pt 2) (ix2 s k)) + shareAt m c (pt 3) (ix2 s k) = _
  rw [share_pt, share_pt, share_pt, share_pt]
  exact Cert.Proof.PoolBridge.shares_eq_mean (m ((c.tc : Thread Cert.KernelIdeal.nD Cert.KernelIdeal.τ).loc Cert.KernelIdeal.main_arg1)) h0 hmono
    (fun t => layers (F := Ideal) (iblk m c 3 (pt t)) (iblk m c 4 (pt t)) (iblk m c 5 (pt t)) (iblk m c 6 (pt t)))
    (Cert.ReferenceIdeal.Read.val_main_v14 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
    (fun t r j => layers_agree m m' hagree c t r j) s k (segLen (m ((c.tc : Thread Cert.KernelIdeal.nD Cert.KernelIdeal.τ).loc Cert.KernelIdeal.main_arg1)) s) (one_le_segLen (m ((c.tc : Thread Cert.KernelIdeal.nD Cert.KernelIdeal.τ).loc Cert.KernelIdeal.main_arg1)) s)

/-- The reference's result term, of arguments that agree with the kernel's, is the kernel's result array. -/
theorem result_agrees (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) :
    Cert.ReferenceIdeal.Read.val_main_v50 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      = Cert.KernelIdeal.Fr.result (F := Ideal) m c := by
  funext (i : Cert.KernelIdeal.S16x2500.Idx)
  obtain ⟨s, q, rfl⟩ : ∃ (s : Fin 16) (q : Fin 2500), i = ix2 s q := ⟨i 0, i 1, eq_ix2 i⟩
  obtain ⟨-, -, -, -, -, -, -, -, e8, e9, e10, e11⟩ := hagree c
  rw [Cert.Proof.Head.ref_head_at, result_eq, Cert.Proof.Head.ker_head_at,
    block_7, block_8, block_9, block_10, V_main_arg8, V_main_arg10, V_b4, V_b5, e8, e9, e10, e11]
  simp only [shapeCast_a_1a_apply, acc_agrees m m' hpre hagree c]

end Cert.Proof.Bridge

end
-- ==== Proof.lean ====
/-
  The claims of this certificate.

  The kernel streams the point cloud in four chunks of 4096 rows.  Per chunk it applies the three-layer
  perceptron row by row — each layer one product with weights augmented by their bias as an extra row, the
  activations carrying a column of ones that picks that row up — and adds the chunk's share of every segment's
  mean (one product of the membership matrix of the contiguous ranges [cu[s], cu[s+1]), scaled by the reciprocal
  of the clipped length, with the third layer) into an accumulator; after the last chunk the dense head maps the
  sixteen means to the result.  The reference applies the same layers to all 16384 rows at once, buckets each row
  by counting the boundaries at or below it, sums the rows of each bucket and divides by the clipped length.

  The three frames: the kernel's at both instances by the frame built in KFrame / KIFrame on the generated launch
  kit (the body's three cases run by the symbolic executor, the accumulator tracked between chunks); the
  reference's is its generated run with the result dropped.  The ideal pass rewrote nothing, so there is nothing to
  preserve.
-/
import proofs.«110067_g39341900431964_cont_8to1_b_836_15_alg».proof.Defs
import proofs.«110067_g39341900431964_cont_8to1_b_836_15_alg».proof.Proof.Gen.Kernel
import proofs.«110067_g39341900431964_cont_8to1_b_836_15_alg».proof.Proof.Gen.KernelIdeal
import proofs.«110067_g39341900431964_cont_8to1_b_836_15_alg».proof.Proof.Gen.ReferenceIdeal
import proofs.«110067_g39341900431964_cont_8to1_b_836_15_alg».proof.Proof.Gen.Pre_finite_inputs
import proofs.«110067_g39341900431964_cont_8to1_b_836_15_alg».proof.Proof.KFrame
import proofs.«110067_g39341900431964_cont_8to1_b_836_15_alg».proof.Proof.KIFrame
import proofs.«110067_g39341900431964_cont_8to1_b_836_15_alg».proof.Proof.RefSide
import proofs.«110067_g39341900431964_cont_8to1_b_836_15_alg».proof.Proof.Bridge
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference is host operations only: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run; the kernel's result array ends at the dense head of its accumulator, the
    reference's at its operations' composed term, and these are one array (Bridge). -/
theorem algebraic : Cert.algebraic_KernelIdeal_ReferenceIdeal := by
  intro m ρ m' ρ' hpre hagree
  refine ⟨fun c => Cert.KernelIdeal.Fr.result (F := Ideal) m c, Cert.KernelIdeal.Fr.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  exact Cert.Proof.Bridge.result_agrees m m' hpre hagree c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
